-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg4 : FVec F S256x1 .f32) (main_arg5 : FVec F S256x1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  main_v28

def fn {F : FTy → Type} [FloatOps F] (main_arg0 : FVec F S8192x512 .f32) (main_arg1 : FVec F S8192x8192 .f32) (main_arg2 : FVec F S8192x8192 .f32) (main_arg3 : FVec F S512x256 .f32) (main_arg4 : FVec F S256x1 .f32) (main_arg5 : FVec F S256x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S8192x256 : Shape := ⟨2, ![8192, 256]⟩
abbrev S8192x1 : Shape := ⟨2, ![8192, 1]⟩
abbrev S1024x512 : Shape := ⟨2, ![1024, 512]⟩
abbrev S1024x256 : Shape := ⟨2, ![1024, 256]⟩
abbrev S1024x1 : Shape := ⟨2, ![1024, 1]⟩
abbrev S1x8192 : Shape := ⟨2, ![1, 8192]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩

abbrev nBuf : Space → Nat
  | .hbm => 11
  | .vmem => 25
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S512x256, .f32⟩
  | .hbm, ⟨4, _⟩ => ⟨S256x1, .f32⟩
  | .hbm, ⟨5, _⟩ => ⟨S256x1, .f32⟩
  | .hbm, ⟨6, _⟩ => ⟨S8192x256, .bf16⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S256x1, .f32⟩
  | .local _ .vmem, ⟨4, _⟩ => ⟨S256x1, .f32⟩
  | .local _ .vmem, ⟨5, _⟩ => ⟨S1024x256, .bf16⟩
  | .local _ .vmem, ⟨6, _⟩ => ⟨S1024x256, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S512x1, .f32⟩
  | .local _ .vmem, ⟨12, _⟩ => ⟨S512x1, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S8192x256, .bf16⟩
  | .local _ .vmem, ⟨20, _⟩ => ⟨S512x256, .f32⟩
  | .local _ .vmem, ⟨21, _⟩ => ⟨S512x256, .f32⟩
  | .local _ .vmem, ⟨22, _⟩ => ⟨S512x1, .f32⟩
  | .local _ .vmem, ⟨23, _⟩ => ⟨S512x1, .f32⟩
  | .local _ .vmem, ⟨24, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c1024_i32 : BitVec 32 := 1024#32
  let v40 : BitVec 32 := Scalar.muli arg1 c1024_i32
  v40
def k1_off1 (i : grid1.Coords) : Fin 2 → Nat :=
  let arg1 : BitVec 32 := BitVec.ofNat 32 (i 1).val
  let c1024_i32 : BitVec 32 := 1024#32
  let v40 : BitVec 32 := Scalar.muli arg1 c1024_i32
  let v41 : BitVec 32 := v40
  let v42 : Index := Scalar.indexCast v41
  let c0_21 : Index := 0#32
  ![v42.toNat, 0]
def k1_cond2 (i : grid1.Coords) : BitVec 1 :=
  let arg1 : BitVec 32 := BitVec.ofNat 32 (i 1).val
  let c7_i32 : BitVec 32 := 7#32
  let v57 : BitVec 1 := Scalar.cmpi .eq arg1 c7_i32
  let v58 : BitVec 32 := Scalar.extui v57
  let c0_i32_29 : BitVec 32 := 0#32
  let v59 : BitVec 1 := Scalar.cmpi .ne v58 c0_i32_29
  v59

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S8192x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S256x1_S256x1_0_0 : ∀ a, (![0, 0] : Fin 2 → Nat) a + S256x1.size a ≤ S256x1.size a
  h_S256x1 : 0 < S256x1.numel
  inb_S1024x1_S1024x1_0_0 : ∀ a, (![0, 0] : Fin 2 → Nat) a + S1024x1.size a ≤ S1024x1.size a
  h_S1024x1 : 0 < S1024x1.numel
  transposes_S8192x1_S1x8192_1_0 : S8192x1.Transposes [1, 0] S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x256_S512x256 : S512x256.ShapeCasts S512x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  shapeCasts_S1024x256_S1024x256 : S1024x256.ShapeCasts S1024x256
  broadcasts_S512x1_S512x256 : S512x1.Broadcasts S512x256
  dot_S1024x512_S512x256_S1024x256_1_0_0_1_n_n_wf : DotDims.WF S1024x512 S512x256 S1024x256 [1] [0] [0] [1] [] []
  dot_S1024x256_S256x1_S1024x1_1_0_0_1_n_n_wf : DotDims.WF S1024x256 S256x1 S1024x1 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S8192x1.size a
  hwx1_0 : ∀ i : grid1.Coords, EltTy.bits .f32 = 32 ∨ (Rect.block (s := S8192x1) S512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x8192.size a
  hwx1_2 : ∀ i : grid1.Coords, EltTy.bits .f32 = 32 ∨ (Rect.block (s := S8192x8192) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x8192.size a
  hwx1_3 : ∀ i : grid1.Coords, EltTy.bits .f32 = 32 ∨ (Rect.block (s := S8192x8192) S512x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8192x256.size a ≤ S8192x256.size a
  hwx1_4 : ∀ i : grid1.Coords, EltTy.bits .bf16 = 32 ∨ (Rect.block (s := S8192x256) S8192x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S8192x256.size a
  hwx1_5 : ∀ i : grid1.Coords, EltTy.bits .f32 = 32 ∨ (Rect.block (s := S8192x256) S512x256.size (cc1_transform_5 i) (hinb1_5 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_1) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S8192x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x1 : Shape := ⟨2, ![256, 1]⟩
abbrev S8192x256 : Shape := ⟨2, ![8192, 256]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S512x256, .f32⟩
  | .hbm, ⟨4, _⟩ => ⟨S256x1, .f32⟩
  | .hbm, ⟨5, _⟩ => ⟨S256x1, .f32⟩
  | .hbm, ⟨6, _⟩ => ⟨S8192x256, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .i1⟩
  | .hbm, ⟨46, _⟩ => ⟨S_, .f32⟩
  | .hbm, ⟨47, _⟩ => ⟨S8192x256, .f32⟩
  | .hbm, ⟨48, _⟩ => ⟨S8192x256, .i1⟩
  | .hbm, ⟨49, _⟩ => ⟨S_, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S_, .f32⟩
  | .hbm, ⟨55, _⟩ => ⟨S8192x256, .f32⟩
  | .hbm, ⟨56, _⟩ => ⟨S8192x256, .f32⟩
  | .hbm, ⟨57, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_call2_v3 : Ref sig .tc := ⟨.hbm, 48, rfl⟩
abbrev main_call2_cst_1 : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_v4 : Ref sig .tc := ⟨.hbm, 52, rfl⟩
abbrev main_call2_v5 : Ref sig .tc := ⟨.hbm, 53, rfl⟩
abbrev main_call2_cst_2 : Ref sig .tc := ⟨.hbm, 54, rfl⟩
abbrev main_call2_v6 : Ref sig .tc := ⟨.hbm, 55, rfl⟩
abbrev main_call2_v7 : Ref sig .tc := ⟨.hbm, 56, rfl⟩
abbrev main_v28 : Ref sig .tc := ⟨.hbm, 57, rfl⟩

abbrev nD : Nat := 1
abbrev τ : Topo := Topo.v7x

variable {F : FTy → Type} [FloatOps F]

class Facts₀ : Prop where
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KernelR0.lean ====
/-
  The word-level program's projection kernel (the first of the program's two kernel regions), at the contents `V` the region finds in
  the TensorCore's buffers. Each of its eight grid points takes a block of 1024 rows of the input matrix and the
  whole weight matrix and the two attention vectors, and leaves three blocks: the 1024 rows of `h = x · W`, and
  the two columns `h · a_self` and `h · a_neighs` of those rows. Here: what each output's staging buffer holds
  after the body as a function of the point's input blocks, the body's triple, and the pipeline's proof data.
-/
import proofs.«132837_j19086834663562_2_alg».proof.Proof.Gen.Kernel.Launch
import proofs.«132837_j19086834663562_2_alg».proof.Proof.Gen.Kernel.Skeleton
import proofs.«132837_j19086834663562_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array the point reads or writes, read off the array as
    the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (where it was not, the
    block index has not moved since the last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (where it was not, the
    block index has not moved since the last fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (where it was not, the
    block index has not moved since the last fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (where it was not, the
    block index has not moved since the last fetch). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rX : Rect S1024x512 := Rect.unit (s := S1024x512) ![0, 0] S1024x512.size inb_S1024x512_S1024x512_0_0
abbrev rW : Rect S512x256 := Rect.unit (s := S512x256) ![0, 0] S512x256.size inb_S512x256_S512x256_0_0
abbrev rA : Rect S256x1 := Rect.unit (s := S256x1) ![0, 0] S256x1.size inb_S256x1_S256x1_0_0
abbrev rH : Rect S1024x256 := Rect.unit (s := S1024x256) ![0, 0] S1024x256.size inb_S1024x256_S1024x256_0_0
abbrev rC : Rect S1024x1 := Rect.unit (s := S1024x1) ![0, 0] S1024x1.size inb_S1024x1_S1024x1_0_0

/-! ## What the body leaves in each output window's buffer -/

/-- The block of `h`: the product of the row block with the weights. -/
def out0_4 (x0 : Vec F S1024x512 .f32) (x1 : Vec F S512x256 .f32) : Vec F S1024x256 .bf16 :=
  View.canon [⟨rH, k0_pay2 (View.ld x0 rX) (View.ld x1 rW)⟩]
/-- The block of `h · a_self`. -/
def out0_5 (x0 : Vec F S1024x512 .f32) (x1 : Vec F S512x256 .f32) (x2 : Vec F S256x1 .f32) : Vec F S1024x1 .f32 :=
  View.canon [⟨rC, k0_pay3 (View.ld x0 rX) (View.ld x1 rW) (View.ld x2 rA)⟩]
/-- The block of `h · a_neighs`. -/
def out0_6 (x0 : Vec F S1024x512 .f32) (x1 : Vec F S512x256 .f32) (x3 : Vec F S256x1 .f32) : Vec F S1024x1 .f32 :=
  View.canon [⟨rC, k0_pay4 (View.ld x0 rX) (View.ld x1 rW) (View.ld x3 rA)⟩]

/-- One store of the whole buffer covers it. -/
theorem cover0_4 (p0 : Vec F S1024x256 .bf16) (y : S1024x256.Idx) :
    ∃ pc ∈ ([⟨rH, p0⟩] : List (View.Piece (Elt F) S1024x256 .bf16)), y ∈ pc.1.set :=
  View.cover_of_tiled [⟨rH, p0⟩] S1024x256.size (by rfl) y
theorem cover0_C (p0 : Vec F S1024x1 .f32) (y : S1024x1.Idx) :
    ∃ pc ∈ ([⟨rC, p0⟩] : List (View.Piece (Elt F) S1024x1 .f32)), y ∈ pc.1.set :=
  View.cover_of_tiled [⟨rC, p0⟩] S1024x1.size (by rfl) y

/-! ## The body's triple -/

set_option maxHeartbeats 2000000 in
/-- The body on whole staging memrefs, the inputs' at contents `x·` and the outputs' at anything, runs to the
    continuation with the inputs' as they were and each output's at its function of the inputs'. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__linear_kernel i arg1 harg1 arg2 harg2 arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_C _)
  iexists _; isplitr
  swap; · iexact H6
  ipureintro
  exact View.read_writes_eq_canon _ _ _ (cover0_C _)

/-! ## The pipeline's proof data -/

/-- The proof data of the projection kernel's pipeline on core `c`: the arrays as the region finds them; after
    the body at point `t` each input's buffer still at its block and each output's at its function of the input
    blocks; the region invariant the scoped buffers no window stages and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KernelR1Defs.lean ====
/-
  The word-level program's attention kernel (the second kernel region): one step of its running softmax as functions. The grid is
  16 × 8: point (q, k) handles rows 512·q … 512·q + 511 against columns 1024·k … 1024·k + 1023. Three scratch
  buffers live across the eight k-steps of one q: the running row maximum `m`, the running normaliser `l` and
  the running weighted sum `acc`. At k = 0 they are reset to −9·10¹⁵, 0 and 0; every step replaces them by
      m' = max m (row maximum of the block's logits),   l' = exp(m − m')·l + Σ exp(s − m'),
      acc' = exp(m − m')·acc + exp(s − m') · h[1024·k …, :],
  and at k = 7 the output block is the exponential linear unit of acc'/l'. Each function below is what one store
  of the body leaves in its whole buffer, over the body's arithmetic of the blocks it loaded.
-/
import proofs.«132837_j19086834663562_2_alg».proof.Proof.Gen.Kernel.Launch
import proofs.«132837_j19086834663562_2_alg».proof.Proof.Gen.Kernel.Skeleton
import proofs.«132837_j19086834663562_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The first conditional's condition (the reset of the scratch): the second grid coordinate is 0. -/
abbrev cond1_0 (i : grid1.Coords) : Prop := (Scalar.cmpi .ne (Scalar.extui (Scalar.cmpi .eq (BitVec.ofNat 32 (i 1).val) 0#32)) 0#32) = 1#1
/-- The second conditional's condition (the output's store): the second grid coordinate is 7. -/
abbrev cond1_1 (i : grid1.Coords) : Prop := k1_cond2 i = 1#1

/-! ## The body's accesses -/

abbrev rS : Rect S512x1 := Rect.unit (s := S512x1) ![0, 0] S512x1.size inb_S512x1_S512x1_0_0
abbrev rN : Rect S1x1024 := Rect.unit (s := S1x1024) ![0, 0] S1x1024.size inb_S1x1024_S1x1024_0_0
abbrev rB : Rect S512x1024 := Rect.unit (s := S512x1024) ![0, 0] S512x1024.size inb_S512x1024_S512x1024_0_0
abbrev rO : Rect S512x256 := Rect.unit (s := S512x256) ![0, 0] S512x256.size inb_S512x256_S512x256_0_0
/-- The 1024 rows of `h` the point multiplies by: rows 1024·k onwards of the resident copy. -/
abbrev rHs (i : grid1.Coords) : Rect S8192x256 := Rect.unit (s := S8192x256) (k1_off1 i) S1024x256.size (k1_off1_inb i)

/-- One store of the whole buffer covers it. -/
theorem cover1_S (p0 : Vec F S512x1 .f32) (y : S512x1.Idx) :
    ∃ pc ∈ ([⟨rS, p0⟩] : List (View.Piece (Elt F) S512x1 .f32)), y ∈ pc.1.set :=
  View.cover_of_tiled [⟨rS, p0⟩] S512x1.size (by rfl) y
theorem cover1_O (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## One step of the running softmax, as functions of the point's blocks and the scratch it starts from -/

/-- The new running maximum. -/
def stepM (x0 : Vec F S512x1 .f32) (x1 : Vec F S1x1024 .f32) (x2 x3 : Vec F S512x1024 .f32) (m : Vec F S512x1 .f32) : Vec F S512x1 .f32 :=
  View.canon [⟨rS, k1_pay3 (k1_pay9 (View.ld x0 rS) (View.ld x1 rN) (View.ld x3 rB) (View.ld x2 rB) (View.ld m rS))⟩]
/-- The new running normaliser. -/
def stepL (x0 : Vec F S512x1 .f32) (x1 : Vec F S1x1024 .f32) (x2 x3 : Vec F S512x1024 .f32) (m l : Vec F S512x1 .f32) : Vec F S512x1 .f32 :=
  View.canon [⟨rS, k1_pay1 (k1_pay12 (View.ld x0 rS) (View.ld x1 rN) (View.ld x3 rB) (View.ld x2 rB) (View.ld m rS) (View.ld m rS) (View.ld l rS))
    (k1_pay13 (View.ld x0 rS) (View.ld x1 rN) (View.ld x3 rB) (View.ld x2 rB) (View.ld m rS))⟩]
/-- The new running weighted sum. -/
def stepA (i : grid1.Coords) (x0 : Vec F S512x1 .f32) (x1 : Vec F S1x1024 .f32) (x2 x3 : Vec F S512x1024 .f32) (x4 : Vec F S8192x256 .bf16)
    (m : Vec F S512x1 .f32) (acc : Vec F S512x256 .f32) : Vec F S512x256 .f32 :=
  View.canon [⟨rO, k1_pay2 (k1_pay10 (View.ld x0 rS) (View.ld x1 rN) (View.ld x3 rB) (View.ld x2 rB) (View.ld m rS) (View.ld m rS))
    (k1_pay11 (View.ld x0 rS) (View.ld x1 rN) (View.ld x3 rB) (View.ld x2 rB) (View.ld m rS)) (View.ld x4 (rHs i)) (View.ld acc rO)⟩]
/-- The output block stored at the last step: the exponential linear unit of acc / l. -/
def stepO (acc : Vec F S512x256 .f32) (l : Vec F S512x1 .f32) : Vec F S512x256 .f32 :=
  View.canon [⟨rO, k1_pay4 (View.ld acc rO) (View.ld l rS)⟩]
/-- What the reset leaves in the three scratch buffers. -/
def resetM : Vec F S512x1 .f32 := View.canon [⟨rS, k1_pay5 (F := F)⟩]
def resetL : Vec F S512x1 .f32 := View.canon [⟨rS, k1_pay6 (F := F)⟩]
def resetA : Vec F S512x256 .f32 := View.canon [⟨rO, k1_pay7 (F := F)⟩]

end Cert.Kernel.Frm

end
-- ==== Proof.KernelR1B.lean ====
/-
  The word-level program's attention kernel's body at a MIDDLE step of a row block (neither the reset nor the output's store): the
  scratch advances one step from what the step before left; everything else is handed back as found.
-/
import proofs.«132837_j19086834663562_2_alg».proof.Proof.KernelR1Defs
import Idealize.ShloMosaic.Lib.Pipeline.RegionsLoop
import Idealize.ShloMosaic.Lib.Pipeline.FrameSuffix

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A MIDDLE step (neither conditional taken): the inputs and the idle output's buffer are handed back as found, the scratch advances one step from what it held. -/
theorem sound_kernel1_B (c : Dev nD) (E : Set ℕ) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : ¬cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) (xo : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare xo
        ∗ owns (c : Thread nD τ) arg8 fullShare ms ∗ owns (c : Thread nD τ) arg9 fullShare ls ∗ owns (c : Thread nD τ) arg10 fullShare accs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xo
            ∗ owns (c : Thread nD τ) arg8 fullShare (stepM x0 x1 x2 x3 ms)
            ∗ owns (c : Thread nD τ) arg9 fullShare (stepL x0 x1 x2 x3 ms ls)
            ∗ owns (c : Thread nD τ) arg10 fullShare (stepA i x0 x1 x2 x3 x4 ms accs)) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9 arg10 harg10) K := by
  simp only [cc1__gat_kernel_eq_skeleton]; unfold cc1__gat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, Hk⟩
  subst hf0; subst hf1; subst hf2; subst hf3; subst hf4; subst hf7; subst hf8; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists f7; isplitr; · ipureintro; rfl
    iexact H7
  isplitl [H8]
  · iexists _; isplitr
    swap; · iexact H8
    ipureintro
    exact View.read_writes_eq_canon _ _ _ (cover1_S _)
  isplitl [H9]
  · iexists _; isplitr
    swap; · iexact H9
    ipureintro
    exact View.read_writes_eq_canon _ _ _ (cover1_S _)
  iexists _; isplitr
  swap; · iexact H10
  ipureintro
  exact View.read_writes_eq_canon _ _ _ (cover1_O _)

end Cert.Kernel.Frm

end
-- ==== Proof.KernelR1A.lean ====
/-
  The word-level program's attention kernel's body at the FIRST of a row block's eight steps: the three scratch buffers are reset and
  then advanced one step. The run records, for each scratch buffer, the list of stores it ends with (the latest
  first); what those stores leave is read off the lists elsewhere.
-/
import proofs.«132837_j19086834663562_2_alg».proof.Proof.KernelR1B

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores each scratch buffer ends with at a first step, WITH the proof that the body, on whole staging
    memrefs — the inputs' at their contents, the idle output's at contents handed back untouched, the scratch at
    anything — runs to the continuation holding the inputs' and the output's as they were and each scratch with
    those stores written. -/
noncomputable def kernelRun1_A (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : cond1_0 i) (hc1 : ¬cond1_1 i)
    (x0 : Vec F S512x1 .f32) (x1 : Vec F S1x1024 .f32) (x2 : Vec F S512x1024 .f32) (x3 : Vec F S512x1024 .f32) (x4 : Vec F S8192x256 .bf16) :
    Σ' (L8 : List (View.Piece (Elt F) S512x1 .f32)) (L9 : List (View.Piece (Elt F) S512x1 .f32)), { L10 : List (View.Piece (Elt F) S512x256 .f32) //
      ∀ (xo : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
                ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9 arg10 harg10) K } := by
  refine ⟨?_, ?_, ?_, fun xo E K => ?run⟩
  case run =>
    simp only [cc1__gat_kernel_eq_skeleton]; unfold cc1__gat_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; isplitr; · ipureintro; exact harg7.read_unread _
      iexact H7
    isplitl [H8]; · iexists _; iexact H8
    isplitl [H9]; · iexists _; iexact H9
    iexists _; iexact H10

end Cert.Kernel.Frm

end
-- ==== Proof.KernelR1C.lean ====
/-
  The word-level program's attention kernel's body at the LAST of a row block's eight steps: the three scratch buffers are advanced one
  step from what the step before left, and the output block is stored from the new weighted sum and the new
  normaliser. The run records, for the output and for each scratch buffer, the list of stores it ends with.
-/
import proofs.«132837_j19086834663562_2_alg».proof.Proof.KernelR1A

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores the output and each scratch buffer end with at a last step, WITH the proof that the body, on whole
    staging memrefs — the inputs' at their contents, the output's at anything, the scratch at what the step before
    left — runs to the continuation holding the inputs' as they were and the output and each scratch with those
    stores written. -/
noncomputable def kernelRun1_C (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) :
    Σ' (L7 : List (View.Piece (Elt F) S512x256 .f32)) (L8 : List (View.Piece (Elt F) S512x1 .f32)) (L9 : List (View.Piece (Elt F) S512x1 .f32)), { L10 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare ms ∗ owns (c : Thread nD τ) arg9 fullShare ls ∗ owns (c : Thread nD τ) arg10 fullShare accs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__gat_kernel_eq_skeleton]; unfold cc1__gat_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    isplitl [H9]; · iexists _; iexact H9
    iexists _; iexact H10

end Cert.Kernel.Frm

end
-- ==== Proof.KernelR1Br.lean ====
/-
  The word-level program's attention kernel's body, what its stores leave. At a first and at a last step of a row block the body's run
  records each buffer's stores as a list; here each such list is read back: the latest store of every buffer
  covers it whole, so the buffer holds that store's value, and that value — over the loads the body made, some of
  them of buffers it had itself just stored — is one step of the running softmax from the reset values (first
  step) or from what the step before left (last step), and, for the output block, the exponential linear unit of
  the new weighted sum over the new normaliser.
-/
import proofs.«132837_j19086834663562_2_alg».proof.Proof.KernelR1C
import Idealize.ShloMosaic.Lib.Pipeline.Value

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets, however spelt. -/
theorem hz2 : (![0, 0] : Fin 2 → ℕ) = fun _ => 0 := by funext a; fin_cases a <;> rfl

/-- After a list of stores whose LATEST is a store of the whole buffer, the buffer reads back as that store's
    value — whatever it held before and whatever the earlier stores were. -/
theorem read_writes_whole {sg : RefSig} {κ : Kind} {sp : Space} {S : Shape} {e : EltTy}
    (v : View sg κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero h inb y⟩)]
  exact View.canon_cons_unit_zero h inb w L

/-- A load of a whole buffer that holds `X` reads `X`. -/
theorem readAt_whole {sg : RefSig} {κ : Kind} {sp : Space} {S : Shape} {e : EltTy}
    (m : Memref sg κ sp S e) (h : m.IsWhole) {off : Fin S.rank → ℕ} (hz : off = fun _ => 0)
    (inb : ∀ a, off a + S.size a ≤ S.size a) (X : S.Idx → Elt F e) :
    m.view.readAt (Elt F) (Rect.unit off S.size inb).toLoadRect (h.unread X) = X := by
  rw [View.readAt_eq_ld, h.read_unread, View.ld_unit_zero hz inb]

/-- Each step function is its payload of the blocks themselves: the one store covers the buffer and every load is of
    a whole buffer. -/
theorem stepM_eq (x0 : Vec F S512x1 .f32) (x1 : Vec F S1x1024 .f32) (x2 x3 : Vec F S512x1024 .f32) (m : Vec F S512x1 .f32) :
    stepM x0 x1 x2 x3 m = k1_pay3 (k1_pay9 x0 x1 x3 x2 m) := by
  unfold stepM
  rw [View.canon_unit_zero hz2]
  simp only [View.ld_unit_zero (S := S512x1) hz2, View.ld_unit_zero (S := S1x1024) hz2, View.ld_unit_zero (S := S512x1024) hz2]

theorem resetM_eq : resetM (F := F) = k1_pay5 (F := F) := by
  unfold resetM; rw [View.canon_unit_zero hz2]

theorem stepL_eq (x0 : Vec F S512x1 .f32) (x1 : Vec F S1x1024 .f32) (x2 x3 : Vec F S512x1024 .f32) (m l : Vec F S512x1 .f32) :
    stepL x0 x1 x2 x3 m l = k1_pay1 (k1_pay12 x0 x1 x3 x2 m m l) (k1_pay13 x0 x1 x3 x2 m) := by
  unfold stepL
  rw [View.canon_unit_zero hz2]
  simp only [View.ld_unit_zero (S := S512x1) hz2, View.ld_unit_zero (S := S1x1024) hz2, View.ld_unit_zero (S := S512x1024) hz2]

theorem stepA_eq (i : grid1.Coords) (x0 : Vec F S512x1 .f32) (x1 : Vec F S1x1024 .f32) (x2 x3 : Vec F S512x1024 .f32) (x4 : Vec F S8192x256 .bf16)
    (m : Vec F S512x1 .f32) (acc : Vec F S512x256 .f32) :
    stepA i x0 x1 x2 x3 x4 m acc = k1_pay2 (k1_pay10 x0 x1 x3 x2 m m) (k1_pay11 x0 x1 x3 x2 m) (View.ld x4 (rHs i)) acc := by
  unfold stepA
  rw [View.canon_unit_zero hz2]
  simp only [View.ld_unit_zero (S := S512x1) hz2, View.ld_unit_zero (S := S1x1024) hz2, View.ld_unit_zero (S := S512x1024) hz2,
    View.ld_unit_zero (S := S512x256) hz2]

theorem stepO_eq (acc : Vec F S512x256 .f32) (l : Vec F S512x1 .f32) : stepO acc l = k1_pay4 acc l := by
  unfold stepO
  rw [View.canon_unit_zero hz2]
  simp only [View.ld_unit_zero (S := S512x1) hz2, View.ld_unit_zero (S := S512x256) hz2]

theorem resetL_eq : resetL (F := F) = k1_pay6 (F := F) := by
  unfold resetL; rw [View.canon_unit_zero hz2]
theorem resetA_eq : resetA (F := F) = k1_pay7 (F := F) := by
  unfold resetA; rw [View.canon_unit_zero hz2]

set_option maxHeartbeats 400000 in
/-- What a first step's stores leave in the running-maximum buffer: one step from the reset value. -/
theorem bridge_A_8 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : cond1_0 i) (hc1 : ¬cond1_1 i)
    (x0 : Vec F S512x1 .f32) (x1 : Vec F S1x1024 .f32) (x2 : Vec F S512x1024 .f32) (x3 : Vec F S512x1024 .f32) (x4 : Vec F S8192x256 .bf16)
    (f : arg8.view.ty.Contents (Elt F)) :
    arg8.view.read (Elt F) (arg8.view.writes (Elt F) f (kernelRun1_A c i arg2 harg2 arg3 harg3 arg4 harg4 arg5 harg5 arg6 harg6 arg7 harg7 arg8 harg8 arg9 harg9 arg10 harg10 hc0 hc1 x0 x1 x2 x3 x4).1)
      = stepM x0 x1 x2 x3 (resetM (F := F)) := by
  rw [stepM_eq, resetM_eq]
  unfold kernelRun1_A
  dsimp only
  sl_unfold_run_names
  refine (read_writes_whole (S := S512x1) arg8.view f hz2 inb_S512x1_S512x1_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2]
  exact congrArg (fun t => k1_pay3 (k1_pay9 x0 x1 x3 x2 t))
    (View.readCov_unit_zero (S := S512x1) arg8.view hz2 inb_S512x1_S512x1_0_0 _)

set_option maxHeartbeats 400000 in
/-- A first step leaves the normaliser one step from its reset value. -/
theorem bridge_A_9 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : cond1_0 i) (hc1 : ¬cond1_1 i)
    (x0 : Vec F S512x1 .f32) (x1 : Vec F S1x1024 .f32) (x2 : Vec F S512x1024 .f32) (x3 : Vec F S512x1024 .f32) (x4 : Vec F S8192x256 .bf16) (f : arg9.view.ty.Contents (Elt F)) :
    arg9.view.read (Elt F) (arg9.view.writes (Elt F) f (kernelRun1_A c i arg2 harg2 arg3 harg3 arg4 harg4 arg5 harg5 arg6 harg6 arg7 harg7 arg8 harg8 arg9 harg9 arg10 harg10 hc0 hc1 x0 x1 x2 x3 x4).2.1)
      = stepL x0 x1 x2 x3 (resetM (F := F)) (resetL (F := F)) := by
  rw [stepL_eq, resetM_eq, resetL_eq]
  unfold kernelRun1_A
  dsimp only
  sl_unfold_run_names
  refine (read_writes_whole (S := S512x1) arg9.view f hz2 inb_S512x1_S512x1_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2]
  generalize ht8 : View.readCov (Val := Elt F) arg8.view _ _ = t8
  obtain rfl : t8 = k1_pay5 (F := F) := ht8.symm.trans (View.readCov_unit_zero (S := S512x1) arg8.view hz2 inb_S512x1_S512x1_0_0 _)
  generalize ht9 : View.readCov (Val := Elt F) arg9.view _ _ = t9
  obtain rfl : t9 = k1_pay6 (F := F) := ht9.symm.trans (View.readCov_unit_zero (S := S512x1) arg9.view hz2 inb_S512x1_S512x1_0_0 _)
  rfl

set_option maxHeartbeats 400000 in
/-- A first step leaves the weighted sum one step from its reset value. -/
theorem bridge_A_10 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : cond1_0 i) (hc1 : ¬cond1_1 i)
    (x0 : Vec F S512x1 .f32) (x1 : Vec F S1x1024 .f32) (x2 : Vec F S512x1024 .f32) (x3 : Vec F S512x1024 .f32) (x4 : Vec F S8192x256 .bf16) (f : arg10.view.ty.Contents (Elt F)) :
    arg10.view.read (Elt F) (arg10.view.writes (Elt F) f (kernelRun1_A c i arg2 harg2 arg3 harg3 arg4 harg4 arg5 harg5 arg6 harg6 arg7 harg7 arg8 harg8 arg9 harg9 arg10 harg10 hc0 hc1 x0 x1 x2 x3 x4).2.2.1)
      = stepA i x0 x1 x2 x3 x4 (resetM (F := F)) (resetA (F := F)) := by
  rw [stepA_eq, resetM_eq, resetA_eq]
  unfold kernelRun1_A
  dsimp only
  sl_unfold_run_names
  refine (read_writes_whole (S := S512x256) arg10.view f hz2 inb_S512x256_S512x256_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2,
    show View.readAt (Elt F) arg6.view (rHs i).toLoadRect (harg6.unread x4) = View.ld x4 (rHs i) from by
      rw [View.readAt_eq_ld, harg6.read_unread]]
  generalize ht8 : View.readCov (Val := Elt F) arg8.view _ _ = t8
  obtain rfl : t8 = k1_pay5 (F := F) := ht8.symm.trans (View.readCov_unit_zero (S := S512x1) arg8.view hz2 inb_S512x1_S512x1_0_0 _)
  generalize ht10 : View.readCov (Val := Elt F) arg10.view _ _ = t10
  obtain rfl : t10 = k1_pay7 (F := F) := ht10.symm.trans (View.readCov_unit_zero (S := S512x256) arg10.view hz2 inb_S512x256_S512x256_0_0 _)
  rfl

set_option maxHeartbeats 400000 in
/-- A last step leaves the running maximum one step from what the step before left. -/
theorem bridge_C_8 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) (f : arg8.view.ty.Contents (Elt F)) :
    arg8.view.read (Elt F) (arg8.view.writes (Elt F) f (kernelRun1_C c i arg2 harg2 arg3 harg3 arg4 harg4 arg5 harg5 arg6 harg6 arg7 harg7 arg8 harg8 arg9 harg9 arg10 harg10 hc0 hc1 x0 x1 x2 x3 x4 ms ls accs).2.1)
      = stepM x0 x1 x2 x3 ms := by
  rw [stepM_eq]
  unfold kernelRun1_C
  dsimp only
  sl_unfold_run_names
  refine (read_writes_whole (S := S512x1) arg8.view f hz2 inb_S512x1_S512x1_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2,
    readAt_whole (S := S512x1) arg8 harg8 hz2 inb_S512x1_S512x1_0_0 ms]

set_option maxHeartbeats 400000 in
/-- A last step leaves the normaliser one step from what the step before left. -/
theorem bridge_C_9 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) (f : arg9.view.ty.Contents (Elt F)) :
    arg9.view.read (Elt F) (arg9.view.writes (Elt F) f (kernelRun1_C c i arg2 harg2 arg3 harg3 arg4 harg4 arg5 harg5 arg6 harg6 arg7 harg7 arg8 harg8 arg9 harg9 arg10 harg10 hc0 hc1 x0 x1 x2 x3 x4 ms ls accs).2.2.1)
      = stepL x0 x1 x2 x3 ms ls := by
  rw [stepL_eq]
  unfold kernelRun1_C
  dsimp only
  sl_unfold_run_names
  refine (read_writes_whole (S := S512x1) arg9.view f hz2 inb_S512x1_S512x1_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2,
    readAt_whole (S := S512x1) arg8 harg8 hz2 inb_S512x1_S512x1_0_0 ms,
    readAt_whole (S := S512x1) arg9 harg9 hz2 inb_S512x1_S512x1_0_0 ls]

set_option maxHeartbeats 400000 in
/-- A last step leaves the weighted sum one step from what the step before left. -/
theorem bridge_C_10 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) (f : arg10.view.ty.Contents (Elt F)) :
    arg10.view.read (Elt F) (arg10.view.writes (Elt F) f (kernelRun1_C c i arg2 harg2 arg3 harg3 arg4 harg4 arg5 harg5 arg6 harg6 arg7 harg7 arg8 harg8 arg9 harg9 arg10 harg10 hc0 hc1 x0 x1 x2 x3 x4 ms ls accs).2.2.2.1)
      = stepA i x0 x1 x2 x3 x4 ms accs := by
  rw [stepA_eq]
  unfold kernelRun1_C
  dsimp only
  sl_unfold_run_names
  refine (read_writes_whole (S := S512x256) arg10.view f hz2 inb_S512x256_S512x256_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2,
    readAt_whole (S := S512x1) arg8 harg8 hz2 inb_S512x1_S512x1_0_0 ms,
    show View.readAt (Elt F) arg6.view (rHs i).toLoadRect (harg6.unread x4) = View.ld x4 (rHs i) from by
      rw [View.readAt_eq_ld, harg6.read_unread],
    readAt_whole (S := S512x256) arg10 harg10 hz2 inb_S512x256_S512x256_0_0 accs]

set_option maxHeartbeats 400000 in
/-- A last step leaves, in the output block, the exponential linear unit of the new weighted sum over the new
    normaliser. -/
theorem bridge_C_7 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) (f : arg7.view.ty.Contents (Elt F)) :
    arg7.view.read (Elt F) (arg7.view.writes (Elt F) f (kernelRun1_C c i arg2 harg2 arg3 harg3 arg4 harg4 arg5 harg5 arg6 harg6 arg7 harg7 arg8 harg8 arg9 harg9 arg10 harg10 hc0 hc1 x0 x1 x2 x3 x4 ms ls accs).1)
      = stepO (stepA i x0 x1 x2 x3 x4 ms accs) (stepL x0 x1 x2 x3 ms ls) := by
  rw [stepO_eq, stepA_eq, stepL_eq]
  unfold kernelRun1_C
  dsimp only
  sl_unfold_run_names
  dsimp only
  refine (read_writes_whole (S := S512x256) arg7.view f hz2 inb_S512x256_S512x256_0_0 _ _).trans ?_
  generalize ht10 : View.readCov (Val := Elt F) arg10.view _ _ = t10
  obtain rfl := ht10.symm.trans (View.readCov_unit_zero (S := S512x256) arg10.view hz2 inb_S512x256_S512x256_0_0 _)
  generalize ht9 : View.readCov (Val := Elt F) arg9.view _ _ = t9
  obtain rfl := ht9.symm.trans (View.readCov_unit_zero (S := S512x1) arg9.view hz2 inb_S512x1_S512x1_0_0 _)
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2,
    readAt_whole (S := S512x1) arg8 harg8 hz2 inb_S512x1_S512x1_0_0 ms,
    show View.readAt (Elt F) arg6.view (rHs i).toLoadRect (harg6.unread x4) = View.ld x4 (rHs i) from by
      rw [View.readAt_eq_ld, harg6.read_unread],
    readAt_whole (S := S512x1) arg9 harg9 hz2 inb_S512x1_S512x1_0_0 ls,
    readAt_whole (S := S512x256) arg10 harg10 hz2 inb_S512x256_S512x256_0_0 accs]

end Cert.Kernel.Frm

end
-- ==== Proof.KernelR1S.lean ====
/-
  The word-level program's attention kernel over its whole grid. Its 128 points run in the order (q, k) ↦ 8·q + k. What the three
  scratch buffers hold after point n is one step of the running softmax from the reset values when n is the first
  of its row block (n ≡ 0 mod 8) and from what point n − 1 left otherwise; the output block the pipeline writes
  back at the last step of a row block (n ≡ 7 mod 8) is the exponential linear unit of that state's weighted sum
  over its normaliser, and at every other point the output's buffer is handed back untouched and not written back.
  Here: that state by recursion on the point, the region's invariant (the scratch at the state the point before
  left), the pipeline's proof data and the body obligation at every point.
-/
import proofs.«132837_j19086834663562_2_alg».proof.Proof.KernelR1Br

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions, the idle points and the write-backs, decided over the grid -/

/-- The reset is taken exactly at the first step of each row block. -/
theorem hcond1_0 : ∀ t : Fin cfg1.N, cond1_0 (grid1.coords t) ↔ t.val % 8 = 0 :=
  (by decide +kernel : ∀ t : Fin grid1.N, cond1_0 (grid1.coords t) ↔ t.val % 8 = 0)
/-- The output is stored exactly at the last step of each row block. -/
theorem hcond1_1 : ∀ t : Fin cfg1.N, cond1_1 (grid1.coords t) ↔ t.val % 8 = 7 :=
  (by decide +kernel : ∀ t : Fin grid1.N, cond1_1 (grid1.coords t) ↔ t.val % 8 = 7)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the output is not stored its window is idle, -/
theorem idleAt1_5 : ∀ t : Fin cfg1.N, ¬cond1_1 (grid1.coords t) → cfg1.idle 5 (grid1.coords t) = true := by decide +kernel
/-- and the pipeline does not write its block back there; -/
theorem noFlush1_5 : ∀ t : Fin cfg1.N, ¬cond1_1 (grid1.coords t) → (cfg1.win 5).flush t = false := by decide +kernel
/-- where it is stored the window is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8192x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x256 .f32 := win1_5.stage (cfg1.slots t 5)
abbrev hs1_5 (t : Fin cfg1.N) : (ms1_5 t).IsWhole := hstage1_5 ((cfg1.slots t 5).cast nbuf1_5)
/-- The three scratch operands: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x256 .f32 := Memref.whole cc1_scratch2

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The scratch after each point -/

/-- THE RUNNING STATE. What the three scratch buffers (running maximum, normaliser, weighted sum) hold after the body
    at position `n`: one step, over the point's blocks, from the reset values at the first step of a row block
    and from what position `n − 1` left otherwise. -/
def stAt (c : Dev nD) : (n : ℕ) → n < cfg1.N → Vec F S512x1 .f32 × Vec F S512x1 .f32 × Vec F S512x256 .f32
  | 0, hn => (stepM (iblk1 V c 0 ⟨0, hn⟩) (iblk1 V c 1 ⟨0, hn⟩) (iblk1 V c 2 ⟨0, hn⟩) (iblk1 V c 3 ⟨0, hn⟩) (resetM (F := F)), stepL (iblk1 V c 0 ⟨0, hn⟩) (iblk1 V c 1 ⟨0, hn⟩) (iblk1 V c 2 ⟨0, hn⟩) (iblk1 V c 3 ⟨0, hn⟩) (resetM (F := F)) (resetL (F := F)), stepA (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (resetM (F := F)) (resetA (F := F)))
  | n + 1, hn =>
    if (n + 1) % 8 = 0 then (stepM (iblk1 V c 0 ⟨n + 1, hn⟩) (iblk1 V c 1 ⟨n + 1, hn⟩) (iblk1 V c 2 ⟨n + 1, hn⟩) (iblk1 V c 3 ⟨n + 1, hn⟩) (resetM (F := F)), stepL (iblk1 V c 0 ⟨n + 1, hn⟩) (iblk1 V c 1 ⟨n + 1, hn⟩) (iblk1 V c 2 ⟨n + 1, hn⟩) (iblk1 V c 3 ⟨n + 1, hn⟩) (resetM (F := F)) (resetL (F := F)), stepA (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (resetM (F := F)) (resetA (F := F)))
    else (stepM (iblk1 V c 0 ⟨n + 1, hn⟩) (iblk1 V c 1 ⟨n + 1, hn⟩) (iblk1 V c 2 ⟨n + 1, hn⟩) (iblk1 V c 3 ⟨n + 1, hn⟩) (stAt c n (Nat.lt_of_succ_lt hn)).1, stepL (iblk1 V c 0 ⟨n + 1, hn⟩) (iblk1 V c 1 ⟨n + 1, hn⟩) (iblk1 V c 2 ⟨n + 1, hn⟩) (iblk1 V c 3 ⟨n + 1, hn⟩) (stAt c n (Nat.lt_of_succ_lt hn)).1 (stAt c n (Nat.lt_of_succ_lt hn)).2.1, stepA (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (stAt c n (Nat.lt_of_succ_lt hn)).1 (stAt c n (Nat.lt_of_succ_lt hn)).2.2)

/-- At the first step of a row block: one step from the reset values. -/
theorem stAt_first (c : Dev nD) (t : Fin cfg1.N) (h0 : t.val % 8 = 0) :
    stAt V c t.val t.isLt = (stepM (iblk1 V c 0 t) (iblk1 V c 1 t) (iblk1 V c 2 t) (iblk1 V c 3 t) (resetM (F := F)), stepL (iblk1 V c 0 t) (iblk1 V c 1 t) (iblk1 V c 2 t) (iblk1 V c 3 t) (resetM (F := F)) (resetL (F := F)), stepA (grid1.coords t) (iblk1 V c 0 t) (iblk1 V c 1 t) (iblk1 V c 2 t) (iblk1 V c 3 t) (iblk1 V c 4 t) (resetM (F := F)) (resetA (F := F))) := by
  obtain ⟨n, hn⟩ := t
  cases n with
  | zero => rfl
  | succ n => exact if_pos h0

/-- At any other step: one step from what the point before left. -/
theorem stAt_next (c : Dev nD) (t : Fin cfg1.N) (h0 : ¬t.val % 8 = 0) :
    stAt V c t.val t.isLt = (stepM (iblk1 V c 0 t) (iblk1 V c 1 t) (iblk1 V c 2 t) (iblk1 V c 3 t) (stAt V c (t.val - 1) (Nat.lt_of_le_of_lt (Nat.sub_le _ _) t.isLt)).1, stepL (iblk1 V c 0 t) (iblk1 V c 1 t) (iblk1 V c 2 t) (iblk1 V c 3 t) (stAt V c (t.val - 1) (Nat.lt_of_le_of_lt (Nat.sub_le _ _) t.isLt)).1 (stAt V c (t.val - 1) (Nat.lt_of_le_of_lt (Nat.sub_le _ _) t.isLt)).2.1, stepA (grid1.coords t) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.2) := by
  obtain ⟨n, hn⟩ := t
  cases n with
  | zero => exact absurd (Nat.zero_mod _) h0
  | succ n => exact if_neg h0

/-! ## The region's invariant -/

/-- The core's scoped buffers that belong to the other kernel region, each whole at some contents: they ride
    through this region untouched. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The invariant before position `n`: before the first point the three scratch buffers at anything; afterwards
    at what the point before left; beside them the other region's buffers and the generator register. -/
def PhiS (c : Dev nD) : (n : ℕ) → n ≤ cfg1.N → sProp 𝕄
  | 0, _ => iprop(Rest1 (F := F) c ∗ (∃ d, owns (c : Thread nD τ) scM1_0 fullShare d) ∗ (∃ d, owns (c : Thread nD τ) scM1_1 fullShare d)
      ∗ (∃ d, owns (c : Thread nD τ) scM1_2 fullShare d) ∗ (∃ r, prngReg c r))
  | n + 1, hn => iprop(Rest1 (F := F) c ∗ owns (c : Thread nD τ) scM1_0 fullShare (stAt V c n hn).1 ∗ owns (c : Thread nD τ) scM1_1 fullShare (stAt V c n hn).2.1
      ∗ owns (c : Thread nD τ) scM1_2 fullShare (stAt V c n hn).2.2 ∗ (∃ r, prngReg c r))

theorem PhiS_zero (c : Dev nD) (n : ℕ) (h : n ≤ cfg1.N) (hz : n = 0) :
    PhiS V c n h = iprop(Rest1 (F := F) c ∗ (∃ d, owns (c : Thread nD τ) scM1_0 fullShare d) ∗ (∃ d, owns (c : Thread nD τ) scM1_1 fullShare d)
      ∗ (∃ d, owns (c : Thread nD τ) scM1_2 fullShare d) ∗ (∃ r, prngReg c r)) := by
  subst hz; rfl
theorem PhiS_succ (c : Dev nD) (n : ℕ) (hn : n < cfg1.N) :
    PhiS V c (n + 1) hn = iprop(Rest1 (F := F) c ∗ owns (c : Thread nD τ) scM1_0 fullShare (stAt V c n hn).1 ∗ owns (c : Thread nD τ) scM1_1 fullShare (stAt V c n hn).2.1
      ∗ owns (c : Thread nD τ) scM1_2 fullShare (stAt V c n hn).2.2 ∗ (∃ r, prngReg c r)) := rfl
theorem PhiS_pos (c : Dev nD) (n : ℕ) (h : n ≤ cfg1.N) (hz : n ≠ 0) :
    PhiS V c n h = iprop(Rest1 (F := F) c ∗ owns (c : Thread nD τ) scM1_0 fullShare (stAt V c (n - 1) (by omega)).1 ∗ owns (c : Thread nD τ) scM1_1 fullShare (stAt V c (n - 1) (by omega)).2.1
      ∗ owns (c : Thread nD τ) scM1_2 fullShare (stAt V c (n - 1) (by omega)).2.2 ∗ (∃ r, prngReg c r)) := by
  cases n with
  | zero => exact absurd rfl hz
  | succ n => rfl

/-! ## The pipeline's proof data -/

/-- The proof data of the attention kernel's pipeline on core `c`: the arrays as the region finds them; after the
    body at point `t` each input's buffer still at its block and the output's at the exponential linear unit of the
    running state's weighted sum over its normaliser (consulted only where the block is written back); the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => stepO (stAt V c t.val t.isLt).2.2 (stAt V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = stepO (stAt V c t.val t.isLt).2.2 (stAt V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' memrefs hold their blocks; the point's position within its row block says
    which of the three control cases it is in; the invariant hands the body the scratch at what the point before
    left (at anything before the very first point, and at a first step whatever it holds is overwritten) and takes
    it back one step on; the output's buffer is handed back untouched except at a last step, where it takes the
    block the pipeline then writes back; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 128 := lt_of_lt_of_eq t.isLt (show cfg1.N = 128 from N_1)
  by_cases h0 : t.val % 8 = 0
  · by_cases h1 : t.val % 8 = 7
    · exfalso; omega
    · -- a FIRST step
      rw [Dat.leavesExact_idle (dat1 V c) 5 t (idleAt1_5 t (fun h => h1 ((hcond1_1 t).mp h))) (noFlush1_5 t (fun h => h1 ((hcond1_1 t).mp h)))]
      rw [stAt_first V c t h0]; dsimp only
      by_cases hz : t.val = 0
      · rw [PhiS_castSucc V c t, PhiS_zero V c _ _ hz]
        iintro ⟨⟨HR, HS0, HS1, HS2, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact bridge_A_8 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es0
          isplitl [HS1]
          · unfold owns; iexists _; isplitr
            swap; · iexact HS1
            ipureintro; exact bridge_A_9 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es1
          isplitl [HS2]
          · unfold owns; iexists _; isplitr
            swap; · iexact HS2
            ipureintro; exact bridge_A_10 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es2
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨HR, HS0, HS1, HS2, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact bridge_A_8 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es0
          isplitl [HS1]
          · unfold owns; iexists _; isplitr
            swap; · iexact HS1
            ipureintro; exact bridge_A_9 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es1
          isplitl [HS2]
          · unfold owns; iexists _; isplitr
            swap; · iexact HS2
            ipureintro; exact bridge_A_10 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es2
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    rw [stAt_next V c t h0]; dsimp only
    rw [PhiS_castSucc V c t, PhiS_pos V c _ _ hz]
    by_cases h1 : t.val % 8 = 7
    · -- a LAST step
      rw [show (dat1 V c).leavesExact 5 t = owns (c : Thread nD τ) (ms1_5 t) fullShare ((dat1 V c).after 5 t) from by
        unfold Dat.leavesExact; rw [liveAt1_5 t ((hcond1_1 t).mpr h1)], after1_5, stAt_next V c t h0]
      dsimp only
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact bridge_C_8 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2 es0
        isplitl [HS1]
        · unfold owns; iexists _; isplitr
          swap; · iexact HS1
          ipureintro; exact bridge_C_9 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2 es1
        isplitl [HS2]
        · unfold owns; iexists _; isplitr
          swap; · iexact HS2
          ipureintro; exact bridge_C_10 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2 es2
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact bridge_C_7 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2 e5
    · -- a MIDDLE step
      rw [Dat.leavesExact_idle (dat1 V c) 5 t (idleAt1_5 t (fun h => h1 ((hcond1_1 t).mp h))) (noFlush1_5 t (fun h => h1 ((hcond1_1 t).mp h)))]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply (sound_kernel1_B c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2 _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KernelRun.lean ====
/-
  The word-level program, whole: @main is the projection kernel's region, one host operation (the transpose of the column
  h · a_neighs into a row) and the attention kernel's region. The contents of the TensorCore's buffers at each
  boundary are a fold from the launch memory: a region leaves its arrays at what the pipeline's write-backs make of
  the body's blocks and every other buffer as it found it; the host operation writes its one result. Every weakly
  fair execution terminates with every unscoped buffer at the last boundary's contents; in particular the six
  argument arrays end as launched, and the result array holds what the attention kernel's write-backs leave.
-/
import proofs.«132837_j19086834663562_2_alg».proof.Proof.KernelR0
import proofs.«132837_j19086834663562_2_alg».proof.Proof.KernelR1S

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the projection kernel's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the projection kernel's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the transpose: the attention kernel's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the attention kernel's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: the host operation writes none, and a region reads an argument through an
    input window (whose array it leaves as found) or bypasses it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg1) := W1_of_ne m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg5) := (W1_arr m ρ c 3).trans (((dat0 (V0 m ρ) c).arrAt_in 3 rfl _).trans (A_eq0 (V0 m ρ) c 3))
    _ = m ((c : Thread nD τ).loc main_arg5) := rfl

/-! ## The proof data family and the thread state -/

/-- The host operation allocates no buffer. -/
theorem hostOps1_fresh : (hostOps1 : List (HloOp τ sig (Elt F))).Forall fun op => op.fresh = ∅ := by
  simp only [List.Forall]; repeat' constructor

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The attention kernel's invariant at the region's ends -/

set_option maxHeartbeats 1000000 in
/-- Entering: the scoped buffers no window of the attention kernel stages — the other region's, and its own three
    scratch buffers at anything — and the generator register make the invariant before the first point. -/
theorem hin1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ PhiS (V2 m ρ) c 0 (Nat.zero_le _) := by
  rw [PhiS_zero (V2 m ρ) c 0 _ rfl, scopedRest1_eq]
  unfold Rest1
  simp only [scM1_0, scM1_1, scM1_2, owns_whole]
  iintro ⟨Hp, -, A1, A2, A3, A4, A5, A6, A7, A8, A9, A10, A11, S0, S1, S2⟩
  isplitl [A1 A2 A3 A4 A5 A6 A7 A8 A9 A10 A11]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [S0]; · iexact S0
  isplitl [S1]; · iexact S1
  isplitl [S2]; · iexact S2
  iexact Hp

set_option maxHeartbeats 1000000 in
/-- Leaving: after any point but the first the invariant gives the generator register and those scoped buffers
    back, the scratch buffers' contents forgotten. -/
theorem hout1 (c : Dev nD) (t : Fin (cfg1.N + 1)) (ht : t.val ≠ 0) :
    (dat1 (V2 m ρ) c).Φ t
      ⊢ iprop((∃ r, prngReg c r) ∗ (BI.emp : sProp 𝕄) ∗ Pipeline.scopedRest (Ix := Unit) (Name := ℕ) (U := UR sig nD τ) (Lvl := ℕ) (Val := Elt F) spec1 c) := by
  rw [show (dat1 (V2 m ρ) c).Φ t = PhiS (V2 m ρ) c t.val (Nat.le_of_lt_succ t.isLt) from rfl, PhiS_pos (V2 m ρ) c _ _ ht, scopedRest1_eq]
  unfold Rest1
  simp only [scM1_0, scM1_1, scM1_2, owns_whole]
  iintro ⟨⟨A1, A2, A3, A4, A5, A6, A7, A8, A9, A10, A11⟩, S0, S1, S2, Hp⟩
  isplitl [Hp]; · iexact Hp
  isplitr; · iempintro
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [S0]; · iexists _; iexact S0
  isplitl [S1]; · iexists _; iexact S1
  iexists _; iexact S2

/-! ## The regions as segments -/

set_option backward.isDefEq.respectTransparency.types false in
/-- The projection kernel's region over the thread state: entered from every unscoped buffer at launch contents,
    left with its arrays at what the pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
set_option backward.isDefEq.respectTransparency.types false in
/-- The attention kernel's region: entered from every unscoped buffer at the contents after the transpose, left at
    the last boundary's. Its invariant takes in the scoped buffers no window of it stages — the other region's, and
    its own three scratch buffers at anything — and the generator register, and gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 m ρ c _
  hout c := by
    rw [Pipeline.ownSems0_none]
    exact hout1 m ρ c (Fin.last _) (by rw [Fin.val_last]; have : cfg1.N = 128 := N_1; omega)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final state has every unscoped buffer of every core at the last boundary's
    contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME, at any reading of the floats: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c)⟩) (run m ρ)

end Cert.Kernel.Frm

end
-- ==== Proof.KernelIdealR0.lean ====
/-
  The projection kernel (the first of the program's two kernel regions), at the contents `V` the region finds in
  the TensorCore's buffers. Each of its eight grid points takes a block of 1024 rows of the input matrix and the
  whole weight matrix and the two attention vectors, and leaves three blocks: the 1024 rows of `h = x · W`, and
  the two columns `h · a_self` and `h · a_neighs` of those rows. Here: what each output's staging buffer holds
  after the body as a function of the point's input blocks, the body's triple, and the pipeline's proof data.
-/
import proofs.«132837_j19086834663562_2_alg».proof.Proof.Gen.KernelIdeal.Launch
import proofs.«132837_j19086834663562_2_alg».proof.Proof.Gen.KernelIdeal.Skeleton
import proofs.«132837_j19086834663562_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array the point reads or writes, read off the array as
    the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (where it was not, the
    block index has not moved since the last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (where it was not, the
    block index has not moved since the last fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (where it was not, the
    block index has not moved since the last fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (where it was not, the
    block index has not moved since the last fetch). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rX : Rect S1024x512 := Rect.unit (s := S1024x512) ![0, 0] S1024x512.size inb_S1024x512_S1024x512_0_0
abbrev rW : Rect S512x256 := Rect.unit (s := S512x256) ![0, 0] S512x256.size inb_S512x256_S512x256_0_0
abbrev rA : Rect S256x1 := Rect.unit (s := S256x1) ![0, 0] S256x1.size inb_S256x1_S256x1_0_0
abbrev rH : Rect S1024x256 := Rect.unit (s := S1024x256) ![0, 0] S1024x256.size inb_S1024x256_S1024x256_0_0
abbrev rC : Rect S1024x1 := Rect.unit (s := S1024x1) ![0, 0] S1024x1.size inb_S1024x1_S1024x1_0_0

/-! ## What the body leaves in each output window's buffer -/

/-- The block of `h`: the product of the row block with the weights. -/
def out0_4 (x0 : Vec F S1024x512 .f32) (x1 : Vec F S512x256 .f32) : Vec F S1024x256 .bf16 :=
  View.canon [⟨rH, k0_pay2 (View.ld x0 rX) (View.ld x1 rW)⟩]
/-- The block of `h · a_self`. -/
def out0_5 (x0 : Vec F S1024x512 .f32) (x1 : Vec F S512x256 .f32) (x2 : Vec F S256x1 .f32) : Vec F S1024x1 .f32 :=
  View.canon [⟨rC, k0_pay3 (View.ld x0 rX) (View.ld x1 rW) (View.ld x2 rA)⟩]
/-- The block of `h · a_neighs`. -/
def out0_6 (x0 : Vec F S1024x512 .f32) (x1 : Vec F S512x256 .f32) (x3 : Vec F S256x1 .f32) : Vec F S1024x1 .f32 :=
  View.canon [⟨rC, k0_pay4 (View.ld x0 rX) (View.ld x1 rW) (View.ld x3 rA)⟩]

/-- One store of the whole buffer covers it. -/
theorem cover0_4 (p0 : Vec F S1024x256 .bf16) (y : S1024x256.Idx) :
    ∃ pc ∈ ([⟨rH, p0⟩] : List (View.Piece (Elt F) S1024x256 .bf16)), y ∈ pc.1.set :=
  View.cover_of_tiled [⟨rH, p0⟩] S1024x256.size (by rfl) y
theorem cover0_C (p0 : Vec F S1024x1 .f32) (y : S1024x1.Idx) :
    ∃ pc ∈ ([⟨rC, p0⟩] : List (View.Piece (Elt F) S1024x1 .f32)), y ∈ pc.1.set :=
  View.cover_of_tiled [⟨rC, p0⟩] S1024x1.size (by rfl) y

/-! ## The body's triple -/

set_option maxHeartbeats 2000000 in
/-- The body on whole staging memrefs, the inputs' at contents `x·` and the outputs' at anything, runs to the
    continuation with the inputs' as they were and each output's at its function of the inputs'. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__linear_kernel i arg1 harg1 arg2 harg2 arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_C _)
  iexists _; isplitr
  swap; · iexact H6
  ipureintro
  exact View.read_writes_eq_canon _ _ _ (cover0_C _)

/-! ## The pipeline's proof data -/

/-- The proof data of the projection kernel's pipeline on core `c`: the arrays as the region finds them; after
    the body at point `t` each input's buffer still at its block and each output's at its function of the input
    blocks; the region invariant the scoped buffers no window stages and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KernelIdealR1Defs.lean ====
/-
  The attention kernel (the second kernel region): one step of its running softmax as functions. The grid is
  16 × 8: point (q, k) handles rows 512·q … 512·q + 511 against columns 1024·k … 1024·k + 1023. Three scratch
  buffers live across the eight k-steps of one q: the running row maximum `m`, the running normaliser `l` and
  the running weighted sum `acc`. At k = 0 they are reset to −9·10¹⁵, 0 and 0; every step replaces them by
      m' = max m (row maximum of the block's logits),   l' = exp(m − m')·l + Σ exp(s − m'),
      acc' = exp(m − m')·acc + exp(s − m') · h[1024·k …, :],
  and at k = 7 the output block is the exponential linear unit of acc'/l'. Each function below is what one store
  of the body leaves in its whole buffer, over the body's arithmetic of the blocks it loaded.
-/
import proofs.«132837_j19086834663562_2_alg».proof.Proof.Gen.KernelIdeal.Launch
import proofs.«132837_j19086834663562_2_alg».proof.Proof.Gen.KernelIdeal.Skeleton
import proofs.«132837_j19086834663562_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The first conditional's condition (the reset of the scratch): the second grid coordinate is 0. -/
abbrev cond1_0 (i : grid1.Coords) : Prop := (Scalar.cmpi .ne (Scalar.extui (Scalar.cmpi .eq (BitVec.ofNat 32 (i 1).val) 0#32)) 0#32) = 1#1
/-- The second conditional's condition (the output's store): the second grid coordinate is 7. -/
abbrev cond1_1 (i : grid1.Coords) : Prop := k1_cond2 i = 1#1

/-! ## The body's accesses -/

abbrev rS : Rect S512x1 := Rect.unit (s := S512x1) ![0, 0] S512x1.size inb_S512x1_S512x1_0_0
abbrev rN : Rect S1x1024 := Rect.unit (s := S1x1024) ![0, 0] S1x1024.size inb_S1x1024_S1x1024_0_0
abbrev rB : Rect S512x1024 := Rect.unit (s := S512x1024) ![0, 0] S512x1024.size inb_S512x1024_S512x1024_0_0
abbrev rO : Rect S512x256 := Rect.unit (s := S512x256) ![0, 0] S512x256.size inb_S512x256_S512x256_0_0
/-- The 1024 rows of `h` the point multiplies by: rows 1024·k onwards of the resident copy. -/
abbrev rHs (i : grid1.Coords) : Rect S8192x256 := Rect.unit (s := S8192x256) (k1_off1 i) S1024x256.size (k1_off1_inb i)

/-- One store of the whole buffer covers it. -/
theorem cover1_S (p0 : Vec F S512x1 .f32) (y : S512x1.Idx) :
    ∃ pc ∈ ([⟨rS, p0⟩] : List (View.Piece (Elt F) S512x1 .f32)), y ∈ pc.1.set :=
  View.cover_of_tiled [⟨rS, p0⟩] S512x1.size (by rfl) y
theorem cover1_O (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## One step of the running softmax, as functions of the point's blocks and the scratch it starts from -/

/-- The new running maximum. -/
def stepM (x0 : Vec F S512x1 .f32) (x1 : Vec F S1x1024 .f32) (x2 x3 : Vec F S512x1024 .f32) (m : Vec F S512x1 .f32) : Vec F S512x1 .f32 :=
  View.canon [⟨rS, k1_pay3 (k1_pay9 (View.ld x0 rS) (View.ld x1 rN) (View.ld x3 rB) (View.ld x2 rB) (View.ld m rS))⟩]
/-- The new running normaliser. -/
def stepL (x0 : Vec F S512x1 .f32) (x1 : Vec F S1x1024 .f32) (x2 x3 : Vec F S512x1024 .f32) (m l : Vec F S512x1 .f32) : Vec F S512x1 .f32 :=
  View.canon [⟨rS, k1_pay1 (k1_pay12 (View.ld x0 rS) (View.ld x1 rN) (View.ld x3 rB) (View.ld x2 rB) (View.ld m rS) (View.ld m rS) (View.ld l rS))
    (k1_pay13 (View.ld x0 rS) (View.ld x1 rN) (View.ld x3 rB) (View.ld x2 rB) (View.ld m rS))⟩]
/-- The new running weighted sum. -/
def stepA (i : grid1.Coords) (x0 : Vec F S512x1 .f32) (x1 : Vec F S1x1024 .f32) (x2 x3 : Vec F S512x1024 .f32) (x4 : Vec F S8192x256 .bf16)
    (m : Vec F S512x1 .f32) (acc : Vec F S512x256 .f32) : Vec F S512x256 .f32 :=
  View.canon [⟨rO, k1_pay2 (k1_pay10 (View.ld x0 rS) (View.ld x1 rN) (View.ld x3 rB) (View.ld x2 rB) (View.ld m rS) (View.ld m rS))
    (k1_pay11 (View.ld x0 rS) (View.ld x1 rN) (View.ld x3 rB) (View.ld x2 rB) (View.ld m rS)) (View.ld x4 (rHs i)) (View.ld acc rO)⟩]
/-- The output block stored at the last step: the exponential linear unit of acc / l. -/
def stepO (acc : Vec F S512x256 .f32) (l : Vec F S512x1 .f32) : Vec F S512x256 .f32 :=
  View.canon [⟨rO, k1_pay4 (View.ld acc rO) (View.ld l rS)⟩]
/-- What the reset leaves in the three scratch buffers. -/
def resetM : Vec F S512x1 .f32 := View.canon [⟨rS, k1_pay5 (F := F)⟩]
def resetL : Vec F S512x1 .f32 := View.canon [⟨rS, k1_pay6 (F := F)⟩]
def resetA : Vec F S512x256 .f32 := View.canon [⟨rO, k1_pay7 (F := F)⟩]

end Cert.KernelIdeal.Frm

end
-- ==== Proof.KernelIdealR1B.lean ====
/-
  The attention kernel's body at a MIDDLE step of a row block (neither the reset nor the output's store): the
  scratch advances one step from what the step before left; everything else is handed back as found.
-/
import proofs.«132837_j19086834663562_2_alg».proof.Proof.KernelIdealR1Defs
import Idealize.ShloMosaic.Lib.Pipeline.RegionsLoop
import Idealize.ShloMosaic.Lib.Pipeline.FrameSuffix

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A MIDDLE step (neither conditional taken): the inputs and the idle output's buffer are handed back as found, the scratch advances one step from what it held. -/
theorem sound_kernel1_B (c : Dev nD) (E : Set ℕ) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : ¬cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) (xo : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare xo
        ∗ owns (c : Thread nD τ) arg8 fullShare ms ∗ owns (c : Thread nD τ) arg9 fullShare ls ∗ owns (c : Thread nD τ) arg10 fullShare accs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xo
            ∗ owns (c : Thread nD τ) arg8 fullShare (stepM x0 x1 x2 x3 ms)
            ∗ owns (c : Thread nD τ) arg9 fullShare (stepL x0 x1 x2 x3 ms ls)
            ∗ owns (c : Thread nD τ) arg10 fullShare (stepA i x0 x1 x2 x3 x4 ms accs)) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9 arg10 harg10) K := by
  simp only [cc1__gat_kernel_eq_skeleton]; unfold cc1__gat_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, Hk⟩
  subst hf0; subst hf1; subst hf2; subst hf3; subst hf4; subst hf7; subst hf8; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists f7; isplitr; · ipureintro; rfl
    iexact H7
  isplitl [H8]
  · iexists _; isplitr
    swap; · iexact H8
    ipureintro
    exact View.read_writes_eq_canon _ _ _ (cover1_S _)
  isplitl [H9]
  · iexists _; isplitr
    swap; · iexact H9
    ipureintro
    exact View.read_writes_eq_canon _ _ _ (cover1_S _)
  iexists _; isplitr
  swap; · iexact H10
  ipureintro
  exact View.read_writes_eq_canon _ _ _ (cover1_O _)

end Cert.KernelIdeal.Frm

end
-- ==== Proof.KernelIdealR1A.lean ====
/-
  The attention kernel's body at the FIRST of a row block's eight steps: the three scratch buffers are reset and
  then advanced one step. The run records, for each scratch buffer, the list of stores it ends with (the latest
  first); what those stores leave is read off the lists elsewhere.
-/
import proofs.«132837_j19086834663562_2_alg».proof.Proof.KernelIdealR1B

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores each scratch buffer ends with at a first step, WITH the proof that the body, on whole staging
    memrefs — the inputs' at their contents, the idle output's at contents handed back untouched, the scratch at
    anything — runs to the continuation holding the inputs' and the output's as they were and each scratch with
    those stores written. -/
noncomputable def kernelRun1_A (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : cond1_0 i) (hc1 : ¬cond1_1 i)
    (x0 : Vec F S512x1 .f32) (x1 : Vec F S1x1024 .f32) (x2 : Vec F S512x1024 .f32) (x3 : Vec F S512x1024 .f32) (x4 : Vec F S8192x256 .bf16) :
    Σ' (L8 : List (View.Piece (Elt F) S512x1 .f32)) (L9 : List (View.Piece (Elt F) S512x1 .f32)), { L10 : List (View.Piece (Elt F) S512x256 .f32) //
      ∀ (xo : Vec F S512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
                ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9 arg10 harg10) K } := by
  refine ⟨?_, ?_, ?_, fun xo E K => ?run⟩
  case run =>
    simp only [cc1__gat_kernel_eq_skeleton]; unfold cc1__gat_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]
    · iexists _; isplitr; · ipureintro; exact harg7.read_unread _
      iexact H7
    isplitl [H8]; · iexists _; iexact H8
    isplitl [H9]; · iexists _; iexact H9
    iexists _; iexact H10

end Cert.KernelIdeal.Frm

end
-- ==== Proof.KernelIdealR1C.lean ====
/-
  The attention kernel's body at the LAST of a row block's eight steps: the three scratch buffers are advanced one
  step from what the step before left, and the output block is stored from the new weighted sum and the new
  normaliser. The run records, for the output and for each scratch buffer, the list of stores it ends with.
-/
import proofs.«132837_j19086834663562_2_alg».proof.Proof.KernelIdealR1A

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores the output and each scratch buffer end with at a last step, WITH the proof that the body, on whole
    staging memrefs — the inputs' at their contents, the output's at anything, the scratch at what the step before
    left — runs to the continuation holding the inputs' as they were and the output and each scratch with those
    stores written. -/
noncomputable def kernelRun1_C (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) :
    Σ' (L7 : List (View.Piece (Elt F) S512x256 .f32)) (L8 : List (View.Piece (Elt F) S512x1 .f32)) (L9 : List (View.Piece (Elt F) S512x1 .f32)), { L10 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare ms ∗ owns (c : Thread nD τ) arg9 fullShare ls ∗ owns (c : Thread nD τ) arg10 fullShare accs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc1__gat_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__gat_kernel_eq_skeleton]; unfold cc1__gat_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hf8; obtain rfl := harg9.eq_unread hf9; obtain rfl := harg10.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    isplitl [H9]; · iexists _; iexact H9
    iexists _; iexact H10

end Cert.KernelIdeal.Frm

end
-- ==== Proof.KernelIdealR1Br.lean ====
/-
  The attention kernel's body, what its stores leave. At a first and at a last step of a row block the body's run
  records each buffer's stores as a list; here each such list is read back: the latest store of every buffer
  covers it whole, so the buffer holds that store's value, and that value — over the loads the body made, some of
  them of buffers it had itself just stored — is one step of the running softmax from the reset values (first
  step) or from what the step before left (last step), and, for the output block, the exponential linear unit of
  the new weighted sum over the new normaliser.
-/
import proofs.«132837_j19086834663562_2_alg».proof.Proof.KernelIdealR1C
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets, however spelt. -/
theorem hz2 : (![0, 0] : Fin 2 → ℕ) = fun _ => 0 := by funext a; fin_cases a <;> rfl

/-- After a list of stores whose LATEST is a store of the whole buffer, the buffer reads back as that store's
    value — whatever it held before and whatever the earlier stores were. -/
theorem read_writes_whole {sg : RefSig} {κ : Kind} {sp : Space} {S : Shape} {e : EltTy}
    (v : View sg κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero h inb y⟩)]
  exact View.canon_cons_unit_zero h inb w L

/-- A load of a whole buffer that holds `X` reads `X`. -/
theorem readAt_whole {sg : RefSig} {κ : Kind} {sp : Space} {S : Shape} {e : EltTy}
    (m : Memref sg κ sp S e) (h : m.IsWhole) {off : Fin S.rank → ℕ} (hz : off = fun _ => 0)
    (inb : ∀ a, off a + S.size a ≤ S.size a) (X : S.Idx → Elt F e) :
    m.view.readAt (Elt F) (Rect.unit off S.size inb).toLoadRect (h.unread X) = X := by
  rw [View.readAt_eq_ld, h.read_unread, View.ld_unit_zero hz inb]

/-- Each step function is its payload of the blocks themselves: the one store covers the buffer and every load is of
    a whole buffer. -/
theorem stepM_eq (x0 : Vec F S512x1 .f32) (x1 : Vec F S1x1024 .f32) (x2 x3 : Vec F S512x1024 .f32) (m : Vec F S512x1 .f32) :
    stepM x0 x1 x2 x3 m = k1_pay3 (k1_pay9 x0 x1 x3 x2 m) := by
  unfold stepM
  rw [View.canon_unit_zero hz2]
  simp only [View.ld_unit_zero (S := S512x1) hz2, View.ld_unit_zero (S := S1x1024) hz2, View.ld_unit_zero (S := S512x1024) hz2]

theorem resetM_eq : resetM (F := F) = k1_pay5 (F := F) := by
  unfold resetM; rw [View.canon_unit_zero hz2]

theorem stepL_eq (x0 : Vec F S512x1 .f32) (x1 : Vec F S1x1024 .f32) (x2 x3 : Vec F S512x1024 .f32) (m l : Vec F S512x1 .f32) :
    stepL x0 x1 x2 x3 m l = k1_pay1 (k1_pay12 x0 x1 x3 x2 m m l) (k1_pay13 x0 x1 x3 x2 m) := by
  unfold stepL
  rw [View.canon_unit_zero hz2]
  simp only [View.ld_unit_zero (S := S512x1) hz2, View.ld_unit_zero (S := S1x1024) hz2, View.ld_unit_zero (S := S512x1024) hz2]

theorem stepA_eq (i : grid1.Coords) (x0 : Vec F S512x1 .f32) (x1 : Vec F S1x1024 .f32) (x2 x3 : Vec F S512x1024 .f32) (x4 : Vec F S8192x256 .bf16)
    (m : Vec F S512x1 .f32) (acc : Vec F S512x256 .f32) :
    stepA i x0 x1 x2 x3 x4 m acc = k1_pay2 (k1_pay10 x0 x1 x3 x2 m m) (k1_pay11 x0 x1 x3 x2 m) (View.ld x4 (rHs i)) acc := by
  unfold stepA
  rw [View.canon_unit_zero hz2]
  simp only [View.ld_unit_zero (S := S512x1) hz2, View.ld_unit_zero (S := S1x1024) hz2, View.ld_unit_zero (S := S512x1024) hz2,
    View.ld_unit_zero (S := S512x256) hz2]

theorem stepO_eq (acc : Vec F S512x256 .f32) (l : Vec F S512x1 .f32) : stepO acc l = k1_pay4 acc l := by
  unfold stepO
  rw [View.canon_unit_zero hz2]
  simp only [View.ld_unit_zero (S := S512x1) hz2, View.ld_unit_zero (S := S512x256) hz2]

theorem resetL_eq : resetL (F := F) = k1_pay6 (F := F) := by
  unfold resetL; rw [View.canon_unit_zero hz2]
theorem resetA_eq : resetA (F := F) = k1_pay7 (F := F) := by
  unfold resetA; rw [View.canon_unit_zero hz2]

set_option maxHeartbeats 400000 in
/-- What a first step's stores leave in the running-maximum buffer: one step from the reset value. -/
theorem bridge_A_8 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : cond1_0 i) (hc1 : ¬cond1_1 i)
    (x0 : Vec F S512x1 .f32) (x1 : Vec F S1x1024 .f32) (x2 : Vec F S512x1024 .f32) (x3 : Vec F S512x1024 .f32) (x4 : Vec F S8192x256 .bf16)
    (f : arg8.view.ty.Contents (Elt F)) :
    arg8.view.read (Elt F) (arg8.view.writes (Elt F) f (kernelRun1_A c i arg2 harg2 arg3 harg3 arg4 harg4 arg5 harg5 arg6 harg6 arg7 harg7 arg8 harg8 arg9 harg9 arg10 harg10 hc0 hc1 x0 x1 x2 x3 x4).1)
      = stepM x0 x1 x2 x3 (resetM (F := F)) := by
  rw [stepM_eq, resetM_eq]
  unfold kernelRun1_A
  dsimp only
  sl_unfold_run_names
  refine (read_writes_whole (S := S512x1) arg8.view f hz2 inb_S512x1_S512x1_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2]
  exact congrArg (fun t => k1_pay3 (k1_pay9 x0 x1 x3 x2 t))
    (View.readCov_unit_zero (S := S512x1) arg8.view hz2 inb_S512x1_S512x1_0_0 _)

set_option maxHeartbeats 400000 in
/-- A first step leaves the normaliser one step from its reset value. -/
theorem bridge_A_9 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : cond1_0 i) (hc1 : ¬cond1_1 i)
    (x0 : Vec F S512x1 .f32) (x1 : Vec F S1x1024 .f32) (x2 : Vec F S512x1024 .f32) (x3 : Vec F S512x1024 .f32) (x4 : Vec F S8192x256 .bf16) (f : arg9.view.ty.Contents (Elt F)) :
    arg9.view.read (Elt F) (arg9.view.writes (Elt F) f (kernelRun1_A c i arg2 harg2 arg3 harg3 arg4 harg4 arg5 harg5 arg6 harg6 arg7 harg7 arg8 harg8 arg9 harg9 arg10 harg10 hc0 hc1 x0 x1 x2 x3 x4).2.1)
      = stepL x0 x1 x2 x3 (resetM (F := F)) (resetL (F := F)) := by
  rw [stepL_eq, resetM_eq, resetL_eq]
  unfold kernelRun1_A
  dsimp only
  sl_unfold_run_names
  refine (read_writes_whole (S := S512x1) arg9.view f hz2 inb_S512x1_S512x1_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2]
  generalize ht8 : View.readCov (Val := Elt F) arg8.view _ _ = t8
  obtain rfl : t8 = k1_pay5 (F := F) := ht8.symm.trans (View.readCov_unit_zero (S := S512x1) arg8.view hz2 inb_S512x1_S512x1_0_0 _)
  generalize ht9 : View.readCov (Val := Elt F) arg9.view _ _ = t9
  obtain rfl : t9 = k1_pay6 (F := F) := ht9.symm.trans (View.readCov_unit_zero (S := S512x1) arg9.view hz2 inb_S512x1_S512x1_0_0 _)
  rfl

set_option maxHeartbeats 400000 in
/-- A first step leaves the weighted sum one step from its reset value. -/
theorem bridge_A_10 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : cond1_0 i) (hc1 : ¬cond1_1 i)
    (x0 : Vec F S512x1 .f32) (x1 : Vec F S1x1024 .f32) (x2 : Vec F S512x1024 .f32) (x3 : Vec F S512x1024 .f32) (x4 : Vec F S8192x256 .bf16) (f : arg10.view.ty.Contents (Elt F)) :
    arg10.view.read (Elt F) (arg10.view.writes (Elt F) f (kernelRun1_A c i arg2 harg2 arg3 harg3 arg4 harg4 arg5 harg5 arg6 harg6 arg7 harg7 arg8 harg8 arg9 harg9 arg10 harg10 hc0 hc1 x0 x1 x2 x3 x4).2.2.1)
      = stepA i x0 x1 x2 x3 x4 (resetM (F := F)) (resetA (F := F)) := by
  rw [stepA_eq, resetM_eq, resetA_eq]
  unfold kernelRun1_A
  dsimp only
  sl_unfold_run_names
  refine (read_writes_whole (S := S512x256) arg10.view f hz2 inb_S512x256_S512x256_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2,
    show View.readAt (Elt F) arg6.view (rHs i).toLoadRect (harg6.unread x4) = View.ld x4 (rHs i) from by
      rw [View.readAt_eq_ld, harg6.read_unread]]
  generalize ht8 : View.readCov (Val := Elt F) arg8.view _ _ = t8
  obtain rfl : t8 = k1_pay5 (F := F) := ht8.symm.trans (View.readCov_unit_zero (S := S512x1) arg8.view hz2 inb_S512x1_S512x1_0_0 _)
  generalize ht10 : View.readCov (Val := Elt F) arg10.view _ _ = t10
  obtain rfl : t10 = k1_pay7 (F := F) := ht10.symm.trans (View.readCov_unit_zero (S := S512x256) arg10.view hz2 inb_S512x256_S512x256_0_0 _)
  rfl

set_option maxHeartbeats 400000 in
/-- A last step leaves the running maximum one step from what the step before left. -/
theorem bridge_C_8 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) (f : arg8.view.ty.Contents (Elt F)) :
    arg8.view.read (Elt F) (arg8.view.writes (Elt F) f (kernelRun1_C c i arg2 harg2 arg3 harg3 arg4 harg4 arg5 harg5 arg6 harg6 arg7 harg7 arg8 harg8 arg9 harg9 arg10 harg10 hc0 hc1 x0 x1 x2 x3 x4 ms ls accs).2.1)
      = stepM x0 x1 x2 x3 ms := by
  rw [stepM_eq]
  unfold kernelRun1_C
  dsimp only
  sl_unfold_run_names
  refine (read_writes_whole (S := S512x1) arg8.view f hz2 inb_S512x1_S512x1_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2,
    readAt_whole (S := S512x1) arg8 harg8 hz2 inb_S512x1_S512x1_0_0 ms]

set_option maxHeartbeats 400000 in
/-- A last step leaves the normaliser one step from what the step before left. -/
theorem bridge_C_9 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) (f : arg9.view.ty.Contents (Elt F)) :
    arg9.view.read (Elt F) (arg9.view.writes (Elt F) f (kernelRun1_C c i arg2 harg2 arg3 harg3 arg4 harg4 arg5 harg5 arg6 harg6 arg7 harg7 arg8 harg8 arg9 harg9 arg10 harg10 hc0 hc1 x0 x1 x2 x3 x4 ms ls accs).2.2.1)
      = stepL x0 x1 x2 x3 ms ls := by
  rw [stepL_eq]
  unfold kernelRun1_C
  dsimp only
  sl_unfold_run_names
  refine (read_writes_whole (S := S512x1) arg9.view f hz2 inb_S512x1_S512x1_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2,
    readAt_whole (S := S512x1) arg8 harg8 hz2 inb_S512x1_S512x1_0_0 ms,
    readAt_whole (S := S512x1) arg9 harg9 hz2 inb_S512x1_S512x1_0_0 ls]

set_option maxHeartbeats 400000 in
/-- A last step leaves the weighted sum one step from what the step before left. -/
theorem bridge_C_10 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) (f : arg10.view.ty.Contents (Elt F)) :
    arg10.view.read (Elt F) (arg10.view.writes (Elt F) f (kernelRun1_C c i arg2 harg2 arg3 harg3 arg4 harg4 arg5 harg5 arg6 harg6 arg7 harg7 arg8 harg8 arg9 harg9 arg10 harg10 hc0 hc1 x0 x1 x2 x3 x4 ms ls accs).2.2.2.1)
      = stepA i x0 x1 x2 x3 x4 ms accs := by
  rw [stepA_eq]
  unfold kernelRun1_C
  dsimp only
  sl_unfold_run_names
  refine (read_writes_whole (S := S512x256) arg10.view f hz2 inb_S512x256_S512x256_0_0 _ _).trans ?_
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2,
    readAt_whole (S := S512x1) arg8 harg8 hz2 inb_S512x1_S512x1_0_0 ms,
    show View.readAt (Elt F) arg6.view (rHs i).toLoadRect (harg6.unread x4) = View.ld x4 (rHs i) from by
      rw [View.readAt_eq_ld, harg6.read_unread],
    readAt_whole (S := S512x256) arg10 harg10 hz2 inb_S512x256_S512x256_0_0 accs]

set_option maxHeartbeats 400000 in
/-- A last step leaves, in the output block, the exponential linear unit of the new weighted sum over the new
    normaliser. -/
theorem bridge_C_7 (c : Dev nD) (i : grid1.Coords) (arg2 : Memref sig .tc .vmem S512x1 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8192x256 .bf16) (harg6 : arg6.IsWhole) (arg7 : Memref sig .tc .vmem S512x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x256 .f32) (harg10 : arg10.IsWhole)
    (hc0 : ¬cond1_0 i) (hc1 : cond1_1 i)
    (x0 : Vec F S512x1 .f32) (x1 : Vec F S1x1024 .f32) (x2 : Vec F S512x1024 .f32) (x3 : Vec F S512x1024 .f32) (x4 : Vec F S8192x256 .bf16)
    (ms : Vec F S512x1 .f32) (ls : Vec F S512x1 .f32) (accs : Vec F S512x256 .f32) (f : arg7.view.ty.Contents (Elt F)) :
    arg7.view.read (Elt F) (arg7.view.writes (Elt F) f (kernelRun1_C c i arg2 harg2 arg3 harg3 arg4 harg4 arg5 harg5 arg6 harg6 arg7 harg7 arg8 harg8 arg9 harg9 arg10 harg10 hc0 hc1 x0 x1 x2 x3 x4 ms ls accs).1)
      = stepO (stepA i x0 x1 x2 x3 x4 ms accs) (stepL x0 x1 x2 x3 ms ls) := by
  rw [stepO_eq, stepA_eq, stepL_eq]
  unfold kernelRun1_C
  dsimp only
  sl_unfold_run_names
  dsimp only
  refine (read_writes_whole (S := S512x256) arg7.view f hz2 inb_S512x256_S512x256_0_0 _ _).trans ?_
  generalize ht10 : View.readCov (Val := Elt F) arg10.view _ _ = t10
  obtain rfl := ht10.symm.trans (View.readCov_unit_zero (S := S512x256) arg10.view hz2 inb_S512x256_S512x256_0_0 _)
  generalize ht9 : View.readCov (Val := Elt F) arg9.view _ _ = t9
  obtain rfl := ht9.symm.trans (View.readCov_unit_zero (S := S512x1) arg9.view hz2 inb_S512x1_S512x1_0_0 _)
  rw [readAt_whole (S := S512x1) arg2 harg2 hz2 inb_S512x1_S512x1_0_0 x0,
    readAt_whole (S := S1x1024) arg3 harg3 hz2 inb_S1x1024_S1x1024_0_0 x1,
    readAt_whole (S := S512x1024) arg5 harg5 hz2 inb_S512x1024_S512x1024_0_0 x3,
    readAt_whole (S := S512x1024) arg4 harg4 hz2 inb_S512x1024_S512x1024_0_0 x2,
    readAt_whole (S := S512x1) arg8 harg8 hz2 inb_S512x1_S512x1_0_0 ms,
    show View.readAt (Elt F) arg6.view (rHs i).toLoadRect (harg6.unread x4) = View.ld x4 (rHs i) from by
      rw [View.readAt_eq_ld, harg6.read_unread],
    readAt_whole (S := S512x1) arg9 harg9 hz2 inb_S512x1_S512x1_0_0 ls,
    readAt_whole (S := S512x256) arg10 harg10 hz2 inb_S512x256_S512x256_0_0 accs]

end Cert.KernelIdeal.Frm

end
-- ==== Proof.KernelIdealR1S.lean ====
/-
  The attention kernel over its whole grid. Its 128 points run in the order (q, k) ↦ 8·q + k. What the three
  scratch buffers hold after point n is one step of the running softmax from the reset values when n is the first
  of its row block (n ≡ 0 mod 8) and from what point n − 1 left otherwise; the output block the pipeline writes
  back at the last step of a row block (n ≡ 7 mod 8) is the exponential linear unit of that state's weighted sum
  over its normaliser, and at every other point the output's buffer is handed back untouched and not written back.
  Here: that state by recursion on the point, the region's invariant (the scratch at the state the point before
  left), the pipeline's proof data and the body obligation at every point.
-/
import proofs.«132837_j19086834663562_2_alg».proof.Proof.KernelIdealR1Br

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions, the idle points and the write-backs, decided over the grid -/

/-- The reset is taken exactly at the first step of each row block. -/
theorem hcond1_0 : ∀ t : Fin cfg1.N, cond1_0 (grid1.coords t) ↔ t.val % 8 = 0 :=
  (by decide +kernel : ∀ t : Fin grid1.N, cond1_0 (grid1.coords t) ↔ t.val % 8 = 0)
/-- The output is stored exactly at the last step of each row block. -/
theorem hcond1_1 : ∀ t : Fin cfg1.N, cond1_1 (grid1.coords t) ↔ t.val % 8 = 7 :=
  (by decide +kernel : ∀ t : Fin grid1.N, cond1_1 (grid1.coords t) ↔ t.val % 8 = 7)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the output is not stored its window is idle, -/
theorem idleAt1_5 : ∀ t : Fin cfg1.N, ¬cond1_1 (grid1.coords t) → cfg1.idle 5 (grid1.coords t) = true := by decide +kernel
/-- and the pipeline does not write its block back there; -/
theorem noFlush1_5 : ∀ t : Fin cfg1.N, ¬cond1_1 (grid1.coords t) → (cfg1.win 5).flush t = false := by decide +kernel
/-- where it is stored the window is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8192x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x256 .f32 := win1_5.stage (cfg1.slots t 5)
abbrev hs1_5 (t : Fin cfg1.N) : (ms1_5 t).IsWhole := hstage1_5 ((cfg1.slots t 5).cast nbuf1_5)
/-- The three scratch operands: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x256 .f32 := Memref.whole cc1_scratch2

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The scratch after each point -/

/-- THE RUNNING STATE. What the three scratch buffers (running maximum, normaliser, weighted sum) hold after the body
    at position `n`: one step, over the point's blocks, from the reset values at the first step of a row block
    and from what position `n − 1` left otherwise. -/
def stAt (c : Dev nD) : (n : ℕ) → n < cfg1.N → Vec F S512x1 .f32 × Vec F S512x1 .f32 × Vec F S512x256 .f32
  | 0, hn => (stepM (iblk1 V c 0 ⟨0, hn⟩) (iblk1 V c 1 ⟨0, hn⟩) (iblk1 V c 2 ⟨0, hn⟩) (iblk1 V c 3 ⟨0, hn⟩) (resetM (F := F)), stepL (iblk1 V c 0 ⟨0, hn⟩) (iblk1 V c 1 ⟨0, hn⟩) (iblk1 V c 2 ⟨0, hn⟩) (iblk1 V c 3 ⟨0, hn⟩) (resetM (F := F)) (resetL (F := F)), stepA (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (resetM (F := F)) (resetA (F := F)))
  | n + 1, hn =>
    if (n + 1) % 8 = 0 then (stepM (iblk1 V c 0 ⟨n + 1, hn⟩) (iblk1 V c 1 ⟨n + 1, hn⟩) (iblk1 V c 2 ⟨n + 1, hn⟩) (iblk1 V c 3 ⟨n + 1, hn⟩) (resetM (F := F)), stepL (iblk1 V c 0 ⟨n + 1, hn⟩) (iblk1 V c 1 ⟨n + 1, hn⟩) (iblk1 V c 2 ⟨n + 1, hn⟩) (iblk1 V c 3 ⟨n + 1, hn⟩) (resetM (F := F)) (resetL (F := F)), stepA (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (resetM (F := F)) (resetA (F := F)))
    else (stepM (iblk1 V c 0 ⟨n + 1, hn⟩) (iblk1 V c 1 ⟨n + 1, hn⟩) (iblk1 V c 2 ⟨n + 1, hn⟩) (iblk1 V c 3 ⟨n + 1, hn⟩) (stAt c n (Nat.lt_of_succ_lt hn)).1, stepL (iblk1 V c 0 ⟨n + 1, hn⟩) (iblk1 V c 1 ⟨n + 1, hn⟩) (iblk1 V c 2 ⟨n + 1, hn⟩) (iblk1 V c 3 ⟨n + 1, hn⟩) (stAt c n (Nat.lt_of_succ_lt hn)).1 (stAt c n (Nat.lt_of_succ_lt hn)).2.1, stepA (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (stAt c n (Nat.lt_of_succ_lt hn)).1 (stAt c n (Nat.lt_of_succ_lt hn)).2.2)

/-- At the first step of a row block: one step from the reset values. -/
theorem stAt_first (c : Dev nD) (t : Fin cfg1.N) (h0 : t.val % 8 = 0) :
    stAt V c t.val t.isLt = (stepM (iblk1 V c 0 t) (iblk1 V c 1 t) (iblk1 V c 2 t) (iblk1 V c 3 t) (resetM (F := F)), stepL (iblk1 V c 0 t) (iblk1 V c 1 t) (iblk1 V c 2 t) (iblk1 V c 3 t) (resetM (F := F)) (resetL (F := F)), stepA (grid1.coords t) (iblk1 V c 0 t) (iblk1 V c 1 t) (iblk1 V c 2 t) (iblk1 V c 3 t) (iblk1 V c 4 t) (resetM (F := F)) (resetA (F := F))) := by
  obtain ⟨n, hn⟩ := t
  cases n with
  | zero => rfl
  | succ n => exact if_pos h0

/-- At any other step: one step from what the point before left. -/
theorem stAt_next (c : Dev nD) (t : Fin cfg1.N) (h0 : ¬t.val % 8 = 0) :
    stAt V c t.val t.isLt = (stepM (iblk1 V c 0 t) (iblk1 V c 1 t) (iblk1 V c 2 t) (iblk1 V c 3 t) (stAt V c (t.val - 1) (Nat.lt_of_le_of_lt (Nat.sub_le _ _) t.isLt)).1, stepL (iblk1 V c 0 t) (iblk1 V c 1 t) (iblk1 V c 2 t) (iblk1 V c 3 t) (stAt V c (t.val - 1) (Nat.lt_of_le_of_lt (Nat.sub_le _ _) t.isLt)).1 (stAt V c (t.val - 1) (Nat.lt_of_le_of_lt (Nat.sub_le _ _) t.isLt)).2.1, stepA (grid1.coords t) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.2) := by
  obtain ⟨n, hn⟩ := t
  cases n with
  | zero => exact absurd (Nat.zero_mod _) h0
  | succ n => exact if_neg h0

/-! ## The region's invariant -/

/-- The core's scoped buffers that belong to the other kernel region, each whole at some contents: they ride
    through this region untouched. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The invariant before position `n`: before the first point the three scratch buffers at anything; afterwards
    at what the point before left; beside them the other region's buffers and the generator register. -/
def PhiS (c : Dev nD) : (n : ℕ) → n ≤ cfg1.N → sProp 𝕄
  | 0, _ => iprop(Rest1 (F := F) c ∗ (∃ d, owns (c : Thread nD τ) scM1_0 fullShare d) ∗ (∃ d, owns (c : Thread nD τ) scM1_1 fullShare d)
      ∗ (∃ d, owns (c : Thread nD τ) scM1_2 fullShare d) ∗ (∃ r, prngReg c r))
  | n + 1, hn => iprop(Rest1 (F := F) c ∗ owns (c : Thread nD τ) scM1_0 fullShare (stAt V c n hn).1 ∗ owns (c : Thread nD τ) scM1_1 fullShare (stAt V c n hn).2.1
      ∗ owns (c : Thread nD τ) scM1_2 fullShare (stAt V c n hn).2.2 ∗ (∃ r, prngReg c r))

theorem PhiS_zero (c : Dev nD) (n : ℕ) (h : n ≤ cfg1.N) (hz : n = 0) :
    PhiS V c n h = iprop(Rest1 (F := F) c ∗ (∃ d, owns (c : Thread nD τ) scM1_0 fullShare d) ∗ (∃ d, owns (c : Thread nD τ) scM1_1 fullShare d)
      ∗ (∃ d, owns (c : Thread nD τ) scM1_2 fullShare d) ∗ (∃ r, prngReg c r)) := by
  subst hz; rfl
theorem PhiS_succ (c : Dev nD) (n : ℕ) (hn : n < cfg1.N) :
    PhiS V c (n + 1) hn = iprop(Rest1 (F := F) c ∗ owns (c : Thread nD τ) scM1_0 fullShare (stAt V c n hn).1 ∗ owns (c : Thread nD τ) scM1_1 fullShare (stAt V c n hn).2.1
      ∗ owns (c : Thread nD τ) scM1_2 fullShare (stAt V c n hn).2.2 ∗ (∃ r, prngReg c r)) := rfl
theorem PhiS_pos (c : Dev nD) (n : ℕ) (h : n ≤ cfg1.N) (hz : n ≠ 0) :
    PhiS V c n h = iprop(Rest1 (F := F) c ∗ owns (c : Thread nD τ) scM1_0 fullShare (stAt V c (n - 1) (by omega)).1 ∗ owns (c : Thread nD τ) scM1_1 fullShare (stAt V c (n - 1) (by omega)).2.1
      ∗ owns (c : Thread nD τ) scM1_2 fullShare (stAt V c (n - 1) (by omega)).2.2 ∗ (∃ r, prngReg c r)) := by
  cases n with
  | zero => exact absurd rfl hz
  | succ n => rfl

/-! ## The pipeline's proof data -/

/-- The proof data of the attention kernel's pipeline on core `c`: the arrays as the region finds them; after the
    body at point `t` each input's buffer still at its block and the output's at the exponential linear unit of the
    running state's weighted sum over its normaliser (consulted only where the block is written back); the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => stepO (stAt V c t.val t.isLt).2.2 (stAt V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = stepO (stAt V c t.val t.isLt).2.2 (stAt V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' memrefs hold their blocks; the point's position within its row block says
    which of the three control cases it is in; the invariant hands the body the scratch at what the point before
    left (at anything before the very first point, and at a first step whatever it holds is overwritten) and takes
    it back one step on; the output's buffer is handed back untouched except at a last step, where it takes the
    block the pipeline then writes back; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 128 := lt_of_lt_of_eq t.isLt (show cfg1.N = 128 from N_1)
  by_cases h0 : t.val % 8 = 0
  · by_cases h1 : t.val % 8 = 7
    · exfalso; omega
    · -- a FIRST step
      rw [Dat.leavesExact_idle (dat1 V c) 5 t (idleAt1_5 t (fun h => h1 ((hcond1_1 t).mp h))) (noFlush1_5 t (fun h => h1 ((hcond1_1 t).mp h)))]
      rw [stAt_first V c t h0]; dsimp only
      by_cases hz : t.val = 0
      · rw [PhiS_castSucc V c t, PhiS_zero V c _ _ hz]
        iintro ⟨⟨HR, HS0, HS1, HS2, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact bridge_A_8 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es0
          isplitl [HS1]
          · unfold owns; iexists _; isplitr
            swap; · iexact HS1
            ipureintro; exact bridge_A_9 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es1
          isplitl [HS2]
          · unfold owns; iexists _; isplitr
            swap; · iexact HS2
            ipureintro; exact bridge_A_10 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es2
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨HR, HS0, HS1, HS2, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact bridge_A_8 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es0
          isplitl [HS1]
          · unfold owns; iexists _; isplitr
            swap; · iexact HS1
            ipureintro; exact bridge_A_9 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es1
          isplitl [HS2]
          · unfold owns; iexists _; isplitr
            swap; · iexact HS2
            ipureintro; exact bridge_A_10 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) es2
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    rw [stAt_next V c t h0]; dsimp only
    rw [PhiS_castSucc V c t, PhiS_pos V c _ _ hz]
    by_cases h1 : t.val % 8 = 7
    · -- a LAST step
      rw [show (dat1 V c).leavesExact 5 t = owns (c : Thread nD τ) (ms1_5 t) fullShare ((dat1 V c).after 5 t) from by
        unfold Dat.leavesExact; rw [liveAt1_5 t ((hcond1_1 t).mpr h1)], after1_5, stAt_next V c t h0]
      dsimp only
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact bridge_C_8 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2 es0
        isplitl [HS1]
        · unfold owns; iexists _; isplitr
          swap; · iexact HS1
          ipureintro; exact bridge_C_9 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2 es1
        isplitl [HS2]
        · unfold owns; iexists _; isplitr
          swap; · iexact HS2
          ipureintro; exact bridge_C_10 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2 es2
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact bridge_C_7 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2 e5
    · -- a MIDDLE step
      rw [Dat.leavesExact_idle (dat1 V c) 5 t (idleAt1_5 t (fun h => h1 ((hcond1_1 t).mp h))) (noFlush1_5 t (fun h => h1 ((hcond1_1 t).mp h)))]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply (sound_kernel1_B c Set.univ (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2 _ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KernelIdealRun.lean ====
/-
  The whole program: @main is the projection kernel's region, one host operation (the transpose of the column
  h · a_neighs into a row) and the attention kernel's region. The contents of the TensorCore's buffers at each
  boundary are a fold from the launch memory: a region leaves its arrays at what the pipeline's write-backs make of
  the body's blocks and every other buffer as it found it; the host operation writes its one result. Every weakly
  fair execution terminates with every unscoped buffer at the last boundary's contents; in particular the six
  argument arrays end as launched, and the result array holds what the attention kernel's write-backs leave.
-/
import proofs.«132837_j19086834663562_2_alg».proof.Proof.KernelIdealR0
import proofs.«132837_j19086834663562_2_alg».proof.Proof.KernelIdealR1S

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the projection kernel's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the projection kernel's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the transpose: the attention kernel's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the attention kernel's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: the host operation writes none, and a region reads an argument through an
    input window (whose array it leaves as found) or bypasses it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg1) := W1_of_ne m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W0 m ρ c (Proc.devRef .tc main_arg5) := (W1_arr m ρ c 3).trans (((dat0 (V0 m ρ) c).arrAt_in 3 rfl _).trans (A_eq0 (V0 m ρ) c 3))
    _ = m ((c : Thread nD τ).loc main_arg5) := rfl

/-! ## The proof data family and the thread state -/

/-- The host operation allocates no buffer. -/
theorem hostOps1_fresh : (hostOps1 : List (HloOp τ sig (Elt F))).Forall fun op => op.fresh = ∅ := by
  simp only [List.Forall]; repeat' constructor

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The attention kernel's invariant at the region's ends -/

set_option maxHeartbeats 1000000 in
/-- Entering: the scoped buffers no window of the attention kernel stages — the other region's, and its own three
    scratch buffers at anything — and the generator register make the invariant before the first point. -/
theorem hin1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ PhiS (V2 m ρ) c 0 (Nat.zero_le _) := by
  rw [PhiS_zero (V2 m ρ) c 0 _ rfl, scopedRest1_eq]
  unfold Rest1
  simp only [scM1_0, scM1_1, scM1_2, owns_whole]
  iintro ⟨Hp, -, A1, A2, A3, A4, A5, A6, A7, A8, A9, A10, A11, S0, S1, S2⟩
  isplitl [A1 A2 A3 A4 A5 A6 A7 A8 A9 A10 A11]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [S0]; · iexact S0
  isplitl [S1]; · iexact S1
  isplitl [S2]; · iexact S2
  iexact Hp

set_option maxHeartbeats 1000000 in
/-- Leaving: after any point but the first the invariant gives the generator register and those scoped buffers
    back, the scratch buffers' contents forgotten. -/
theorem hout1 (c : Dev nD) (t : Fin (cfg1.N + 1)) (ht : t.val ≠ 0) :
    (dat1 (V2 m ρ) c).Φ t
      ⊢ iprop((∃ r, prngReg c r) ∗ (BI.emp : sProp 𝕄) ∗ Pipeline.scopedRest (Ix := Unit) (Name := ℕ) (U := UR sig nD τ) (Lvl := ℕ) (Val := Elt F) spec1 c) := by
  rw [show (dat1 (V2 m ρ) c).Φ t = PhiS (V2 m ρ) c t.val (Nat.le_of_lt_succ t.isLt) from rfl, PhiS_pos (V2 m ρ) c _ _ ht, scopedRest1_eq]
  unfold Rest1
  simp only [scM1_0, scM1_1, scM1_2, owns_whole]
  iintro ⟨⟨A1, A2, A3, A4, A5, A6, A7, A8, A9, A10, A11⟩, S0, S1, S2, Hp⟩
  isplitl [Hp]; · iexact Hp
  isplitr; · iempintro
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [S0]; · iexists _; iexact S0
  isplitl [S1]; · iexists _; iexact S1
  iexists _; iexact S2

/-! ## The regions as segments -/

set_option backward.isDefEq.respectTransparency.types false in
/-- The projection kernel's region over the thread state: entered from every unscoped buffer at launch contents,
    left with its arrays at what the pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
set_option backward.isDefEq.respectTransparency.types false in
/-- The attention kernel's region: entered from every unscoped buffer at the contents after the transpose, left at
    the last boundary's. Its invariant takes in the scoped buffers no window of it stages — the other region's, and
    its own three scratch buffers at anything — and the generator register, and gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 m ρ c _
  hout c := by
    rw [Pipeline.ownSems0_none]
    exact hout1 m ρ c (Fin.last _) (by rw [Fin.val_last]; have : cfg1.N = 128 := N_1; omega)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final state has every unscoped buffer of every core at the last boundary's
    contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME, at any reading of the floats: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c)⟩) (run m ρ)

end Cert.KernelIdeal.Frm

end
-- ==== Proof.RefRun.lean ====
/-
  The reference program's @main as the list of its 52 host operations — the functions it calls written out at their
  call sites over each call's own buffers — and its run read back: every weakly fair execution terminates with the
  result buffer at the operations' composed pure term of the six argument arrays, the arguments unchanged.
-/
import proofs.«132837_j19086834663562_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 52 operations, in order, the calls unfolded: the first select's one, the second select's three (the fill
    value converted to its own type, broadcast, the select), and the exponential linear unit's fifteen (two comparisons
    against a broadcast zero, a select's three, the exponential minus one, the product with a broadcast one, the last
    select). -/
abbrev ops : List (HloOp τ sig (Elt F)) :=
  [ binary main_arg0 main_arg3 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_v0 main_arg4 main_v1 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    binary main_v0 main_arg5 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v1 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    binary main_v6 main_arg2 main_v7 (mulf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    unary main_cst main_v8 (broadcastInDim S8192x8192 ![] bcast_S_S8192x8192 : (⟨S_, .f32⟩ : BufTy).Contents (Elt F) → (⟨S8192x8192, .f32⟩ : BufTy).Contents (Elt F)),
    binary main_v7 main_v8 main_v9 (cmpf .ogt : (⟨S8192x8192, .f32⟩ : BufTy).Contents (Elt F) → (⟨S8192x8192, .f32⟩ : BufTy).Contents (Elt F) → (⟨S8192x8192, .i1⟩ : BufTy).Contents (Elt F)),
    nullary main_cst_0 (constant S_ .f32 0x3E4CCCCD#32),
    unary main_cst_0 main_v10 (broadcastInDim S8192x8192 ![] bcast_S_S8192x8192 : (⟨S_, .f32⟩ : BufTy).Contents (Elt F) → (⟨S8192x8192, .f32⟩ : BufTy).Contents (Elt F)),
    binary main_v10 main_v7 main_v11 (mulf : (⟨S8192x8192, .f32⟩ : BufTy).Contents (Elt F) → (⟨S8192x8192, .f32⟩ : BufTy).Contents (Elt F) → (⟨S8192x8192, .f32⟩ : BufTy).Contents (Elt F)),
    TRef.ternary (.of main_v9) (.of main_v7) (.of main_v11) main_call0.v0 select,
    nullary main_cst_1 (constant S_ .f32 0x00000000#32),
    unary main_cst_1 main_v13 (broadcastInDim S8192x8192 ![] bcast_S_S8192x8192 : (⟨S_, .f32⟩ : BufTy).Contents (Elt F) → (⟨S8192x8192, .f32⟩ : BufTy).Contents (Elt F)),
    binary main_arg1 main_v13 main_v14 (cmpf .ogt : (⟨S8192x8192, .f32⟩ : BufTy).Contents (Elt F) → (⟨S8192x8192, .f32⟩ : BufTy).Contents (Elt F) → (⟨S8192x8192, .i1⟩ : BufTy).Contents (Elt F)),
    nullary main_cst_2 (constant S_ .f32 0xD9FFCB9E#32),
    TRef.unary (.of main_cst_2) main_call1.v0 id,
    TRef.unary main_call1.v0 main_call1.v1 (broadcastInDim S8192x8192 ![] bcast_S_S8192x8192),
    TRef.ternary (.of main_v14) (.of main_v12) main_call1.v1 main_call1.v2 select,
    nullary main_cst_3 (constant S_ .f32 0xFF800000#32),
    binary main_v15 main_cst_3 main_v16 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_4 (constant S_ .f32 0xFF800000#32),
    unary main_cst_4 main_v17 (broadcastInDim S8192 ![] bcast_S_S8192 : (⟨S_, .f32⟩ : BufTy).Contents (Elt F) → (⟨S8192, .f32⟩ : BufTy).Contents (Elt F)),
    binary main_v17 main_v16 main_v18 (maximumf : (⟨S8192, .f32⟩ : BufTy).Contents (Elt F) → (⟨S8192, .f32⟩ : BufTy).Contents (Elt F) → (⟨S8192, .f32⟩ : BufTy).Contents (Elt F)),
    unary main_v18 main_v19 (broadcastInDim S8192x1 ![0] bcast_S8192_S8192x1_0 : (⟨S8192, .f32⟩ : BufTy).Contents (Elt F) → (⟨S8192x1, .f32⟩ : BufTy).Contents (Elt F)),
    unary main_v19 main_v20 (broadcastInDim S8192x8192 ![0, 1] bcast_S8192x1_S8192x8192_0_1 : (⟨S8192x1, .f32⟩ : BufTy).Contents (Elt F) → (⟨S8192x8192, .f32⟩ : BufTy).Contents (Elt F)),
    binary main_v15 main_v20 main_v21 (subf : (⟨S8192x8192, .f32⟩ : BufTy).Contents (Elt F) → (⟨S8192x8192, .f32⟩ : BufTy).Contents (Elt F) → (⟨S8192x8192, .f32⟩ : BufTy).Contents (Elt F)),
    unary main_v21 main_v22 (Host.exp : (⟨S8192x8192, .f32⟩ : BufTy).Contents (Elt F) → (⟨S8192x8192, .f32⟩ : BufTy).Contents (Elt F)),
    nullary main_cst_5 (constant S_ .f32 0x00000000#32),
    binary main_v22 main_cst_5 main_v23 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v23 main_v24 (broadcastInDim S8192x1 ![0] bcast_S8192_S8192x1_0 : (⟨S8192, .f32⟩ : BufTy).Contents (Elt F) → (⟨S8192x1, .f32⟩ : BufTy).Contents (Elt F)),
    unary main_v24 main_v25 (broadcastInDim S8192x8192 ![0, 1] bcast_S8192x1_S8192x8192_0_1 : (⟨S8192x1, .f32⟩ : BufTy).Contents (Elt F) → (⟨S8192x8192, .f32⟩ : BufTy).Contents (Elt F)),
    binary main_v22 main_v25 main_v26 (Host.divf : (⟨S8192x8192, .f32⟩ : BufTy).Contents (Elt F) → (⟨S8192x8192, .f32⟩ : BufTy).Contents (Elt F) → (⟨S8192x8192, .f32⟩ : BufTy).Contents (Elt F)),
    binary main_v26 main_v0 main_v27 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    TRef.nullary main_call2.cst (constant S_ .f32 0x00000000#32),
    TRef.unary main_call2.cst main_call2.v0 (broadcastInDim S8192x256 ![] bcast_S_S8192x256),
    TRef.binary (.of main_v27) main_call2.v0 main_call2.v1 (cmpf .ogt),
    TRef.nullary main_call2.cst_0 (constant S_ .f32 0x00000000#32),
    TRef.unary main_call2.cst_0 main_call2.v2 (broadcastInDim S8192x256 ![] bcast_S_S8192x256),
    TRef.binary (.of main_v27) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x256 ![] bcast_S_S8192x256),
    TRef.ternary main_call2.v3 main_call2.call0.v1 (.of main_v27) main_call2.call0.v2 select,
    TRef.unary main_call2.call0.v2 main_call2.v5 Host.expm1,
    TRef.nullary main_call2.cst_2 (constant S_ .f32 0x3F800000#32),
    TRef.unary main_call2.cst_2 main_call2.v6 (broadcastInDim S8192x256 ![] bcast_S_S8192x256),
    TRef.binary main_call2.v6 main_call2.v5 main_call2.v7 mulf,
    TRef.ternary main_call2.v1 (.of main_v27) main_call2.v7 main_call2.call1.v0 select ]

set_option maxRecDepth 2048 in
/-- @main is that straight line: the called functions' bodies unfolded at their calls, both sides are one chain of
    steps once sequencing is reassociated. -/
theorem main_eq (c : Dev nD) : main (F := F) c = seq ops := by
  simp only [main, fn_where.body, fn_where_0.body, fn_where_1.body, fn_where_2.body, fn_elu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- From any memory with zero counters every weakly fair execution of @main terminates, each buffer at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term, stage by stage

Each stage is a definition over the argument arrays (and the stages before it), so that a proof about the result reads
one operation at a time and nothing unfolds the whole by accident. -/

section Terms

variable (x : (⟨S8192x512, .f32⟩ : BufTy).Contents (Elt F)) (adj Mm : (⟨S8192x8192, .f32⟩ : BufTy).Contents (Elt F))
  (W : (⟨S512x256, .f32⟩ : BufTy).Contents (Elt F)) (aS aN : (⟨S256x1, .f32⟩ : BufTy).Contents (Elt F))

/-- h = x · W. -/
def tH : (⟨S8192x256, .f32⟩ : BufTy).Contents (Elt F) :=
  Host.dotGeneral dot_S8192x512_S512x256_S8192x256_1_0_0_1_n_n none x W

/-- h · a_self, a column. -/
def tSelf : (⟨S8192x1, .f32⟩ : BufTy).Contents (Elt F) :=
  Host.dotGeneral dot_S8192x256_S256x1_S8192x1_1_0_0_1_n_n none (tH x W) aS

/-- h · a_neighs, a column. -/
def tNeigh : (⟨S8192x1, .f32⟩ : BufTy).Contents (Elt F) :=
  Host.dotGeneral dot_S8192x256_S256x1_S8192x1_1_0_0_1_n_n none (tH x W) aN

/-- The logits before the rectifier: (column + transposed column) · M. -/
def tLogit : (⟨S8192x8192, .f32⟩ : BufTy).Contents (Elt F) :=
  mulf (addf (broadcastInDim S8192x8192 ![0, 1] bcast_S8192x1_S8192x8192_0_1 (tSelf x W aS))
      (broadcastInDim S8192x8192 ![0, 1] bcast_S1x8192_S8192x8192_0_1
        (transpose S1x8192 [1, 0] (tNeigh x W aN) transposes_S8192x1_S1x8192_1_0))) Mm

/-- The leaky rectifier of slope 0.2. -/
def tLeaky : (⟨S8192x8192, .f32⟩ : BufTy).Contents (Elt F) :=
  select (cmpf .ogt (tLogit x Mm W aS aN) (broadcastInDim S8192x8192 ![] bcast_S_S8192x8192 (constant S_ .f32 0x00000000#32)))
    (tLogit x Mm W aS aN)
    (mulf (broadcastInDim S8192x8192 ![] bcast_S_S8192x8192 (constant S_ .f32 0x3E4CCCCD#32)) (tLogit x Mm W aS aN))

/-- The masked scores: the rectified logit where adj > 0, the fill value elsewhere. -/
def tScore : (⟨S8192x8192, .f32⟩ : BufTy).Contents (Elt F) :=
  select (cmpf .ogt adj (broadcastInDim S8192x8192 ![] bcast_S_S8192x8192 (constant S_ .f32 0x00000000#32)))
    (tLeaky x Mm W aS aN)
    (broadcastInDim S8192x8192 ![] bcast_S_S8192x8192 (id (constant S_ .f32 0xD9FFCB9E#32)))

/-- Each row's maximum (reduced from −∞, then once more against −∞). -/
def tRowmax : (⟨S8192, .f32⟩ : BufTy).Contents (Elt F) :=
  maximumf (broadcastInDim S8192 ![] bcast_S_S8192 (constant S_ .f32 0xFF800000#32))
    (Host.reduce FloatOps.maximumf (tScore x adj Mm W aS aN) (constant S_ .f32 0xFF800000#32) reducesTo_S8192x8192_S8192_d1 h_S_)

/-- exp (score − row maximum). -/
def tExp : (⟨S8192x8192, .f32⟩ : BufTy).Contents (Elt F) :=
  Host.exp (subf (tScore x adj Mm W aS aN)
    (broadcastInDim S8192x8192 ![0, 1] bcast_S8192x1_S8192x8192_0_1
      (broadcastInDim S8192x1 ![0] bcast_S8192_S8192x1_0 (tRowmax x adj Mm W aS aN))))

/-- Each row's sum of exponentials. -/
def tDen : (⟨S8192, .f32⟩ : BufTy).Contents (Elt F) :=
  Host.reduceAdd (tExp x adj Mm W aS aN) (constant S_ .f32 0x00000000#32) reducesTo_S8192x8192_S8192_d1 h_S_

/-- The softmax weights. -/
def tSoft : (⟨S8192x8192, .f32⟩ : BufTy).Contents (Elt F) :=
  Host.divf (tExp x adj Mm W aS aN)
    (broadcastInDim S8192x8192 ![0, 1] bcast_S8192x1_S8192x8192_0_1
      (broadcastInDim S8192x1 ![0] bcast_S8192_S8192x1_0 (tDen x adj Mm W aS aN)))

/-- softmax · h. -/
def tHp : (⟨S8192x256, .f32⟩ : BufTy).Contents (Elt F) :=
  Host.dotGeneral dot_S8192x8192_S8192x256_S8192x256_1_0_0_1_n_n none (tSoft x adj Mm W aS aN) (tH x W)

/-- The exponential linear unit as the program spells it. -/
def tElu (v : (⟨S8192x256, .f32⟩ : BufTy).Contents (Elt F)) : (⟨S8192x256, .f32⟩ : BufTy).Contents (Elt F) :=
  select (cmpf .ogt v (broadcastInDim S8192x256 ![] bcast_S_S8192x256 (constant S_ .f32 0x00000000#32))) v
    (mulf (broadcastInDim S8192x256 ![] bcast_S_S8192x256 (constant S_ .f32 0x3F800000#32))
      (Host.expm1 (select (cmpf .ogt v (broadcastInDim S8192x256 ![] bcast_S_S8192x256 (constant S_ .f32 0x00000000#32)))
        (broadcastInDim S8192x256 ![] bcast_S_S8192x256 (id (constant S_ .f32 0x00000000#32))) v)))

/-- The reference's result as one term of the six argument arrays. -/
def resultTerm : (⟨S8192x256, .f32⟩ : BufTy).Contents (Elt F) := tElu (tHp x adj Mm W aS aN)

end Terms

attribute [local irreducible] Host.reduce Host.reduceAdd transpose broadcastInDim in
set_option maxRecDepth 8192 in
/-- The fold at the result buffer is the composed term: each operation's result read at its own buffer, the typed
    references' casts the identity at these literal references. -/
theorem out_eq (V : Valuation τ sig (Elt F)) :
    after ops V (main_v28 : DevRef τ sig)
      = resultTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-! ## The arguments are not written -/

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On the one device, for any float values, from any memory with zero counters: every weakly fair execution of @main
    terminates with the result buffer at the composed term of the six argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
        = resultTerm (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v28).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_main m ρ)

end Cert.ReferenceIdeal.RefRun

end
-- ==== Proof.RefSpec.lean ====
/-
  The reference's result as one closed-form function of its six argument arrays, index by index: a graph-attention
  layer over 8192 nodes. With h = x · W (8192 × 256), the logit of the pair (r, j) is
  ((h · a_self) r + (h · a_neighs) j) · M r j, passed through a leaky rectifier of slope 0.2 and replaced by −9·10¹⁵
  where adj r j is not positive; each row is normalised by a softmax (shifted by the row's maximum), the weights
  are applied to h, and the exponential linear unit is taken of every entry. Nothing here mentions a program: the
  arrays are functions on literal index sets and every operation is the extended reals' own.
-/
import Idealize.ShloMosaic.PureOps.Ideal
import Idealize.ShloMosaic.PureOps.Ideal.Laws
import Idealize.ShloMosaic.Lib.ValueIdx
import Mathlib

noncomputable section

open scoped BigOperators

namespace GatSpec

open Idealize.ShloMosaic Idealize.ShloMosaic.ValueIdx

/-- The f32 word of −∞ denotes the bottom element of the extended reals. -/
theorem ofBits_neg_inf_f32 : Ideal.ofBits .f32 0xFF800000#32 = (⊥ : EReal) := by
  simp [Ideal.ofBits, Ideal.ieee]

variable (x : (⟨2, ![8192, 512]⟩ : Shape).Idx → EReal) (adj Mm : (⟨2, ![8192, 8192]⟩ : Shape).Idx → EReal)
  (W : (⟨2, ![512, 256]⟩ : Shape).Idx → EReal) (as an : (⟨2, ![256, 1]⟩ : Shape).Idx → EReal)

/-- h = x · W at (r, c). -/
def hmat (r : Fin 8192) (c : Fin 256) : EReal := ∑ k : Fin 512, x (ix2 r k) * W (ix2 k c)

/-- (h · a_self) r. -/
def aself (r : Fin 8192) : EReal := ∑ c : Fin 256, hmat x W r c * as (ix2 c (0 : Fin 1))

/-- (h · a_neighs) j. -/
def aneigh (j : Fin 8192) : EReal := ∑ c : Fin 256, hmat x W j c * an (ix2 c (0 : Fin 1))

/-- The masked leaky-rectified logit of the pair (r, j): with t = (aself r + aneigh j) · M r j, the value t where
    t > 0 and 0.2 · t elsewhere, kept where adj r j > 0 and replaced by −9·10¹⁵ elsewhere. -/
def score (r j : Fin 8192) : EReal :=
  Scalar.select (Ideal.cmp .ogt (adj (ix2 r j)) (Ideal.ofBits .f32 0x00000000#32))
    (Scalar.select
      (Ideal.cmp .ogt ((aself x W as r + aneigh x W an j) * Mm (ix2 r j)) (Ideal.ofBits .f32 0x00000000#32))
      ((aself x W as r + aneigh x W an j) * Mm (ix2 r j))
      (Ideal.ofBits .f32 0x3E4CCCCD#32 * ((aself x W as r + aneigh x W an j) * Mm (ix2 r j))))
    (Ideal.ofBits .f32 0xD9FFCB9E#32)

/-- The maximum of row r's logits (from −∞, and once more against −∞). -/
def rowmax (r : Fin 8192) : EReal :=
  max ⊥ ((Finset.univ : Finset (Fin 8192)).fold max ⊥ (fun j => score x adj Mm W as an r j))

/-- The softmax's denominator of row r. -/
def den (r : Fin 8192) : EReal :=
  0 + ∑ j : Fin 8192, Ideal.exp (score x adj Mm W as an r j - rowmax x adj Mm W as an r)

/-- (softmax · h) at (r, c). -/
def hp (r : Fin 8192) (c : Fin 256) : EReal :=
  ∑ j : Fin 8192,
    Ideal.div (Ideal.exp (score x adj Mm W as an r j - rowmax x adj Mm W as an r)) (den x adj Mm W as an r)
      * hmat x W j c

/-- The exponential linear unit of an extended real, as the reference spells it: v where v > 0, else
    1 · (exp(v') − 1) with v' the value 0 where v > 0 and v elsewhere. -/
def elu (v : EReal) : EReal :=
  Scalar.select (Ideal.cmp .ogt v (Ideal.ofBits .f32 0x00000000#32)) v
    (1 * (Ideal.exp (Scalar.select (Ideal.cmp .ogt v (Ideal.ofBits .f32 0x00000000#32))
      (Ideal.ofBits .f32 0x00000000#32) v) - 1))

/-- The reference's result at an index of the 8192 × 256 output. -/
def out (i : (⟨2, ![8192, 256]⟩ : Shape).Idx) : EReal := elu (hp x adj Mm W as an (i 0) (i 1))

end GatSpec

end
-- ==== Proof.RefValue.lean ====
/-
  The reference's composed term is the closed form, entry by entry. Each stage of the term is read at an index: a
  matrix product as the sum over the contracted coordinate of the products of the entries, a broadcast as the operand
  at the index with the broadcast axes forgotten, a transposition with the coordinates exchanged, a reduction over the
  columns as the fold or the sum over the column coordinate, and a pointwise operation as the extended reals' own at
  the entries.
-/
import proofs.«132837_j19086834663562_2_alg».proof.Proof.RefRun
import proofs.«132837_j19086834663562_2_alg».proof.Proof.RefSpec
import Idealize.ShloMosaic.Lib.IdealHost
import Idealize.ShloMosaic.Lib.ValueLayout
import Idealize.ShloMosaic.Lib.StackMember
import Idealize.ShloMosaic.Lib.Pipeline.Value

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## Layout operations at the program's literal shapes -/

/-- A column broadcast along the rows' second axis reads the column's entry of that row. -/
theorem bcast_col_apply {α : Type} (h : S8192x1.BroadcastsInDim S8192x8192 (![0, 1] : Fin 2 → Fin S8192x8192.rank))
    (v : S8192x1.Idx → α) (r j : Fin 8192) :
    broadcastInDim S8192x8192 ![0, 1] h v (ix2 r j) = v (ix2 r (0 : Fin 1)) :=
  broadcastInDim_apply _ h v _ _ fun a => match a with | ⟨0, _⟩ => rfl | ⟨1, _⟩ => rfl

/-- A row broadcast down the rows reads the row's entry of that column. -/
theorem bcast_row_apply {α : Type} (h : S1x8192.BroadcastsInDim S8192x8192 (![0, 1] : Fin 2 → Fin S8192x8192.rank))
    (v : S1x8192.Idx → α) (r j : Fin 8192) :
    broadcastInDim S8192x8192 ![0, 1] h v (ix2 r j) = v (ix2 (0 : Fin 1) j) :=
  broadcastInDim_apply _ h v _ _ fun a => match a with | ⟨0, _⟩ => rfl | ⟨1, _⟩ => rfl

/-- A vector written as a column reads the vector's entry of that row. -/
theorem bcast_vec_apply {α : Type} (h : S8192.BroadcastsInDim S8192x1 (![0] : Fin 1 → Fin S8192x1.rank))
    (v : S8192.Idx → α) (r : Fin 8192) (u : Fin 1) :
    broadcastInDim S8192x1 ![0] h v (ix2 r u) = v (ix1 r) :=
  broadcastInDim_apply _ h v _ _ fun a => match a with | ⟨0, _⟩ => rfl

/-- The three products' dimension numbers are the plain matrix product's. -/
theorem dot1_eq : dot_S8192x512_S512x256_S8192x256_1_0_0_1_n_n = DotDims.plain 8192 512 256 := rfl
theorem dot2_eq : dot_S8192x256_S256x1_S8192x1_1_0_0_1_n_n = DotDims.plain 8192 256 1 := rfl
theorem dot3_eq : dot_S8192x8192_S8192x256_S8192x256_1_0_0_1_n_n = DotDims.plain 8192 8192 256 := rfl

variable (x : (⟨2, ![8192, 512]⟩ : Shape).Idx → EReal) (adj Mm : (⟨2, ![8192, 8192]⟩ : Shape).Idx → EReal)
  (W : (⟨2, ![512, 256]⟩ : Shape).Idx → EReal) (aS aN : (⟨2, ![256, 1]⟩ : Shape).Idx → EReal)

/-! ## The stages at an index -/

theorem tH_apply (r : Fin 8192) (c : Fin 256) : tH (F := Ideal) x W (ix2 r c) = GatSpec.hmat x W r c := by
  unfold tH GatSpec.hmat
  rw [dot1_eq]
  exact StackMember.dotGeneral_plain_apply none x W r c

theorem tSelf_apply (r : Fin 8192) (u : Fin 1) : tSelf (F := Ideal) x W aS (ix2 r u) = GatSpec.aself x W aS r := by
  obtain rfl : u = 0 := Subsingleton.elim _ _
  unfold tSelf GatSpec.aself
  rw [dot2_eq, StackMember.dotGeneral_plain_apply]
  exact Finset.sum_congr rfl fun c _ => by rw [tH_apply]

theorem tNeigh_apply (r : Fin 8192) (u : Fin 1) : tNeigh (F := Ideal) x W aN (ix2 r u) = GatSpec.aneigh x W aN r := by
  obtain rfl : u = 0 := Subsingleton.elim _ _
  unfold tNeigh GatSpec.aneigh
  rw [dot2_eq, StackMember.dotGeneral_plain_apply]
  exact Finset.sum_congr rfl fun c _ => by rw [tH_apply]

theorem tLogit_apply (r j : Fin 8192) :
    tLogit (F := Ideal) x Mm W aS aN (ix2 r j) = (GatSpec.aself x W aS r + GatSpec.aneigh x W aN j) * Mm (ix2 r j) := by
  unfold tLogit
  rw [mulf_apply, addf_apply, bcast_col_apply, bcast_row_apply, transpose_ix2_apply, tSelf_apply, tNeigh_apply]

/-- A scalar constant broadcast to any shape reads, everywhere, the extended real its word denotes. -/
theorem bconst_apply (T : Shape) (h : S_.BroadcastsInDim T (![] : Fin 0 → Fin T.rank)) (b : BitVec 32) (j : T.Idx) :
    broadcastInDim T ![] h (constant (F := Ideal) S_ .f32 b) j = Ideal.ofBits .f32 b := by
  rw [broadcastInDim_scalar_apply]; rfl

theorem tLeaky_apply (r j : Fin 8192) :
    tLeaky (F := Ideal) x Mm W aS aN (ix2 r j)
      = Scalar.select
          (Ideal.cmp .ogt ((GatSpec.aself x W aS r + GatSpec.aneigh x W aN j) * Mm (ix2 r j)) (Ideal.ofBits .f32 0x00000000#32))
          ((GatSpec.aself x W aS r + GatSpec.aneigh x W aN j) * Mm (ix2 r j))
          (Ideal.ofBits .f32 0x3E4CCCCD#32 * ((GatSpec.aself x W aS r + GatSpec.aneigh x W aN j) * Mm (ix2 r j))) := by
  unfold tLeaky
  simp only [select_apply, cmpf_apply, mulf_apply, tLogit_apply, Ideal.cmpf_def]
  rw [bconst_apply, bconst_apply]

theorem tScore_apply (r j : Fin 8192) :
    tScore (F := Ideal) x adj Mm W aS aN (ix2 r j) = GatSpec.score x adj Mm W aS aN r j := by
  unfold tScore GatSpec.score
  simp only [select_apply, cmpf_apply, id_eq, tLeaky_apply, Ideal.cmpf_def]
  rw [bconst_apply, bconst_apply]

/-- The reduction over the columns, as a fact about the two shapes alone. -/
theorem red : S8192x8192.Reduces [1] S8192 := by decide

/-- A row index with a column coordinate inserted is the pair. -/
theorem red_lift (r j : Fin 8192) : red.lift (ix1 r) j = ix2 r j := by
  funext a
  match a with
  | ⟨0, _⟩ => rfl
  | ⟨1, _⟩ => rfl

theorem tRowmax_apply (r : Fin 8192) :
    tRowmax (F := Ideal) x adj Mm W aS aN (ix1 r) = GatSpec.rowmax x adj Mm W aS aN r := by
  unfold tRowmax GatSpec.rowmax
  rw [maximumf_apply, bconst_apply, Host.reduce_eq_fold_single _ _ _ _ red, constant_apply, GatSpec.ofBits_neg_inf_f32]
  refine congrArg (max ⊥) ?_
  show (Finset.univ : Finset (Fin 8192)).fold max ⊥ (fun j : Fin 8192 => tScore (F := Ideal) x adj Mm W aS aN (red.lift (ix1 r) j)) = _
  exact Finset.fold_congr fun j _ => by rw [red_lift, tScore_apply]

/-- The host's exponential and exponential-minus-one at an index are the extended reals'. -/
theorem hostExp_apply {s : Shape} (v : FVec Ideal s .f32) (i : s.Idx) : Host.exp v i = Ideal.exp (v i) := rfl
theorem hostExpm1_apply {s : Shape} (v : FVec Ideal s .f32) (i : s.Idx) : Host.expm1 v i = Ideal.exp (v i) - 1 := rfl

theorem tExp_apply (r j : Fin 8192) :
    tExp (F := Ideal) x adj Mm W aS aN (ix2 r j) = Ideal.exp (GatSpec.score x adj Mm W aS aN r j - GatSpec.rowmax x adj Mm W aS aN r) := by
  unfold tExp
  rw [hostExp_apply, subf_apply, bcast_col_apply, bcast_vec_apply, tScore_apply, tRowmax_apply]

theorem tDen_apply (r : Fin 8192) :
    tDen (F := Ideal) x adj Mm W aS aN (ix1 r) = GatSpec.den x adj Mm W aS aN r := by
  unfold tDen GatSpec.den
  rw [hostReduceAdd_apply, Ideal.hostReduceAdd_single _ red, constant_apply, Ideal.ofBits_zero_f32]
  show 0 + ∑ j : Fin 8192, tExp (F := Ideal) x adj Mm W aS aN (red.lift (ix1 r) j) = _
  refine congrArg (0 + ·) (Finset.sum_congr rfl fun j _ => ?_)
  rw [red_lift, tExp_apply]

theorem tSoft_apply (r j : Fin 8192) :
    tSoft (F := Ideal) x adj Mm W aS aN (ix2 r j)
      = Ideal.div (Ideal.exp (GatSpec.score x adj Mm W aS aN r j - GatSpec.rowmax x adj Mm W aS aN r)) (GatSpec.den x adj Mm W aS aN r) := by
  unfold tSoft
  rw [hostDivf_apply, bcast_col_apply, bcast_vec_apply, tExp_apply, tDen_apply]

theorem tHp_apply (r : Fin 8192) (c : Fin 256) :
    tHp (F := Ideal) x adj Mm W aS aN (ix2 r c) = GatSpec.hp x adj Mm W aS aN r c := by
  unfold tHp GatSpec.hp
  rw [dot3_eq, StackMember.dotGeneral_plain_apply]
  exact Finset.sum_congr rfl fun j _ => by rw [tSoft_apply, tH_apply]

theorem tElu_apply (v : (⟨2, ![8192, 256]⟩ : Shape).Idx → EReal) (i : (⟨2, ![8192, 256]⟩ : Shape).Idx) :
    tElu (F := Ideal) v i = GatSpec.elu (v i) := by
  unfold tElu GatSpec.elu
  simp only [select_apply, cmpf_apply, mulf_apply, hostExpm1_apply, id_eq, Ideal.cmpf_def]
  rw [bconst_apply, bconst_apply, Ideal.ofBits_one_f32]

/-- The reference's composed term is the closed form. -/
theorem resultTerm_eq : resultTerm (F := Ideal) x adj Mm W aS aN = GatSpec.out x adj Mm W aS aN := by
  funext i
  obtain ⟨r, c, rfl⟩ : ∃ (r : Fin 8192) (c : Fin 256), i = ix2 r c := ⟨i 0, i 1, eq_ix2 i⟩
  unfold resultTerm GatSpec.out
  rw [tElu_apply, tHp_apply]

end Cert.ReferenceIdeal.RefValue

end
-- ==== Proof.KernelIdealEntry.lean ====
/-
  What the attention kernel finds in the arrays it reads, in terms of the launch memory: the two 8192 × 8192
  arguments as launched; h and the column h · a_self as the projection kernel's write-backs left them; and the row
  it adds to that column — the transpose of the column h · a_neighs the projection kernel left.
-/
import proofs.«132837_j19086834663562_2_alg».proof.Proof.KernelIdealRun
import Idealize.ShloMosaic.Lib.ValueLayout

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Frm

variable (m : (ℓ : Loc nD τ sig) → Buf (Elt Ideal) ℓ) (ρ : Dev nD → PrngReg)

/-- The mask and scale matrices reach the attention kernel as launched: the host operation writes neither and the
    projection kernel does not touch them. -/
theorem V2_arg1 (c : Dev nD) : V2 m ρ c main_arg1 = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    first | exact StableHlo.devRef_ne_of_ne (by decide) | (repeat' apply And.intro) <;> exact StableHlo.devRef_ne_of_ne (by decide)))).trans ((W1_of_ne m ρ c main_arg1 (by decide)).trans rfl)
theorem V2_arg2 (c : Dev nD) : V2 m ρ c main_arg2 = m ((c : Thread nD τ).loc main_arg2) :=
  (StableHlo.after_of_forall_not_mem (b := Proc.devRef .tc main_arg2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    first | exact StableHlo.devRef_ne_of_ne (by decide) | (repeat' apply And.intro) <;> exact StableHlo.devRef_ne_of_ne (by decide)))).trans ((W1_of_ne m ρ c main_arg2 (by decide)).trans rfl)

/-- h and the column h · a_self reach it as the projection kernel's write-backs left them. -/
theorem V2_v0_0 (c : Dev nD) : V2 m ρ c main_v0_0 = (dat0 (V0 m ρ) c).arrAt 4 cfg0.N :=
  (StableHlo.after_of_forall_not_mem (b := Proc.devRef .tc main_v0_0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    first | exact StableHlo.devRef_ne_of_ne (by decide) | (repeat' apply And.intro) <;> exact StableHlo.devRef_ne_of_ne (by decide)))).trans (W1_arr m ρ c 4)
theorem V2_v0_1 (c : Dev nD) : V2 m ρ c main_v0_1 = (dat0 (V0 m ρ) c).arrAt 5 cfg0.N :=
  (StableHlo.after_of_forall_not_mem (b := Proc.devRef .tc main_v0_1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    first | exact StableHlo.devRef_ne_of_ne (by decide) | (repeat' apply And.intro) <;> exact StableHlo.devRef_ne_of_ne (by decide)))).trans (W1_arr m ρ c 5)

/-- The row it adds is the transpose of the column h · a_neighs. -/
theorem V2_v1 (c : Dev nD) :
    V2 m ρ c main_v1 = transpose S1x8192 [1, 0] ((dat0 (V0 m ρ) c).arrAt 6 cfg0.N : (⟨S8192x1, .f32⟩ : BufTy).Contents (Elt Ideal)) transposes_S8192x1_S1x8192_1_0 := by
  rw [← W1_arr m ρ c 6]
  show StableHlo.after hostOps1 (W1 m ρ c) (Proc.devRef .tc main_v1) = _
  after_results

/-- So at column `j` the row holds the column's entry `j`. -/
theorem V2_v1_apply (c : Dev nD) (j : Fin 8192) :
    (V2 m ρ c main_v1 : S1x8192.Idx → EReal) (ix2 (0 : Fin 1) j)
      = ((dat0 (V0 m ρ) c).arrAt 6 cfg0.N : S8192x1.Idx → EReal) (ix2 j (0 : Fin 1)) := by
  rw [V2_v1]
  exact transpose_ix2_apply _ _ (0 : Fin 1) j

end Cert.KernelIdeal.Val

end
-- ==== Proof.KernelIdealA1.lean ====
/-
  Where the attention kernel's blocks sit in their arrays. The grid is 16 × 8 and point n = 8·q + k handles rows
  512·q … 512·q + 511 against columns 1024·k … 1024·k + 1023: the column of row terms is read at rows 512·q, the row
  of column terms at columns 1024·k, the two square arrays at (512·q, 1024·k), the resident copy of h whole at every
  point with the step's rows starting at 1024·k, and the output block of rows 512·q is written back at k = 7, those
  sixteen blocks covering the output array.
-/
import proofs.«132837_j19086834663562_2_alg».proof.Proof.KernelIdealR1S
import proofs.«132837_j19086834663562_2_alg».proof.Proof.Gen.KernelIdeal.Points
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm Idealize.ShloMosaic Idealize.ShloMosaic.TcCoe Idealize.ShloMosaic.ValueIdx

variable (V : (c : Dev nD) → (b : Ref sig .tc) → Buf (Elt Ideal) ((c : Thread nD τ).loc b))

/-! ## The index maps over the 128 points, in closed form -/

theorem index1_0 : ∀ t : Fin cfg1.N, win1_0.index t (0 : Fin 2) = t.val / 8 ∧ win1_0.index t 1 = 0 :=
  (by decide +kernel : ∀ t : Fin grid1.N, win1_0.index t (0 : Fin 2) = t.val / 8 ∧ win1_0.index t 1 = 0)
theorem index1_1 : ∀ t : Fin cfg1.N, win1_1.index t (0 : Fin 2) = 0 ∧ win1_1.index t 1 = t.val % 8 :=
  (by decide +kernel : ∀ t : Fin grid1.N, win1_1.index t (0 : Fin 2) = 0 ∧ win1_1.index t 1 = t.val % 8)
theorem index1_2 : ∀ t : Fin cfg1.N, win1_2.index t (0 : Fin 2) = t.val / 8 ∧ win1_2.index t 1 = t.val % 8 :=
  (by decide +kernel : ∀ t : Fin grid1.N, win1_2.index t (0 : Fin 2) = t.val / 8 ∧ win1_2.index t 1 = t.val % 8)
theorem index1_3 : ∀ t : Fin cfg1.N, win1_3.index t (0 : Fin 2) = t.val / 8 ∧ win1_3.index t 1 = t.val % 8 :=
  (by decide +kernel : ∀ t : Fin grid1.N, win1_3.index t (0 : Fin 2) = t.val / 8 ∧ win1_3.index t 1 = t.val % 8)
theorem index1_4 : ∀ t : Fin cfg1.N, win1_4.index t (0 : Fin 2) = 0 ∧ win1_4.index t 1 = 0 :=
  (by decide +kernel : ∀ t : Fin grid1.N, win1_4.index t (0 : Fin 2) = 0 ∧ win1_4.index t 1 = 0)
theorem index1_5 : ∀ t : Fin cfg1.N, win1_5.index t (0 : Fin 2) = t.val / 8 ∧ win1_5.index t 1 = 0 :=
  (by decide +kernel : ∀ t : Fin grid1.N, win1_5.index t (0 : Fin 2) = t.val / 8 ∧ win1_5.index t 1 = 0)

/-- The rows of h a step multiplies by start at 1024·k. -/
theorem k1_off1_val : ∀ t : Fin cfg1.N, k1_off1 (grid1.coords t) 0 = 1024 * (t.val % 8) :=
  (by decide +kernel : ∀ t : Fin grid1.N, k1_off1 (grid1.coords t) 0 = 1024 * (t.val % 8))

/-! ## The input blocks as entries of their arrays -/

theorem iblk1_2_apply (c : Dev nD) (t : Fin cfg1.N) (x : S512x1024.Idx) (k : S8192x8192.Idx)
    (hk0 : (k 0).val = 512 * (t.val / 8) + (x 0).val) (hk1 : (k 1).val = 1024 * (t.val % 8) + (x 1).val) :
    (iblk1 V c 2 t : Vec Ideal S512x1024 .f32) x = (V c main_arg2 : S8192x8192.Idx → Elt Ideal .f32) k := by
  have hi := index1_2 t
  unfold iblk1; rw [View.read_apply]; show V c main_arg2 _ = V c main_arg2 _; congr 1; funext a; apply Fin.ext
  match a with
  | ⟨0, _⟩ => show win1_2.index t 0 * 512 + 1 * (x 0).val = (k 0).val; rw [hi.1, hk0]; omega
  | ⟨1, _⟩ => show win1_2.index t 1 * 1024 + 1 * (x 1).val = (k 1).val; rw [hi.2, hk1]; omega

theorem iblk1_3_apply (c : Dev nD) (t : Fin cfg1.N) (x : S512x1024.Idx) (k : S8192x8192.Idx)
    (hk0 : (k 0).val = 512 * (t.val / 8) + (x 0).val) (hk1 : (k 1).val = 1024 * (t.val % 8) + (x 1).val) :
    (iblk1 V c 3 t : Vec Ideal S512x1024 .f32) x = (V c main_arg1 : S8192x8192.Idx → Elt Ideal .f32) k := by
  have hi := index1_3 t
  unfold iblk1; rw [View.read_apply]; show V c main_arg1 _ = V c main_arg1 _; congr 1; funext a; apply Fin.ext
  match a with
  | ⟨0, _⟩ => show win1_3.index t 0 * 512 + 1 * (x 0).val = (k 0).val; rw [hi.1, hk0]; omega
  | ⟨1, _⟩ => show win1_3.index t 1 * 1024 + 1 * (x 1).val = (k 1).val; rw [hi.2, hk1]; omega

theorem iblk1_0_apply (c : Dev nD) (t : Fin cfg1.N) (x : S512x1.Idx) (k : S8192x1.Idx)
    (hk0 : (k 0).val = 512 * (t.val / 8) + (x 0).val) (hk1 : (k 1).val = (x 1).val) :
    (iblk1 V c 0 t : Vec Ideal S512x1 .f32) x = (V c main_v0_1 : S8192x1.Idx → Elt Ideal .f32) k := by
  have hi := index1_0 t
  unfold iblk1; rw [View.read_apply]; show V c main_v0_1 _ = V c main_v0_1 _; congr 1; funext a; apply Fin.ext
  match a with
  | ⟨0, _⟩ => show win1_0.index t 0 * 512 + 1 * (x 0).val = (k 0).val; rw [hi.1, hk0]; omega
  | ⟨1, _⟩ => show win1_0.index t 1 * 1 + 1 * (x 1).val = (k 1).val; rw [hi.2, hk1]; omega

theorem iblk1_1_apply (c : Dev nD) (t : Fin cfg1.N) (x : S1x1024.Idx) (k : S1x8192.Idx)
    (hk0 : (k 0).val = (x 0).val) (hk1 : (k 1).val = 1024 * (t.val % 8) + (x 1).val) :
    (iblk1 V c 1 t : Vec Ideal S1x1024 .f32) x = (V c main_v1 : S1x8192.Idx → Elt Ideal .f32) k := by
  have hi := index1_1 t
  unfold iblk1; rw [View.read_apply]; show V c main_v1 _ = V c main_v1 _; congr 1; funext a; apply Fin.ext
  match a with
  | ⟨0, _⟩ => show win1_1.index t 0 * 1 + 1 * (x 0).val = (k 0).val; rw [hi.1, hk0]; omega
  | ⟨1, _⟩ => show win1_1.index t 1 * 1024 + 1 * (x 1).val = (k 1).val; rw [hi.2, hk1]; omega

/-- The resident copy of h is the whole array at every point. -/
theorem iblk1_4_eq (c : Dev nD) (t : Fin cfg1.N) :
    (iblk1 V c 4 t : Vec Ideal S8192x256 .bf16) = (V c main_v0_0 : S8192x256.Idx → Elt Ideal .bf16) := by
  funext x
  have hi := index1_4 t
  unfold iblk1; rw [View.read_apply]; show V c main_v0_0 _ = V c main_v0_0 _; congr 1; funext a; apply Fin.ext
  match a with
  | ⟨0, _⟩ => show win1_4.index t 0 * 8192 + 1 * (x 0).val = (x 0).val; rw [hi.1]; omega
  | ⟨1, _⟩ => show win1_4.index t 1 * 256 + 1 * (x 1).val = (x 1).val; rw [hi.2]; omega

/-! ## The output block -/

/-- The output window's block at point t of ANY contents of the output array: rows 512·q onwards. -/
theorem blk1_5_read_apply (c : Dev nD) (t : Fin cfg1.N) (G : S8192x256.Idx → Elt Ideal .f32) (x : S512x256.Idx) (k : S8192x256.Idx)
    (hk0 : (k 0).val = 512 * (t.val / 8) + (x 0).val) (hk1 : (k 1).val = (x 1).val) :
    (((cfg1.win 5).blk t).view.read (Elt Ideal) G : Vec Ideal S512x256 .f32) x = G k := by
  have hi := index1_5 t
  rw [View.read_apply]; show G _ = G _; congr 1; funext a; apply Fin.ext
  match a with
  | ⟨0, _⟩ => show win1_5.index t 0 * 512 + 1 * (x 0).val = (k 0).val; rw [hi.1, hk0]; omega
  | ⟨1, _⟩ => show win1_5.index t 1 * 256 + 1 * (x 1).val = (k 1).val; rw [hi.2, hk1]; omega

/-- Every output block is a full 512 × 256 block. -/
theorem xsize1_5 : ∀ t : Fin cfg1.N, win1_5.xsize (grid1.coords t) (0 : Fin 2) = 512 ∧ win1_5.xsize (grid1.coords t) 1 = 256 :=
  (by decide +kernel : ∀ t : Fin grid1.N, win1_5.xsize (grid1.coords t) (0 : Fin 2) = 512 ∧ win1_5.xsize (grid1.coords t) 1 = 256)

/-- The sixteen blocks written back cover the output array: row r lies in the block of q = r / 512, written back at
    the point 8·q + 7. -/
theorem cover1_5 (c : Dev nD) : ∀ i : ((cfg1.win 5).arr.view.loc (c.tc : Thread nD τ)).2.ty.Idx,
    ∃ t : Fin cfg1.N, (cfg1.win 5).flush t = true ∧ i ∈ ((cfg1.win 5).blk t).view.set := by
  intro i
  have h0 : (i 0 : Nat) < 8192 := (i 0).isLt
  have h1 : (i 1 : Nat) < 256 := (i 1).isLt
  have hN : cfg1.N = 128 := rfl
  have ht : 8 * ((i 0 : Nat) / 512) + 7 < cfg1.N := by rw [hN]; omega
  refine ⟨⟨8 * ((i 0 : Nat) / 512) + 7, ht⟩, (flush1_5 _).mpr (by show (8 * ((i 0 : Nat) / 512) + 7) % 8 = 7; omega), ?_⟩
  have hi := index1_5 ⟨8 * ((i 0 : Nat) / 512) + 7, ht⟩
  have hx := xsize1_5 ⟨8 * ((i 0 : Nat) / 512) + 7, ht⟩
  show i ∈ ((View.whole main_v2).slice (win1_5.rect ⟨8 * ((i 0 : Nat) / 512) + 7, ht⟩)).set
  rw [View.set_slice_whole, Rect.mem_set_unit]
  intro a
  match a with
  | ⟨0, _⟩ =>
    show win1_5.index ⟨8 * ((i 0 : Nat) / 512) + 7, ht⟩ 0 * win1_5.size 0 ≤ (i 0 : Nat)
      ∧ (i 0 : Nat) < win1_5.index ⟨8 * ((i 0 : Nat) / 512) + 7, ht⟩ 0 * win1_5.size 0 + win1_5.xsize (grid1.coords ⟨8 * ((i 0 : Nat) / 512) + 7, ht⟩) 0
    rw [hi.1, hx.1, show win1_5.size 0 = 512 from rfl]
    show (8 * ((i 0 : Nat) / 512) + 7) / 8 * 512 ≤ (i 0 : Nat) ∧ (i 0 : Nat) < (8 * ((i 0 : Nat) / 512) + 7) / 8 * 512 + 512
    omega
  | ⟨1, _⟩ =>
    show win1_5.index ⟨8 * ((i 0 : Nat) / 512) + 7, ht⟩ 1 * win1_5.size 1 ≤ (i 1 : Nat)
      ∧ (i 1 : Nat) < win1_5.index ⟨8 * ((i 0 : Nat) / 512) + 7, ht⟩ 1 * win1_5.size 1 + win1_5.xsize (grid1.coords ⟨8 * ((i 0 : Nat) / 512) + 7, ht⟩) 1
    rw [hi.2, hx.2]
    omega

end Cert.KernelIdeal.Val

end
-- ==== Proof.KernelIdealV0.lean ====
/-
  The projection kernel's three output blocks read at an index, at the extended reals. A block of 1024 rows of
  the input x (1024 × 512), the weights W (512 × 256) and an attention vector a (256 × 1) give
  h = x · W at (p, c) as the sum over k of x p k · W k c, and (h · a) at row p as the sum over c of h p c · a c.
  Every change of number format on the way is the identity on extended reals, and each matrix product starts
  from the zero matrix, so only the sums remain.
-/
import proofs.«132837_j19086834663562_2_alg».proof.Proof.KernelIdealR0
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx
open Cert.KernelIdeal Cert.KernelIdeal.Gen Cert.KernelIdeal.Frm

/-- The offset (0, 0) is the zero offset. -/
theorem off2_zero : (![0, 0] : Fin 2 → Nat) = fun _ => 0 := by
  funext a; match a with | ⟨0, _⟩ => rfl | ⟨1, _⟩ => rfl

/-- The product of a 1024 × 512 block with the 512 × 256 weights, from the zero matrix, at (p, c): the sum over
    the 512 contracted positions of the products of the entries. -/
theorem pay1_apply (x0 : Vec Ideal S1024x512 .f32) (x1 : Vec Ideal S512x256 .f32) (p : Fin 1024) (c : Fin 256) :
    k0_pay1 (F := Ideal) x0 x1 (ix2 p c) = ∑ k : Fin 512, x0 (ix2 p k) * x1 (ix2 k c) := by
  unfold k0_pay1
  refine (Ideal.matmul_constant_zero_apply dot_S1024x512_S512x256_S1024x256_1_0_0_1_n_n none _ _ (ix2 p c)).trans ?_
  rw [← Equiv.sum_comp (contrEquiv1 dot_S1024x512_S512x256_S1024x256_1_0_0_1_n_n 512 rfl rfl).symm]
  refine Finset.sum_congr rfl fun k _ => ?_
  have ck := contrEquiv1_symm_val dot_S1024x512_S512x256_S1024x256_1_0_0_1_n_n 512 rfl rfl k
  have l2 : dot_S1024x512_S512x256_S1024x256_1_0_0_1_n_n.lhsIdx (ix2 p c)
      ((contrEquiv1 dot_S1024x512_S512x256_S1024x256_1_0_0_1_n_n 512 rfl rfl).symm k) = ix2 p k := by
    funext ax; apply Fin.ext
    match ax with
    | ⟨0, _⟩ => simp [DotDims.lhsIdx, dot_S1024x512_S512x256_S1024x256_1_0_0_1_n_n]; rfl
    | ⟨1, _⟩ => simp [DotDims.lhsIdx, dot_S1024x512_S512x256_S1024x256_1_0_0_1_n_n]; exact ck
  have r2 : dot_S1024x512_S512x256_S1024x256_1_0_0_1_n_n.rhsIdx (ix2 p c)
      ((contrEquiv1 dot_S1024x512_S512x256_S1024x256_1_0_0_1_n_n 512 rfl rfl).symm k) = ix2 k c := by
    funext ax; apply Fin.ext
    match ax with
    | ⟨0, _⟩ => simp [DotDims.rhsIdx, dot_S1024x512_S512x256_S1024x256_1_0_0_1_n_n]; exact ck
    | ⟨1, _⟩ => simp [DotDims.rhsIdx, dot_S1024x512_S512x256_S1024x256_1_0_0_1_n_n]; rfl
  rw [l2, r2]
  rfl

/-- The product of a 1024 × 256 matrix with a 256 × 1 column, from the zero column, at row p: the sum over the
    256 contracted positions of the products of the entries. -/
theorem matvec_apply (A : FVec Ideal S1024x256 .f32) (v : FVec Ideal S256x1 .f32) (p : Fin 1024) (u : Fin 1) :
    (matmul dot_S1024x256_S256x1_S1024x1_1_0_0_1_n_n none A v (constant (F := Ideal) S1024x1 .f32 0x00000000#32)
        : FVec Ideal S1024x1 .f32) (ix2 p u)
      = ∑ c : Fin 256, A (ix2 p c) * v (ix2 c u) := by
  refine (Ideal.matmul_constant_zero_apply dot_S1024x256_S256x1_S1024x1_1_0_0_1_n_n none _ _ (ix2 p u)).trans ?_
  rw [← Equiv.sum_comp (contrEquiv1 dot_S1024x256_S256x1_S1024x1_1_0_0_1_n_n 256 rfl rfl).symm]
  refine Finset.sum_congr rfl fun k _ => ?_
  have ck := contrEquiv1_symm_val dot_S1024x256_S256x1_S1024x1_1_0_0_1_n_n 256 rfl rfl k
  have l2 : dot_S1024x256_S256x1_S1024x1_1_0_0_1_n_n.lhsIdx (ix2 p u)
      ((contrEquiv1 dot_S1024x256_S256x1_S1024x1_1_0_0_1_n_n 256 rfl rfl).symm k) = ix2 p k := by
    funext ax; apply Fin.ext
    match ax with
    | ⟨0, _⟩ => simp [DotDims.lhsIdx, dot_S1024x256_S256x1_S1024x1_1_0_0_1_n_n]; rfl
    | ⟨1, _⟩ => simp [DotDims.lhsIdx, dot_S1024x256_S256x1_S1024x1_1_0_0_1_n_n]; exact ck
  have r2 : dot_S1024x256_S256x1_S1024x1_1_0_0_1_n_n.rhsIdx (ix2 p u)
      ((contrEquiv1 dot_S1024x256_S256x1_S1024x1_1_0_0_1_n_n 256 rfl rfl).symm k) = ix2 k u := by
    funext ax; apply Fin.ext
    match ax with
    | ⟨0, _⟩ => simp [DotDims.rhsIdx, dot_S1024x256_S256x1_S1024x1_1_0_0_1_n_n]; exact ck
    | ⟨1, _⟩ => simp [DotDims.rhsIdx, dot_S1024x256_S256x1_S1024x1_1_0_0_1_n_n] <;> rfl
  rw [l2, r2]

/-- The block of h = x · W at (p, c): the sum over k of x p k · W k c (the change to the narrower output format is
    the identity on extended reals). -/
theorem out0_4_apply (x0 : Vec Ideal S1024x512 .f32) (x1 : Vec Ideal S512x256 .f32) (p : Fin 1024) (c : Fin 256) :
    out0_4 (F := Ideal) x0 x1 (ix2 p c) = ∑ k : Fin 512, x0 (ix2 p k) * x1 (ix2 k c) := by
  unfold out0_4
  rw [View.canon_unit_zero off2_zero]
  simp only [View.ld_unit_zero (S := S1024x512) off2_zero, View.ld_unit_zero (S := S512x256) off2_zero]
  unfold k0_pay2
  exact pay1_apply x0 x1 p c

/-- The block of h · a_self at row p: the sum over c of (x · W) p c · a c. -/
theorem out0_5_apply (x0 : Vec Ideal S1024x512 .f32) (x1 : Vec Ideal S512x256 .f32) (x2 : Vec Ideal S256x1 .f32)
    (p : Fin 1024) (u : Fin 1) :
    out0_5 (F := Ideal) x0 x1 x2 (ix2 p u)
      = ∑ c : Fin 256, (∑ k : Fin 512, x0 (ix2 p k) * x1 (ix2 k c)) * x2 (ix2 c (0 : Fin 1)) := by
  obtain rfl : u = 0 := Subsingleton.elim _ _
  unfold out0_5
  rw [View.canon_unit_zero off2_zero]
  simp only [View.ld_unit_zero (S := S1024x512) off2_zero, View.ld_unit_zero (S := S512x256) off2_zero,
    View.ld_unit_zero (S := S256x1) off2_zero]
  unfold k0_pay3
  refine (matvec_apply _ _ p 0).trans ?_
  exact Finset.sum_congr rfl fun c _ => by rw [pay1_apply]

/-- The block of h · a_neighs at row p: the sum over c of (x · W) p c · a c. -/
theorem out0_6_apply (x0 : Vec Ideal S1024x512 .f32) (x1 : Vec Ideal S512x256 .f32) (x3 : Vec Ideal S256x1 .f32)
    (p : Fin 1024) (u : Fin 1) :
    out0_6 (F := Ideal) x0 x1 x3 (ix2 p u)
      = ∑ c : Fin 256, (∑ k : Fin 512, x0 (ix2 p k) * x1 (ix2 k c)) * x3 (ix2 c (0 : Fin 1)) := by
  obtain rfl : u = 0 := Subsingleton.elim _ _
  unfold out0_6
  rw [View.canon_unit_zero off2_zero]
  simp only [View.ld_unit_zero (S := S1024x512) off2_zero, View.ld_unit_zero (S := S512x256) off2_zero,
    View.ld_unit_zero (S := S256x1) off2_zero]
  unfold k0_pay4
  refine (matvec_apply _ _ p 0).trans ?_
  exact Finset.sum_congr rfl fun c _ => by rw [pay1_apply]

end Cert.KernelIdeal.Val

end
-- ==== Proof.KernelIdealA0.lean ====
/-
  The projection kernel's region, from blocks to arrays. Its eight grid points each read a block of 1024 rows of
  x (rows 1024·t onwards at point t) and the whole of W, a_self and a_neighs, and write back the matching 1024
  rows of three output arrays. A block read at (p, k) is the array read at (1024·t + p, k); the written blocks
  tile the output arrays (row r lies in the block of point r / 1024); so the arrays end holding h = x · W,
  h · a_self and h · a_neighs, entry by entry.
-/
import proofs.«132837_j19086834663562_2_alg».proof.Proof.KernelIdealR0
import proofs.«132837_j19086834663562_2_alg».proof.Proof.KernelIdealV0
import proofs.«132837_j19086834663562_2_alg».proof.Proof.RefSpec
import proofs.«132837_j19086834663562_2_alg».proof.Proof.Gen.KernelIdeal.Points
import Idealize.ShloMosaic.Lib.Pipeline.Value

set_option maxRecDepth 16384

noncomputable section

open scoped BigOperators

namespace Cert.KernelIdeal.Val

open Cert.KernelIdeal Cert.KernelIdeal.Gen Cert.KernelIdeal.Frm Idealize.ShloMosaic Idealize.ShloMosaic.TcCoe
  Idealize.ShloMosaic.ValueIdx
open Idealize.ShloMosaic.Pipeline (Dat)

variable (V : (c : Dev nD) → (b : Ref sig .tc) → Buf (Elt Ideal) ((c : Thread nD τ).loc b))

/-! ## The input blocks as parts of the arrays -/

/-- The block index of x's window at point t is (t, 0). -/
theorem index0_0 : ∀ t : Fin cfg0.N, win0_0.index t (0 : Fin 2) = t.val ∧ win0_0.index t 1 = 0 :=
  (by decide +kernel : ∀ t : Fin grid0.N, win0_0.index t (0 : Fin 2) = t.val ∧ win0_0.index t 1 = 0)

/-- x's block at point t, read at (p, k), is x at (1024·t + p, k). -/
theorem iblk0_0_apply (c : Dev nD) (t : Fin cfg0.N) (x : S1024x512.Idx) (k : S8192x512.Idx)
    (hk0 : (k 0).val = 1024 * t.val + (x 0).val) (hk1 : (k 1).val = (x 1).val) :
    (iblk0 V c 0 t : Vec Ideal S1024x512 .f32) x = (V c main_arg0 : S8192x512.Idx → Elt Ideal .f32) k := by
  have hi := index0_0 t
  unfold iblk0
  rw [View.read_apply]
  show V c main_arg0 _ = V c main_arg0 _
  congr 1
  funext a
  apply Fin.ext
  match a with
  | ⟨0, _⟩ => show win0_0.index t 0 * 1024 + 1 * (x 0).val = (k 0).val; rw [hi.1, hk0]; omega
  | ⟨1, _⟩ => show win0_0.index t 1 * 512 + 1 * (x 1).val = (k 1).val; rw [hi.2, hk1]; omega

/-- The block index of W's window is (0, 0) at every point. -/
theorem index0_1 : ∀ t : Fin cfg0.N, win0_1.index t (0 : Fin 2) = 0 ∧ win0_1.index t 1 = 0 :=
  (by decide +kernel : ∀ t : Fin grid0.N, win0_1.index t (0 : Fin 2) = 0 ∧ win0_1.index t 1 = 0)

/-- The block index of a_self's window is (0, 0) at every point. -/
theorem index0_2 : ∀ t : Fin cfg0.N, win0_2.index t (0 : Fin 2) = 0 ∧ win0_2.index t 1 = 0 :=
  (by decide +kernel : ∀ t : Fin grid0.N, win0_2.index t (0 : Fin 2) = 0 ∧ win0_2.index t 1 = 0)

/-- The block index of a_neighs' window is (0, 0) at every point. -/
theorem index0_3 : ∀ t : Fin cfg0.N, win0_3.index t (0 : Fin 2) = 0 ∧ win0_3.index t 1 = 0 :=
  (by decide +kernel : ∀ t : Fin grid0.N, win0_3.index t (0 : Fin 2) = 0 ∧ win0_3.index t 1 = 0)

/-- W's block at every point is the whole of W. -/
theorem iblk0_1_eq (c : Dev nD) (t : Fin cfg0.N) :
    (iblk0 V c 1 t : Vec Ideal S512x256 .f32) = (V c main_arg3 : S512x256.Idx → Elt Ideal .f32) := by
  have hi := index0_1 t
  funext x
  unfold iblk0
  rw [View.read_apply]
  show V c main_arg3 _ = V c main_arg3 _
  congr 1
  funext a
  apply Fin.ext
  match a with
  | ⟨0, _⟩ => show win0_1.index t 0 * 512 + 1 * (x 0).val = (x 0).val; rw [hi.1]; omega
  | ⟨1, _⟩ => show win0_1.index t 1 * 256 + 1 * (x 1).val = (x 1).val; rw [hi.2]; omega

/-- a_self's block at every point is the whole of a_self. -/
theorem iblk0_2_eq (c : Dev nD) (t : Fin cfg0.N) :
    (iblk0 V c 2 t : Vec Ideal S256x1 .f32) = (V c main_arg4 : S256x1.Idx → Elt Ideal .f32) := by
  have hi := index0_2 t
  funext x
  unfold iblk0
  rw [View.read_apply]
  show V c main_arg4 _ = V c main_arg4 _
  congr 1
  funext a
  apply Fin.ext
  match a with
  | ⟨0, _⟩ => show win0_2.index t 0 * 256 + 1 * (x 0).val = (x 0).val; rw [hi.1]; omega
  | ⟨1, _⟩ => show win0_2.index t 1 * 1 + 1 * (x 1).val = (x 1).val; rw [hi.2]; omega

/-- a_neighs' block at every point is the whole of a_neighs. -/
theorem iblk0_3_eq (c : Dev nD) (t : Fin cfg0.N) :
    (iblk0 V c 3 t : Vec Ideal S256x1 .f32) = (V c main_arg5 : S256x1.Idx → Elt Ideal .f32) := by
  have hi := index0_3 t
  funext x
  unfold iblk0
  rw [View.read_apply]
  show V c main_arg5 _ = V c main_arg5 _
  congr 1
  funext a
  apply Fin.ext
  match a with
  | ⟨0, _⟩ => show win0_3.index t 0 * 256 + 1 * (x 0).val = (x 0).val; rw [hi.1]; omega
  | ⟨1, _⟩ => show win0_3.index t 1 * 1 + 1 * (x 1).val = (x 1).val; rw [hi.2]; omega

/-! ## The output blocks as parts of the arrays -/

/-- The block index of h's window at point t is (t, 0). -/
theorem index0_4 : ∀ t : Fin cfg0.N, win0_4.index t (0 : Fin 2) = t.val ∧ win0_4.index t 1 = 0 :=
  (by decide +kernel : ∀ t : Fin grid0.N, win0_4.index t (0 : Fin 2) = t.val ∧ win0_4.index t 1 = 0)

/-- The block index of the window of h · a_self at point t is (t, 0). -/
theorem index0_5 : ∀ t : Fin cfg0.N, win0_5.index t (0 : Fin 2) = t.val ∧ win0_5.index t 1 = 0 :=
  (by decide +kernel : ∀ t : Fin grid0.N, win0_5.index t (0 : Fin 2) = t.val ∧ win0_5.index t 1 = 0)

/-- The block index of the window of h · a_neighs at point t is (t, 0). -/
theorem index0_6 : ∀ t : Fin cfg0.N, win0_6.index t (0 : Fin 2) = t.val ∧ win0_6.index t 1 = 0 :=
  (by decide +kernel : ∀ t : Fin grid0.N, win0_6.index t (0 : Fin 2) = t.val ∧ win0_6.index t 1 = 0)

/-- Any contents of the array of h, read through the block of point t at (p, q), is the contents at (1024·t + p, q). -/
theorem blk0_4_read_apply (c : Dev nD) (t : Fin cfg0.N) (G : S8192x256.Idx → Elt Ideal .bf16) (x : S1024x256.Idx)
    (k : S8192x256.Idx) (hk0 : (k 0).val = 1024 * t.val + (x 0).val) (hk1 : (k 1).val = (x 1).val) :
    (((cfg0.win 4).blk t).view.read (Elt Ideal) G : Vec Ideal S1024x256 .bf16) x = G k := by
  have hi := index0_4 t
  rw [View.read_apply]
  show G _ = G _
  congr 1
  funext a
  apply Fin.ext
  match a with
  | ⟨0, _⟩ => show win0_4.index t 0 * 1024 + 1 * (x 0).val = (k 0).val; rw [hi.1, hk0]; omega
  | ⟨1, _⟩ => show win0_4.index t 1 * 256 + 1 * (x 1).val = (k 1).val; rw [hi.2, hk1]; omega

/-- What the array of h must end holding: h = x · W, entry by entry. -/
def G4 (c : Dev nD) : S8192x256.Idx → Elt Ideal .bf16 :=
  fun i => GatSpec.hmat (V c main_arg0) (V c main_arg3) (i 0) (i 1)

/-- The block of h written back at point t is the matching block of x · W. -/
theorem flushed0_4_eq (c : Dev nD) (t : Fin cfg0.N) (hf : (cfg0.win 4).flush t = true) :
    (dat0 V c).flushed 4 t = ((cfg0.win 4).blk t).view.read (Elt Ideal) (G4 V c) := by
  have e : (dat0 V c).flushed 4 t = (out0_4 (iblk0 V c 0 t) (iblk0 V c 1 t) : Vec Ideal S1024x256 .bf16) := by
    show (cfg0.win 4).cut (grid0.coords t) ((dat0 V c).after 4 t) = _
    rw [after0_4]
    rfl
  rw [e]
  refine funext fun (y : S1024x256.Idx) => ?_
  obtain ⟨p, q, rfl⟩ : ∃ (p : Fin 1024) (q : Fin 256), y = ix2 p q := ⟨y 0, y 1, eq_ix2 y⟩
  have hp : 1024 * t.val + p.val < 8192 := by
    have h1 := t.isLt; have h2 : cfg0.N = 8 := N_0; have h3 := p.isLt; omega
  rw [out0_4_apply,
    blk0_4_read_apply c t (G4 V c) (ix2 p q) (ix2 (⟨1024 * t.val + p.val, hp⟩ : Fin 8192) q) rfl rfl]
  unfold G4 GatSpec.hmat
  refine Finset.sum_congr rfl fun k _ => ?_
  rw [iblk0_0_apply V c t (ix2 p k) (ix2 (⟨1024 * t.val + p.val, hp⟩ : Fin 8192) k) rfl rfl, iblk0_1_eq]

/-- The sizes of what h's window moves at a point are the block's: no block overhangs the array. -/
theorem xsize0_4 : ∀ t : Fin cfg0.N, win0_4.xsize (grid0.coords t) (0 : Fin 2) = 1024 ∧ win0_4.xsize (grid0.coords t) 1 = 256 :=
  (by decide +kernel : ∀ t : Fin grid0.N, win0_4.xsize (grid0.coords t) (0 : Fin 2) = 1024 ∧ win0_4.xsize (grid0.coords t) 1 = 256)

/-- Every entry of the array of h lies in the block some point writes back: row r in the block of point r / 1024. -/
theorem cover0_4_arr (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 8192 := (i 0).isLt
  have h1 : (i 1 : Nat) < 256 := (i 1).isLt
  have hN : cfg0.N = 8 := N_0
  obtain ⟨t, ht⟩ : ∃ t : Fin cfg0.N, t.val = (i 0 : Nat) / 1024 := ⟨⟨(i 0 : Nat) / 1024, by omega⟩, rfl⟩
  have hi := index0_4 t
  have hx := xsize0_4 t
  refine ⟨t, flush0_4 t, ?_⟩
  show i ∈ ((View.whole main_v0_0).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + win0_4.xsize (grid0.coords t) 0
    rw [hi.1, hx.1, ht]; omega
  | ⟨1, _⟩ =>
    show win0_4.index t 1 * 256 ≤ (i 1 : Nat) ∧ (i 1 : Nat) < win0_4.index t 1 * 256 + win0_4.xsize (grid0.coords t) 1
    rw [hi.2, hx.2]; omega

/-- After the region the array of h holds x · W. -/
theorem r0_h (c : Dev nD) : (dat0 V c).arrAt 4 cfg0.N = G4 V c :=
  (dat0 V c).arrAt_eq_of_cover 4 (G4 V c) (flushed0_4_eq V c) (cover0_4_arr c)

/-- Any contents of the array of h · a_self, read through the block of point t at (p, u), is the contents at
    (1024·t + p, u). -/
theorem blk0_5_read_apply (c : Dev nD) (t : Fin cfg0.N) (G : S8192x1.Idx → Elt Ideal .f32) (x : S1024x1.Idx)
    (k : S8192x1.Idx) (hk0 : (k 0).val = 1024 * t.val + (x 0).val) (hk1 : (k 1).val = (x 1).val) :
    (((cfg0.win 5).blk t).view.read (Elt Ideal) G : Vec Ideal S1024x1 .f32) x = G k := by
  have hi := index0_5 t
  rw [View.read_apply]
  show G _ = G _
  congr 1
  funext a
  apply Fin.ext
  match a with
  | ⟨0, _⟩ => show win0_5.index t 0 * 1024 + 1 * (x 0).val = (k 0).val; rw [hi.1, hk0]; omega
  | ⟨1, _⟩ => show win0_5.index t 1 * 1 + 1 * (x 1).val = (k 1).val; rw [hi.2, hk1]; omega

/-- What the array of h · a_self must end holding, entry by entry. -/
def G5 (c : Dev nD) : S8192x1.Idx → Elt Ideal .f32 :=
  fun i => GatSpec.aself (V c main_arg0) (V c main_arg3) (V c main_arg4) (i 0)

/-- The block of h · a_self written back at point t is the matching block of the specification's. -/
theorem flushed0_5_eq (c : Dev nD) (t : Fin cfg0.N) (hf : (cfg0.win 5).flush t = true) :
    (dat0 V c).flushed 5 t = ((cfg0.win 5).blk t).view.read (Elt Ideal) (G5 V c) := by
  have e : (dat0 V c).flushed 5 t
      = (out0_5 (iblk0 V c 0 t) (iblk0 V c 1 t) (iblk0 V c 2 t) : Vec Ideal S1024x1 .f32) := by
    show (cfg0.win 5).cut (grid0.coords t) ((dat0 V c).after 5 t) = _
    rw [after0_5]
    rfl
  rw [e]
  refine funext fun (y : S1024x1.Idx) => ?_
  obtain ⟨p, u, rfl⟩ : ∃ (p : Fin 1024) (u : Fin 1), y = ix2 p u := ⟨y 0, y 1, eq_ix2 y⟩
  have hp : 1024 * t.val + p.val < 8192 := by
    have h1 := t.isLt; have h2 : cfg0.N = 8 := N_0; have h3 := p.isLt; omega
  rw [out0_5_apply,
    blk0_5_read_apply c t (G5 V c) (ix2 p u) (ix2 (⟨1024 * t.val + p.val, hp⟩ : Fin 8192) u) rfl rfl]
  unfold G5 GatSpec.aself GatSpec.hmat
  refine Finset.sum_congr rfl fun q _ => ?_
  rw [iblk0_2_eq, iblk0_1_eq]
  refine congrArg (· * _) (Finset.sum_congr rfl fun k _ => ?_)
  rw [iblk0_0_apply V c t (ix2 p k) (ix2 (⟨1024 * t.val + p.val, hp⟩ : Fin 8192) k) rfl rfl]

/-- The sizes of what the window of h · a_self moves at a point are the block's. -/
theorem xsize0_5 : ∀ t : Fin cfg0.N, win0_5.xsize (grid0.coords t) (0 : Fin 2) = 1024 ∧ win0_5.xsize (grid0.coords t) 1 = 1 :=
  (by decide +kernel : ∀ t : Fin grid0.N, win0_5.xsize (grid0.coords t) (0 : Fin 2) = 1024 ∧ win0_5.xsize (grid0.coords t) 1 = 1)

/-- Every entry of the array of h · a_self lies in the block some point writes back: row r in the block of point
    r / 1024. -/
theorem cover0_5_arr (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 8192 := (i 0).isLt
  have h1 : (i 1 : Nat) < 1 := (i 1).isLt
  have hN : cfg0.N = 8 := N_0
  obtain ⟨t, ht⟩ : ∃ t : Fin cfg0.N, t.val = (i 0 : Nat) / 1024 := ⟨⟨(i 0 : Nat) / 1024, by omega⟩, rfl⟩
  have hi := index0_5 t
  have hx := xsize0_5 t
  refine ⟨t, flush0_5 t, ?_⟩
  show i ∈ ((View.whole main_v0_1).slice (win0_5.rect t)).set
  rw [View.set_slice_whole, Rect.mem_set_unit]
  intro a
  match a with
  | ⟨0, _⟩ =>
    show win0_5.index t 0 * 1024 ≤ (i 0 : Nat) ∧ (i 0 : Nat) < win0_5.index t 0 * 1024 + win0_5.xsize (grid0.coords t) 0
    rw [hi.1, hx.1, ht]; omega
  | ⟨1, _⟩ =>
    show win0_5.index t 1 * 1 ≤ (i 1 : Nat) ∧ (i 1 : Nat) < win0_5.index t 1 * 1 + win0_5.xsize (grid0.coords t) 1
    rw [hi.2, hx.2]; omega

/-- After the region the array of h · a_self holds the specification's. -/
theorem r0_as (c : Dev nD) : (dat0 V c).arrAt 5 cfg0.N = G5 V c :=
  (dat0 V c).arrAt_eq_of_cover 5 (G5 V c) (flushed0_5_eq V c) (cover0_5_arr c)

/-- Any contents of the array of h · a_neighs, read through the block of point t at (p, u), is the contents at
    (1024·t + p, u). -/
theorem blk0_6_read_apply (c : Dev nD) (t : Fin cfg0.N) (G : S8192x1.Idx → Elt Ideal .f32) (x : S1024x1.Idx)
    (k : S8192x1.Idx) (hk0 : (k 0).val = 1024 * t.val + (x 0).val) (hk1 : (k 1).val = (x 1).val) :
    (((cfg0.win 6).blk t).view.read (Elt Ideal) G : Vec Ideal S1024x1 .f32) x = G k := by
  have hi := index0_6 t
  rw [View.read_apply]
  show G _ = G _
  congr 1
  funext a
  apply Fin.ext
  match a with
  | ⟨0, _⟩ => show win0_6.index t 0 * 1024 + 1 * (x 0).val = (k 0).val; rw [hi.1, hk0]; omega
  | ⟨1, _⟩ => show win0_6.index t 1 * 1 + 1 * (x 1).val = (k 1).val; rw [hi.2, hk1]; omega

/-- What the array of h · a_neighs must end holding, entry by entry. -/
def G6 (c : Dev nD) : S8192x1.Idx → Elt Ideal .f32 :=
  fun i => GatSpec.aneigh (V c main_arg0) (V c main_arg3) (V c main_arg5) (i 0)

/-- The block of h · a_neighs written back at point t is the matching block of the specification's. -/
theorem flushed0_6_eq (c : Dev nD) (t : Fin cfg0.N) (hf : (cfg0.win 6).flush t = true) :
    (dat0 V c).flushed 6 t = ((cfg0.win 6).blk t).view.read (Elt Ideal) (G6 V c) := by
  have e : (dat0 V c).flushed 6 t
      = (out0_6 (iblk0 V c 0 t) (iblk0 V c 1 t) (iblk0 V c 3 t) : Vec Ideal S1024x1 .f32) := by
    show (cfg0.win 6).cut (grid0.coords t) ((dat0 V c).after 6 t) = _
    rw [after0_6]
    rfl
  rw [e]
  refine funext fun (y : S1024x1.Idx) => ?_
  obtain ⟨p, u, rfl⟩ : ∃ (p : Fin 1024) (u : Fin 1), y = ix2 p u := ⟨y 0, y 1, eq_ix2 y⟩
  have hp : 1024 * t.val + p.val < 8192 := by
    have h1 := t.isLt; have h2 : cfg0.N = 8 := N_0; have h3 := p.isLt; omega
  rw [out0_6_apply,
    blk0_6_read_apply c t (G6 V c) (ix2 p u) (ix2 (⟨1024 * t.val + p.val, hp⟩ : Fin 8192) u) rfl rfl]
  unfold G6 GatSpec.aneigh GatSpec.hmat
  refine Finset.sum_congr rfl fun q _ => ?_
  rw [iblk0_3_eq, iblk0_1_eq]
  refine congrArg (· * _) (Finset.sum_congr rfl fun k _ => ?_)
  rw [iblk0_0_apply V c t (ix2 p k) (ix2 (⟨1024 * t.val + p.val, hp⟩ : Fin 8192) k) rfl rfl]

/-- The sizes of what the window of h · a_neighs moves at a point are the block's. -/
theorem xsize0_6 : ∀ t : Fin cfg0.N, win0_6.xsize (grid0.coords t) (0 : Fin 2) = 1024 ∧ win0_6.xsize (grid0.coords t) 1 = 1 :=
  (by decide +kernel : ∀ t : Fin grid0.N, win0_6.xsize (grid0.coords t) (0 : Fin 2) = 1024 ∧ win0_6.xsize (grid0.coords t) 1 = 1)

/-- Every entry of the array of h · a_neighs lies in the block some point writes back: row r in the block of point
    r / 1024. -/
theorem cover0_6_arr (c : Dev nD) (i : ((cfg0.win 6).arr.view.loc (c.tc : Thread nD τ)).2.ty.Idx) :
    ∃ t : Fin cfg0.N, (cfg0.win 6).flush t = true ∧ i ∈ ((cfg0.win 6).blk t).view.set := by
  have h0 : (i 0 : Nat) < 8192 := (i 0).isLt
  have h1 : (i 1 : Nat) < 1 := (i 1).isLt
  have hN : cfg0.N = 8 := N_0
  obtain ⟨t, ht⟩ : ∃ t : Fin cfg0.N, t.val = (i 0 : Nat) / 1024 := ⟨⟨(i 0 : Nat) / 1024, by omega⟩, rfl⟩
  have hi := index0_6 t
  have hx := xsize0_6 t
  refine ⟨t, flush0_6 t, ?_⟩
  show i ∈ ((View.whole main_v0_2).slice (win0_6.rect t)).set
  rw [View.set_slice_whole, Rect.mem_set_unit]
  intro a
  match a with
  | ⟨0, _⟩ =>
    show win0_6.index t 0 * 1024 ≤ (i 0 : Nat) ∧ (i 0 : Nat) < win0_6.index t 0 * 1024 + win0_6.xsize (grid0.coords t) 0
    rw [hi.1, hx.1, ht]; omega
  | ⟨1, _⟩ =>
    show win0_6.index t 1 * 1 ≤ (i 1 : Nat) ∧ (i 1 : Nat) < win0_6.index t 1 * 1 + win0_6.xsize (grid0.coords t) 1
    rw [hi.2, hx.2]; omega

/-- After the region the array of h · a_neighs holds the specification's. -/
theorem r0_an (c : Dev nD) : (dat0 V c).arrAt 6 cfg0.N = G6 V c :=
  (dat0 V c).arrAt_eq_of_cover 6 (G6 V c) (flushed0_6_eq V c) (cover0_6_arr c)

end Cert.KernelIdeal.Val

end
-- ==== Proof.KernelIdealV1.lean ====
/-
  One step of the attention kernel's running softmax, entry by entry over the extended reals. For a block of 512
  rows against 1024 columns the logit of (p, j) is (a p + b j) · M p j through the leaky rectifier of slope 0.2,
  replaced by −9·10¹⁵ where adj p j is not positive. A step replaces the running maximum m p by
  m' = max (m p) (max over j of the logits), the running normaliser l p by exp(m p − m')·l p + Σ_j exp(s p j − m'),
  and the running weighted sum by exp(m p − m')·acc p c + Σ_j exp(s p j − m')·h (off + j) c; the last step's output
  is the exponential linear unit of acc p c / l p. Each statement reads one stored block at one index.
-/
import proofs.«132837_j19086834663562_2_alg».proof.Proof.KernelIdealR1Defs
import proofs.«132837_j19086834663562_2_alg».proof.Proof.RefSpec
import Idealize.ShloMosaic.Lib.IdealHost
import Idealize.ShloMosaic.Lib.ValueLayout
import Idealize.ShloMosaic.Lib.StackMember
import Idealize.ShloMosaic.Lib.Pipeline.Value

noncomputable section

open scoped BigOperators

namespace Cert.KernelIdeal.Val

open Cert.KernelIdeal Cert.KernelIdeal.Gen Cert.KernelIdeal.Frm Idealize.ShloMosaic Idealize.ShloMosaic.ValueIdx

/-! ## Layout operations read at an index -/

/-- A whole-buffer rectangle starts at the origin. -/
theorem off2 : (![0, 0] : Fin 2 → Nat) = fun _ => 0 := by funext a; fin_cases a <;> rfl

/-- A column broadcast along a new second axis reads the column's entry of that row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector written as a column reads the vector's entry of that row. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The kernel's exponential at an index is the extended reals'. -/
theorem exp_apply {s : Shape} (v : FVec Ideal s .f32) (i : s.Idx) : exp v i = Ideal.exp (v i) := rfl

/-- A row index with a column coordinate inserted is the pair. -/
theorem red_lift (p : Fin 512) (j : Fin 1024) : reduces_S512x1024_S512.lift (ix1 p) j = ix2 p j := by
  funext a
  match a with
  | ⟨0, _⟩ => rfl
  | ⟨1, _⟩ => rfl

/-! ## The block's logits -/

section Step

variable (x0 : Vec Ideal S512x1 .f32) (x1 : Vec Ideal S1x1024 .f32) (x2 x3 : Vec Ideal S512x1024 .f32)
  (x4 : Vec Ideal S8192x256 .bf16) (m l : Vec Ideal S512x1 .f32) (acc : Vec Ideal S512x256 .f32)

/-- The masked leaky-rectified logit of the block at (p, j): x0 the rows' column, x1 the columns' row, x2 the block of
    M, x3 the block of adj. -/
def sc (p : Fin 512) (j : Fin 1024) : EReal :=
  Scalar.select (Ideal.cmp .ogt (x3 (ix2 p j)) (Ideal.ofBits .f32 0x00000000#32))
    (Scalar.select
      (Ideal.cmp .ogt ((x0 (ix2 p (0 : Fin 1)) + x1 (ix2 (0 : Fin 1) j)) * x2 (ix2 p j)) (Ideal.ofBits .f32 0x00000000#32))
      ((x0 (ix2 p (0 : Fin 1)) + x1 (ix2 (0 : Fin 1) j)) * x2 (ix2 p j))
      (Ideal.ofBits .f32 0x3E4CCCCD#32 * ((x0 (ix2 p (0 : Fin 1)) + x1 (ix2 (0 : Fin 1) j)) * x2 (ix2 p j))))
    (Ideal.ofBits .f32 0xD9FFCB9E#32)

/-- The logit block at an index (its operands in the order the body passes them: rows' column, columns' row, adj, M). -/
theorem pay8_apply (p : Fin 512) (j : Fin 1024) :
    k1_pay8 (F := Ideal) x0 x1 x3 x2 (ix2 p j) = sc x0 x1 x2 x3 p j := by
  unfold k1_pay8 sc
  simp only [select_apply, cmpf_apply, mulf_apply, addf_apply, broadcast_apply, shapeCast_self, Ideal.cmpf_def]
  rw [broadcastTo_a1_ab_apply, broadcastTo_1b_ab_apply]
  rfl

/-- The new running maximum of row p. -/
abbrev mNew (p : Fin 512) : EReal :=
  max (m (ix2 p (0 : Fin 1))) ((Finset.univ : Finset (Fin 1024)).fold max ⊥ (fun j => sc x0 x1 x2 x3 p j))

theorem pay9_apply (p : Fin 512) (u : Fin 1) :
    k1_pay9 (F := Ideal) x0 x1 x3 x2 m (ix2 p u) = mNew x0 x1 x2 x3 m p := by
  obtain rfl : u = 0 := Subsingleton.elim _ _
  unfold k1_pay9
  rw [maximumf_apply, shapeCast_a_a1_apply]
  refine congrArg (max _) ?_
  refine (Ideal.multiReduction_maximumf_single _ _ _ _ _ (ix1 p)).trans ?_
  rw [Ideal.ofBits_def, GatSpec.ofBits_neg_inf_f32]
  show (Finset.univ : Finset (Fin 1024)).fold max ⊥
      (fun j : Fin 1024 => k1_pay8 (F := Ideal) x0 x1 x3 x2 (reduces_S512x1024_S512.lift (ix1 p) j)) = _
  exact Finset.fold_congr fun j _ => by rw [red_lift, pay8_apply]

/-! ## The running maximum, the resets and the output -/

theorem stepM_apply (p : Fin 512) (u : Fin 1) :
    stepM (F := Ideal) x0 x1 x2 x3 m (ix2 p u) = mNew x0 x1 x2 x3 m p := by
  unfold stepM
  rw [View.canon_unit_zero off2]
  simp only [View.ld_unit_zero (S := S512x1) off2, View.ld_unit_zero (S := S1x1024) off2, View.ld_unit_zero (S := S512x1024) off2, View.ld_unit_zero (S := S512x256) off2]
  unfold k1_pay3
  rw [shapeCast_self]
  exact pay9_apply x0 x1 x2 x3 m p u

theorem resetM_apply (p : Fin 512) (u : Fin 1) :
    resetM (F := Ideal) (ix2 p u) = Ideal.ofBits .f32 0xD9FFCB9E#32 := by
  unfold resetM
  rw [View.canon_unit_zero off2]
  unfold k1_pay5
  rw [shapeCast_self]
  rfl

theorem resetL_apply (p : Fin 512) (u : Fin 1) : resetL (F := Ideal) (ix2 p u) = 0 := by
  unfold resetL
  rw [View.canon_unit_zero off2]
  unfold k1_pay6
  rw [shapeCast_self]
  exact Ideal.ofBits_zero_f32

theorem resetA_apply (p : Fin 512) (c : Fin 256) : resetA (F := Ideal) (ix2 p c) = 0 := by
  unfold resetA
  rw [View.canon_unit_zero off2]
  unfold k1_pay7
  rw [shapeCast_self]
  exact Ideal.ofBits_zero_f32

/-- The exponential linear unit as the kernel spells it: v where v > 0, else exp (min v 0) − 1. -/
def eluK (v : EReal) : EReal :=
  Scalar.select (Ideal.cmp .ogt v (Ideal.ofBits .f32 0x00000000#32)) v
    (Ideal.exp (min v (Ideal.ofBits .f32 0x00000000#32)) - Ideal.ofBits .f32 0x3F800000#32)

/-- The two spellings of the exponential linear unit agree on every extended real: where v is not positive, min v 0
    is v itself. -/
theorem eluK_eq (v : EReal) : eluK v = GatSpec.elu v := by
  unfold eluK GatSpec.elu
  rw [Ideal.ofBits_zero_f32, Ideal.ofBits_one_f32, one_mul]
  by_cases h : (0 : EReal) < v
  · have hc : Ideal.cmp .ogt v 0 = 1#1 := by simp [Ideal.cmp, h]
    simp only [hc, select_one]
  · have hc : Ideal.cmp .ogt v 0 = 0#1 := by simp [Ideal.cmp, h]
    simp only [hc, select_zero, min_eq_left (not_lt.mp h)]

theorem stepO_apply (p : Fin 512) (c : Fin 256) :
    stepO (F := Ideal) acc l (ix2 p c) = eluK (Ideal.div (acc (ix2 p c)) (l (ix2 p (0 : Fin 1)))) := by
  unfold stepO
  rw [View.canon_unit_zero off2]
  simp only [View.ld_unit_zero (S := S512x1) off2, View.ld_unit_zero (S := S1x1024) off2, View.ld_unit_zero (S := S512x1024) off2, View.ld_unit_zero (S := S512x256) off2]
  unfold k1_pay4 eluK
  simp only [select_apply, cmpf_apply, subf_apply, minimumf_apply, exp_apply, divf_apply, broadcast_apply, Ideal.cmpf_def]
  rw [broadcastTo_a1_ab_apply]
  rfl

/-! ## The running normaliser and the running weighted sum -/

theorem pay10_apply (p : Fin 512) (u : Fin 1) :
    k1_pay10 (F := Ideal) x0 x1 x3 x2 m m (ix2 p u) = Ideal.exp (m (ix2 p (0 : Fin 1)) - mNew x0 x1 x2 x3 m p) := by
  obtain rfl : u = 0 := Subsingleton.elim _ _
  unfold k1_pay10
  rw [exp_apply, subf_apply, pay9_apply]

theorem pay11_apply (p : Fin 512) (j : Fin 1024) :
    k1_pay11 (F := Ideal) x0 x1 x3 x2 m (ix2 p j) = Ideal.exp (sc x0 x1 x2 x3 p j - mNew x0 x1 x2 x3 m p) := by
  unfold k1_pay11
  rw [exp_apply, subf_apply, pay8_apply, broadcastTo_a1_ab_apply, pay9_apply]

theorem pay12_apply (p : Fin 512) (u : Fin 1) :
    k1_pay12 (F := Ideal) x0 x1 x3 x2 m m l (ix2 p u)
      = Ideal.exp (m (ix2 p (0 : Fin 1)) - mNew x0 x1 x2 x3 m p) * l (ix2 p (0 : Fin 1)) := by
  obtain rfl : u = 0 := Subsingleton.elim _ _
  unfold k1_pay12
  rw [mulf_apply, pay10_apply]

theorem pay13_apply (p : Fin 512) :
    k1_pay13 (F := Ideal) x0 x1 x3 x2 m (ix1 p) = ∑ j : Fin 1024, Ideal.exp (sc x0 x1 x2 x3 p j - mNew x0 x1 x2 x3 m p) := by
  unfold k1_pay13
  refine (Ideal.multiReduction_add_single _ _ _ _ _ (ix1 p)).trans ?_
  show ∑ j : Fin 1024, k1_pay11 (F := Ideal) x0 x1 x3 x2 m (reduces_S512x1024_S512.lift (ix1 p) j) = _
  exact Finset.sum_congr rfl fun j _ => by rw [red_lift, pay11_apply]

theorem stepL_apply (p : Fin 512) (u : Fin 1) :
    stepL (F := Ideal) x0 x1 x2 x3 m l (ix2 p u)
      = Ideal.exp (m (ix2 p (0 : Fin 1)) - mNew x0 x1 x2 x3 m p) * l (ix2 p (0 : Fin 1))
        + ∑ j : Fin 1024, Ideal.exp (sc x0 x1 x2 x3 p j - mNew x0 x1 x2 x3 m p) := by
  unfold stepL
  rw [View.canon_unit_zero off2]
  simp only [View.ld_unit_zero (S := S512x1) off2, View.ld_unit_zero (S := S1x1024) off2, View.ld_unit_zero (S := S512x1024) off2, View.ld_unit_zero (S := S512x256) off2]
  unfold k1_pay1
  rw [shapeCast_self, addf_apply, shapeCast_a_a1_apply, pay12_apply, pay13_apply]

/-- The weighted-sum block's dimension numbers are the plain matrix product's. -/
theorem dotK_eq : dot_S512x1024_S1024x256_S512x256_1_0_0_1_n_n = DotDims.plain 512 1024 256 := rfl

/-- The weighted-sum payload at an index, over any rescaling column, weights, values and previous sum. -/
theorem pay2_apply (v28 : FVec Ideal S512x1 .f32) (v31 : FVec Ideal S512x1024 .f32) (v43 : FVec Ideal S1024x256 .bf16)
    (v47 : FVec Ideal S512x256 .f32) (p : Fin 512) (c : Fin 256) :
    k1_pay2 (F := Ideal) v28 v31 v43 v47 (ix2 p c)
      = v28 (ix2 p (0 : Fin 1)) * v47 (ix2 p c) + ∑ j : Fin 1024, v31 (ix2 p j) * v43 (ix2 j c) := by
  unfold k1_pay2
  rw [shapeCast_self, addf_apply, mulf_apply, broadcastTo_a1_ab_apply, matmul_zero_eq_dotGeneral, dotK_eq,
    StackMember.dotGeneral_plain_apply]
  simp only [truncf_apply, shapeCast_self]

/-- The rows of h the step multiplies by stay inside h. -/
theorem off1_row_lt (i : grid1.Coords) (j : Fin 1024) : k1_off1 i 0 + j.val < 8192 := by
  have h : k1_off1 i 0 + 1024 ≤ 8192 := k1_off1_inb i 0
  have := j.isLt; omega

/-- A load through the step's rows of h reads h at the row offset plus the local row. -/
theorem ld_rHs_apply (i : grid1.Coords) (j : Fin 1024) (c : Fin 256) :
    View.ld x4 (rHs i) (ix2 j c) = x4 (ix2 (⟨k1_off1 i 0 + j.val, off1_row_lt i j⟩ : Fin 8192) c) := by
  show x4 ((rHs i).idx (ix2 j c)) = _
  refine congrArg x4 (funext fun a => Fin.ext ?_)
  match a with
  | ⟨0, _⟩ => show k1_off1 i 0 + 1 * j.val = k1_off1 i 0 + j.val; rw [Nat.one_mul]
  | ⟨1, _⟩ => show k1_off1 i 1 + 1 * c.val = c.val; rw [Nat.one_mul]; show 0 + c.val = c.val; rw [Nat.zero_add]

theorem stepA_apply (i : grid1.Coords) (p : Fin 512) (c : Fin 256) :
    stepA (F := Ideal) i x0 x1 x2 x3 x4 m acc (ix2 p c)
      = Ideal.exp (m (ix2 p (0 : Fin 1)) - mNew x0 x1 x2 x3 m p) * acc (ix2 p c)
        + ∑ j : Fin 1024, Ideal.exp (sc x0 x1 x2 x3 p j - mNew x0 x1 x2 x3 m p)
            * x4 (ix2 (⟨k1_off1 i 0 + j.val, off1_row_lt i j⟩ : Fin 8192) c) := by
  unfold stepA
  rw [View.canon_unit_zero off2]
  simp only [View.ld_unit_zero (S := S512x1) off2, View.ld_unit_zero (S := S1x1024) off2, View.ld_unit_zero (S := S512x1024) off2, View.ld_unit_zero (S := S512x256) off2]
  rw [pay2_apply, pay10_apply]
  refine congrArg (_ + ·) (Finset.sum_congr rfl fun j _ => ?_)
  rw [pay11_apply, ld_rHs_apply]

end Step

end Cert.KernelIdeal.Val

end
-- ==== Proof.KernelIdealT1.lean ====
/-
  The attention kernel's blocks in terms of the launch memory. At point n = 8·q + k the block of logits is the
  specification's masked leaky-rectified logits of rows 512·q … against columns 1024·k …: its row terms are the
  column h · a_self the projection kernel left, its column terms the transposed column h · a_neighs, its scale and mask
  blocks the two square arguments as launched. The rows of h the step multiplies by are rows 1024·k … of x · W.
-/
import proofs.«132837_j19086834663562_2_alg».proof.Proof.KernelIdealA1
import proofs.«132837_j19086834663562_2_alg».proof.Proof.KernelIdealA0
import proofs.«132837_j19086834663562_2_alg».proof.Proof.KernelIdealV1
import proofs.«132837_j19086834663562_2_alg».proof.Proof.RefSpec
import proofs.«132837_j19086834663562_2_alg».proof.Proof.KernelIdealEntry

set_option maxRecDepth 16384

noncomputable section

namespace Cert.KernelIdeal.Val

open Cert.KernelIdeal Cert.KernelIdeal.Gen Cert.KernelIdeal.Frm Idealize.ShloMosaic Idealize.ShloMosaic.TcCoe Idealize.ShloMosaic.ValueIdx
open Idealize.SL.Sem

variable (m : (ℓ : Loc nD τ sig) → Buf (Elt Ideal) ℓ) (ρ : Dev nD → PrngReg)

/-- The rows and the columns of a point's block stay inside the 8192 × 8192 arrays. -/
theorem row_lt (t : Fin cfg1.N) (p : Fin 512) : 512 * (t.val / 8) + p.val < 8192 := by
  have hN : cfg1.N = 128 := rfl
  have := t.isLt; have := p.isLt; omega
theorem col_lt (t : Fin cfg1.N) (j : Fin 1024) : 1024 * (t.val % 8) + j.val < 8192 := by
  have := j.isLt; omega

/-- The block's row term at row p is the specification's h · a_self at row 512·q + p. -/
theorem tile_self (c : Dev nD) (t : Fin cfg1.N) (p : Fin 512) :
    (iblk1 (V2 m ρ) c 0 t : Vec Ideal S512x1 .f32) (ix2 p (0 : Fin 1))
      = GatSpec.aself ((m ((c : Thread nD τ).loc main_arg0)) : S8192x512.Idx → EReal) ((m ((c : Thread nD τ).loc main_arg3)) : S512x256.Idx → EReal) ((m ((c : Thread nD τ).loc main_arg4)) : S256x1.Idx → EReal) (⟨512 * (t.val / 8) + p.val, row_lt t p⟩ : Fin 8192) := by
  rw [iblk1_0_apply (V2 m ρ) c t (ix2 p (0 : Fin 1)) (ix2 (⟨512 * (t.val / 8) + p.val, row_lt t p⟩ : Fin 8192) (0 : Fin 1)) rfl rfl, V2_v0_1, r0_as]
  rfl

/-- The block's column term at column j is the specification's h · a_neighs at row 1024·k + j. -/
theorem tile_neigh (c : Dev nD) (t : Fin cfg1.N) (j : Fin 1024) :
    (iblk1 (V2 m ρ) c 1 t : Vec Ideal S1x1024 .f32) (ix2 (0 : Fin 1) j)
      = GatSpec.aneigh ((m ((c : Thread nD τ).loc main_arg0)) : S8192x512.Idx → EReal) ((m ((c : Thread nD τ).loc main_arg3)) : S512x256.Idx → EReal) ((m ((c : Thread nD τ).loc main_arg5)) : S256x1.Idx → EReal) (⟨1024 * (t.val % 8) + j.val, col_lt t j⟩ : Fin 8192) := by
  rw [iblk1_1_apply (V2 m ρ) c t (ix2 (0 : Fin 1) j) (ix2 (0 : Fin 1) (⟨1024 * (t.val % 8) + j.val, col_lt t j⟩ : Fin 8192)) rfl rfl, V2_v1_apply, r0_an]
  rfl

/-- The block of M at (p, j) is M at (512·q + p, 1024·k + j), as launched. -/
theorem tile_M (c : Dev nD) (t : Fin cfg1.N) (p : Fin 512) (j : Fin 1024) :
    (iblk1 (V2 m ρ) c 2 t : Vec Ideal S512x1024 .f32) (ix2 p j) = ((m ((c : Thread nD τ).loc main_arg2)) : S8192x8192.Idx → EReal) (ix2 (⟨512 * (t.val / 8) + p.val, row_lt t p⟩ : Fin 8192) (⟨1024 * (t.val % 8) + j.val, col_lt t j⟩ : Fin 8192)) := by
  rw [iblk1_2_apply (V2 m ρ) c t (ix2 p j) (ix2 (⟨512 * (t.val / 8) + p.val, row_lt t p⟩ : Fin 8192) (⟨1024 * (t.val % 8) + j.val, col_lt t j⟩ : Fin 8192)) rfl rfl, V2_arg2]

/-- The block of adj at (p, j) is adj at (512·q + p, 1024·k + j), as launched. -/
theorem tile_adj (c : Dev nD) (t : Fin cfg1.N) (p : Fin 512) (j : Fin 1024) :
    (iblk1 (V2 m ρ) c 3 t : Vec Ideal S512x1024 .f32) (ix2 p j) = ((m ((c : Thread nD τ).loc main_arg1)) : S8192x8192.Idx → EReal) (ix2 (⟨512 * (t.val / 8) + p.val, row_lt t p⟩ : Fin 8192) (⟨1024 * (t.val % 8) + j.val, col_lt t j⟩ : Fin 8192)) := by
  rw [iblk1_3_apply (V2 m ρ) c t (ix2 p j) (ix2 (⟨512 * (t.val / 8) + p.val, row_lt t p⟩ : Fin 8192) (⟨1024 * (t.val % 8) + j.val, col_lt t j⟩ : Fin 8192)) rfl rfl, V2_arg1]

/-- The block's logits are the specification's. -/
theorem tile_score (c : Dev nD) (t : Fin cfg1.N) (p : Fin 512) (j : Fin 1024) :
    sc (iblk1 (V2 m ρ) c 0 t) (iblk1 (V2 m ρ) c 1 t) (iblk1 (V2 m ρ) c 2 t) (iblk1 (V2 m ρ) c 3 t) p j
      = GatSpec.score ((m ((c : Thread nD τ).loc main_arg0)) : S8192x512.Idx → EReal) ((m ((c : Thread nD τ).loc main_arg1)) : S8192x8192.Idx → EReal) ((m ((c : Thread nD τ).loc main_arg2)) : S8192x8192.Idx → EReal)
          ((m ((c : Thread nD τ).loc main_arg3)) : S512x256.Idx → EReal) ((m ((c : Thread nD τ).loc main_arg4)) : S256x1.Idx → EReal) ((m ((c : Thread nD τ).loc main_arg5)) : S256x1.Idx → EReal) (⟨512 * (t.val / 8) + p.val, row_lt t p⟩ : Fin 8192) (⟨1024 * (t.val % 8) + j.val, col_lt t j⟩ : Fin 8192) := by
  unfold sc GatSpec.score
  rw [tile_self m ρ c t p, tile_neigh m ρ c t j, tile_M m ρ c t p j, tile_adj m ρ c t p j]

/-- The rows of h the step multiplies by are rows 1024·k … of x · W. -/
theorem tile_h (c : Dev nD) (t : Fin cfg1.N) (j : Fin 1024) (cc : Fin 256) :
    (iblk1 (V2 m ρ) c 4 t : Vec Ideal S8192x256 .bf16)
        (ix2 (⟨k1_off1 (grid1.coords t) 0 + j.val, off1_row_lt (grid1.coords t) j⟩ : Fin 8192) cc)
      = GatSpec.hmat ((m ((c : Thread nD τ).loc main_arg0)) : S8192x512.Idx → EReal) ((m ((c : Thread nD τ).loc main_arg3)) : S512x256.Idx → EReal) (⟨1024 * (t.val % 8) + j.val, col_lt t j⟩ : Fin 8192) cc := by
  rw [iblk1_4_eq (V2 m ρ) c t, V2_v0_0, r0_h]
  show GatSpec.hmat _ _ (⟨k1_off1 (grid1.coords t) 0 + j.val, off1_row_lt (grid1.coords t) j⟩ : Fin 8192) cc = _
  congr 1
  exact Fin.ext (by show k1_off1 (grid1.coords t) 0 + j.val = 1024 * (t.val % 8) + j.val; rw [k1_off1_val t])

end Cert.KernelIdeal.Val

end
-- ==== Proof.LibOnlineSoftmax.lean ====
import Mathlib
import Idealize.ShloMosaic.PureOps.Ideal

/-!
# Online softmax equals one-pass softmax, on finite real inputs

A row of softmax-attention can be computed "online": the keys are visited tile by tile while a running
maximum `m`, a running normaliser `l` and a running accumulator `a` are kept, and the answer is `a / l`
at the end.  The one-pass computation forms every weight `exp (s - M) / ∑ exp (s - M)` first (for some
shift `M`), multiplies by the value and sums.  Over the reals the two agree, for every shift `M`, because
`exp (x - m) = exp (M - m) * exp (x - M)` and the common factor `exp (M - m)` cancels in the quotient.

All values live in the extended reals `EReal` with the operations `Ideal.exp` (the exponential, with
`exp ⊥ = 0`) and `Ideal.div` (`x * y⁻¹` off zero).  On coerced reals each of these is the coercion of the
real operation, so the statement over `EReal` is the coercion of the statement over `ℝ`.
-/

open scoped BigOperators
open Idealize.ShloMosaic

namespace OnlineSoftmax

variable {J : Type*} [Fintype J]

/-! ### Coercion lemmas: the operations on coerced reals are the coerced real operations -/

/-- The exponential of a coerced real is the coerced real exponential. -/
theorem exp_coe (x : ℝ) : Ideal.exp (x : EReal) = ((Real.exp x : ℝ) : EReal) := rfl

/-- The quotient of two coerced reals, the divisor nonzero, is the coerced real quotient. -/
theorem div_coe (x : ℝ) {y : ℝ} (hy : y ≠ 0) :
    Ideal.div (x : EReal) (y : EReal) = ((x / y : ℝ) : EReal) := by
  rw [Ideal.div, if_neg (by exact_mod_cast hy), ← EReal.coe_inv, ← EReal.coe_mul, div_eq_mul_inv]

/-- The difference of two coerced reals is the coerced difference. -/
theorem coe_sub (x y : ℝ) : (x : EReal) - (y : EReal) = ((x - y : ℝ) : EReal) := (EReal.coe_sub x y).symm

/-- The product of two coerced reals is the coerced product. -/
theorem coe_mul (x y : ℝ) : (x : EReal) * (y : EReal) = ((x * y : ℝ) : EReal) := (EReal.coe_mul x y).symm

/-- The sum of two coerced reals is the coerced sum. -/
theorem coe_add (x y : ℝ) : (x : EReal) + (y : EReal) = ((x + y : ℝ) : EReal) := (EReal.coe_add x y).symm

/-- The maximum of two coerced reals is the coerced maximum. -/
theorem coe_max (x y : ℝ) : max (x : EReal) (y : EReal) = ((max x y : ℝ) : EReal) := (EReal.coe_strictMono.monotone.map_max (a := x) (b := y)).symm

/-- Adding the extended real zero on the left changes nothing (a reduction that starts from `0`). -/
theorem zero_add_ereal (x : EReal) : (0 : EReal) + x = x := zero_add x

/-- A finite sum of coerced reals is the coerced sum. -/
theorem coe_finset_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The maximum of a coerced real with the fold of `max` (from `⊥`) over coerced reals is the coerced
    fold of `max` from that real: the fold never leaves the reals once it has met one. -/
theorem max_coe_fold_max {ι : Type*} (t : Finset ι) (m : ℝ) (f : ι → ℝ) :
    max (m : EReal) (t.fold max ⊥ (fun i => ((f i : ℝ) : EReal))) = ((t.fold max m f : ℝ) : EReal) := by
  classical
  induction t using Finset.induction_on with
  | empty => simp
  | insert a t ha ih =>
    rw [Finset.fold_insert ha, Finset.fold_insert ha, max_left_comm, ih, coe_max]

/-- The fold of `max` (from `⊥`) of coerced reals over a nonempty finite set is a real. -/
theorem exists_fold_max_coe_finset {ι : Type*} (t : Finset ι) (ht : t.Nonempty) (f : ι → ℝ) :
    ∃ r : ℝ, t.fold max ⊥ (fun i => ((f i : ℝ) : EReal)) = (r : EReal) := by
  classical
  obtain ⟨a, ha⟩ := ht
  refine ⟨(t.erase a).fold max (f a) f, ?_⟩
  rw [← Finset.insert_erase ha, Finset.fold_insert (Finset.notMem_erase a t), max_coe_fold_max,
    Finset.insert_erase ha]

/-- The fold of `max` (from `⊥`) of coerced reals over a nonempty finite type is a real. -/
theorem exists_fold_max_coe [Nonempty J] (f : J → ℝ) :
    ∃ r : ℝ, (Finset.univ : Finset J).fold max ⊥ (fun j => ((f j : ℝ) : EReal)) = (r : EReal) :=
  exists_fold_max_coe_finset _ Finset.univ_nonempty f

/-- The same with one more `max ⊥ ·` in front (a reduction whose initial value is `⊥`). -/
theorem exists_max_bot_fold_max_coe [Nonempty J] (f : J → ℝ) :
    ∃ r : ℝ, max ⊥ ((Finset.univ : Finset J).fold max ⊥ (fun j => ((f j : ℝ) : EReal))) = (r : EReal) := by
  obtain ⟨r, hr⟩ := exists_fold_max_coe f
  exact ⟨r, by rw [hr, max_eq_right bot_le]⟩

/-! ### The online recurrence -/

/-- Running maximum, normaliser and one accumulator column after the first `n` tiles.  One step:
    `m' = max m (max of the tile)`, `l' = exp (m - m') * l + ∑ j, exp (s j - m')`,
    `a' = exp (m - m') * a + ∑ j, exp (s j - m') * h j`. -/
noncomputable def state (neg : EReal) (s h : ℕ → J → EReal) : ℕ → EReal × EReal × EReal
  | 0 => (neg, 0, 0)
  | n+1 =>
    let m := (state neg s h n).1; let l := (state neg s h n).2.1; let a := (state neg s h n).2.2
    let m' := max m ((Finset.univ : Finset J).fold max ⊥ (s n))
    (m', Ideal.exp (m - m') * l + ∑ j, Ideal.exp (s n j - m'),
         Ideal.exp (m - m') * a + ∑ j, Ideal.exp (s n j - m') * h n j)

/-- Before any tile: the initial maximum, normaliser `0` and accumulator `0`. -/
@[simp] theorem state_zero (neg : EReal) (s h : ℕ → J → EReal) : state neg s h 0 = (neg, 0, 0) := rfl

/-- One step of the online recurrence. -/
theorem state_succ (neg : EReal) (s h : ℕ → J → EReal) (n : ℕ) :
    state neg s h (n + 1) =
      (max (state neg s h n).1 ((Finset.univ : Finset J).fold max ⊥ (s n)),
       Ideal.exp ((state neg s h n).1 - max (state neg s h n).1 ((Finset.univ : Finset J).fold max ⊥ (s n)))
           * (state neg s h n).2.1
         + ∑ j, Ideal.exp (s n j - max (state neg s h n).1 ((Finset.univ : Finset J).fold max ⊥ (s n))),
       Ideal.exp ((state neg s h n).1 - max (state neg s h n).1 ((Finset.univ : Finset J).fold max ⊥ (s n)))
           * (state neg s h n).2.2
         + ∑ j, Ideal.exp (s n j - max (state neg s h n).1 ((Finset.univ : Finset J).fold max ⊥ (s n)))
             * h n j) := rfl

/-- The same recurrence over the reals: the running maximum is the fold of `max` from the previous one. -/
noncomputable def rstate (neg : ℝ) (s h : ℕ → J → ℝ) : ℕ → ℝ × ℝ × ℝ
  | 0 => (neg, 0, 0)
  | n+1 =>
    let m := (rstate neg s h n).1; let l := (rstate neg s h n).2.1; let a := (rstate neg s h n).2.2
    let m' := (Finset.univ : Finset J).fold max m (s n)
    (m', Real.exp (m - m') * l + ∑ j, Real.exp (s n j - m'),
         Real.exp (m - m') * a + ∑ j, Real.exp (s n j - m') * h n j)

/-- On coerced real inputs the online state is the coerced real state: every component is a real. -/
theorem state_coe (neg : ℝ) (s h : ℕ → J → ℝ) (n : ℕ) :
    state (neg : EReal) (fun k j => ((s k j : ℝ) : EReal)) (fun k j => ((h k j : ℝ) : EReal)) n
      = ((((rstate neg s h n).1 : ℝ) : EReal), (((rstate neg s h n).2.1 : ℝ) : EReal),
          (((rstate neg s h n).2.2 : ℝ) : EReal)) := by
  induction n with
  | zero => simp [rstate]
  | succ n ih =>
    rw [state_succ, ih]
    simp only [max_coe_fold_max, coe_sub, exp_coe, coe_mul, coe_finset_sum, coe_add]
    rfl

/-- Over the reals the normaliser after `n` tiles is the sum of `exp (s - m)` over everything seen,
    `m` the current running maximum. -/
theorem rstate_l (neg : ℝ) (s h : ℕ → J → ℝ) (n : ℕ) :
    (rstate neg s h n).2.1 = ∑ k ∈ Finset.range n, ∑ j, Real.exp (s k j - (rstate neg s h n).1) := by
  induction n with
  | zero => simp [rstate]
  | succ n ih =>
    show Real.exp ((rstate neg s h n).1 - (rstate neg s h (n+1)).1) * (rstate neg s h n).2.1
        + ∑ j, Real.exp (s n j - (rstate neg s h (n+1)).1) = _
    rw [Finset.sum_range_succ, ih, Finset.mul_sum]
    congr 1
    refine Finset.sum_congr rfl fun k _ => ?_
    rw [Finset.mul_sum]
    refine Finset.sum_congr rfl fun j _ => ?_
    rw [← Real.exp_add]; congr 1; ring

/-- Over the reals the accumulator after `n` tiles is the sum of `exp (s - m) * h` over everything seen. -/
theorem rstate_a (neg : ℝ) (s h : ℕ → J → ℝ) (n : ℕ) :
    (rstate neg s h n).2.2
      = ∑ k ∈ Finset.range n, ∑ j, Real.exp (s k j - (rstate neg s h n).1) * h k j := by
  induction n with
  | zero => simp [rstate]
  | succ n ih =>
    show Real.exp ((rstate neg s h n).1 - (rstate neg s h (n+1)).1) * (rstate neg s h n).2.2
        + ∑ j, Real.exp (s n j - (rstate neg s h (n+1)).1) * h n j = _
    rw [Finset.sum_range_succ, ih, Finset.mul_sum]
    congr 1
    refine Finset.sum_congr rfl fun k _ => ?_
    rw [Finset.mul_sum]
    refine Finset.sum_congr rfl fun j _ => ?_
    rw [← mul_assoc, ← Real.exp_add]; congr 2; ring

/-- A sum of exponentials over at least one tile of a nonempty index type is positive. -/
theorem sum_exp_pos [Nonempty J] (s : ℕ → J → ℝ) {n : ℕ} (hn : 0 < n) (M : ℝ) :
    0 < ∑ k ∈ Finset.range n, ∑ j, Real.exp (s k j - M) :=
  Finset.sum_pos (fun _ _ => Finset.sum_pos (fun _ _ => Real.exp_pos _) Finset.univ_nonempty)
    (Finset.nonempty_range_iff.mpr hn.ne')

/-- (A) On real inputs every component of the online state is a real; the normaliser and the accumulator
    have their closed forms, and the normaliser is positive after at least one nonempty tile. -/
theorem state_real (neg : ℝ) (s h : ℕ → J → ℝ) (n : ℕ) :
    ∃ m l a : ℝ,
      state (neg : EReal) (fun k j => ((s k j : ℝ) : EReal)) (fun k j => ((h k j : ℝ) : EReal)) n
        = ((m : EReal), (l : EReal), (a : EReal))
      ∧ (0 < n → Nonempty J → 0 < l)
      ∧ l = ∑ k ∈ Finset.range n, ∑ j, Real.exp (s k j - m)
      ∧ a = ∑ k ∈ Finset.range n, ∑ j, Real.exp (s k j - m) * h k j := by
  refine ⟨(rstate neg s h n).1, (rstate neg s h n).2.1, (rstate neg s h n).2.2, state_coe neg s h n, ?_,
    rstate_l neg s h n, rstate_a neg s h n⟩
  intro hn hJ
  rw [rstate_l]
  exact sum_exp_pos s hn _

/-! ### Shift invariance over the reals -/

/-- Over the reals: the quotient of the `exp (· - m)`-weighted sum by the sum of the weights equals the
    sum of the normalised `exp (· - M)` weights times the values, for any two shifts `m` and `M`:
    `exp (x - m) = exp (M - m) * exp (x - M)` and the common factor cancels. -/
theorem real_softmax_shift (n : ℕ) (s h : ℕ → J → ℝ) (m M : ℝ) :
    (∑ k ∈ Finset.range n, ∑ j, Real.exp (s k j - m) * h k j)
        / (∑ k ∈ Finset.range n, ∑ j, Real.exp (s k j - m))
      = ∑ k ∈ Finset.range n, ∑ j,
          Real.exp (s k j - M) / (∑ k' ∈ Finset.range n, ∑ j', Real.exp (s k' j' - M)) * h k j := by
  have hc : ∀ x : ℝ, Real.exp (x - m) = Real.exp (M - m) * Real.exp (x - M) := by
    intro x; rw [← Real.exp_add]; congr 1; ring
  have hN : ∑ k ∈ Finset.range n, ∑ j, Real.exp (s k j - m) * h k j
      = Real.exp (M - m) * ∑ k ∈ Finset.range n, ∑ j, Real.exp (s k j - M) * h k j := by
    rw [Finset.mul_sum]
    refine Finset.sum_congr rfl fun k _ => ?_
    rw [Finset.mul_sum]
    refine Finset.sum_congr rfl fun j _ => ?_
    rw [hc (s k j), mul_assoc]
  have hD : ∑ k ∈ Finset.range n, ∑ j, Real.exp (s k j - m)
      = Real.exp (M - m) * ∑ k ∈ Finset.range n, ∑ j, Real.exp (s k j - M) := by
    rw [Finset.mul_sum]
    refine Finset.sum_congr rfl fun k _ => ?_
    rw [Finset.mul_sum]
    refine Finset.sum_congr rfl fun j _ => ?_
    rw [hc (s k j)]
  rw [hN, hD, mul_div_mul_left _ _ (Real.exp_pos _).ne', Finset.sum_div]
  refine Finset.sum_congr rfl fun k _ => ?_
  rw [Finset.sum_div]
  refine Finset.sum_congr rfl fun j _ => ?_
  ring

/-! ### The theorem over the extended reals -/

/-- (B) Online softmax equals one-pass softmax.  On real inputs, after `n ≥ 1` nonempty tiles, the online
    accumulator divided by the online normaliser equals the one-pass value: every weight
    `exp (s - M) / ∑ exp (s - M)` formed first, then multiplied by its value and summed — for ANY real
    shift `M`. -/
theorem online_eq_reference [Nonempty J] (neg : ℝ) (s h : ℕ → J → ℝ) {n : ℕ} (hn : 0 < n) (M : ℝ) :
    Ideal.div
        (state (neg : EReal) (fun k j => ((s k j : ℝ) : EReal)) (fun k j => ((h k j : ℝ) : EReal)) n).2.2
        (state (neg : EReal) (fun k j => ((s k j : ℝ) : EReal)) (fun k j => ((h k j : ℝ) : EReal)) n).2.1
      = ∑ k ∈ Finset.range n, ∑ j,
          Ideal.div (Ideal.exp (((s k j : ℝ) : EReal) - ((M : ℝ) : EReal)))
              (∑ k' ∈ Finset.range n, ∑ j', Ideal.exp (((s k' j' : ℝ) : EReal) - ((M : ℝ) : EReal)))
            * ((h k j : ℝ) : EReal) := by
  have hDpos := sum_exp_pos s hn M
  have hD : (∑ k' ∈ Finset.range n, ∑ j', Ideal.exp (((s k' j' : ℝ) : EReal) - ((M : ℝ) : EReal)))
      = ((∑ k' ∈ Finset.range n, ∑ j', Real.exp (s k' j' - M) : ℝ) : EReal) := by
    simp only [coe_sub, exp_coe, coe_finset_sum]
  have hl : (rstate neg s h n).2.1 ≠ 0 := by
    rw [rstate_l]; exact (sum_exp_pos s hn _).ne'
  rw [hD, state_coe]
  simp only [coe_sub, exp_coe, div_coe _ hDpos.ne', coe_mul, coe_finset_sum]
  rw [div_coe _ hl, rstate_a, rstate_l, real_softmax_shift n s h _ M]

/-- (B), the one-pass denominator written as a reduction that starts from `0`. -/
theorem online_eq_reference_zero_add [Nonempty J] (neg : ℝ) (s h : ℕ → J → ℝ) {n : ℕ} (hn : 0 < n)
    (M : ℝ) :
    Ideal.div
        (state (neg : EReal) (fun k j => ((s k j : ℝ) : EReal)) (fun k j => ((h k j : ℝ) : EReal)) n).2.2
        (state (neg : EReal) (fun k j => ((s k j : ℝ) : EReal)) (fun k j => ((h k j : ℝ) : EReal)) n).2.1
      = ∑ k ∈ Finset.range n, ∑ j,
          Ideal.div (Ideal.exp (((s k j : ℝ) : EReal) - ((M : ℝ) : EReal)))
              (0 + ∑ k' ∈ Finset.range n, ∑ j', Ideal.exp (((s k' j' : ℝ) : EReal) - ((M : ℝ) : EReal)))
            * ((h k j : ℝ) : EReal) := by
  simp only [zero_add]
  exact online_eq_reference neg s h hn M

/-! ### Re-indexing a flat index into tiles -/

/-- Position `j` of tile `k` is a valid flat index: `k * K + j < n * K` for `k < n`, `j < K`. -/
theorem tile_index_lt {n K : ℕ} (k : Fin n) (j : Fin K) : (k : ℕ) * K + (j : ℕ) < n * K :=
  calc (k : ℕ) * K + (j : ℕ) < (k : ℕ) * K + K := Nat.add_lt_add_left j.2 _
    _ = ((k : ℕ) + 1) * K := by ring
    _ ≤ n * K := Nat.mul_le_mul_right K k.2

/-- A sum over the flat index `Fin (n * K)` is the sum over the `n` tiles of the sums over the `K` positions
    of each tile, the flat index of position `j` of tile `k` being `k * K + j`. -/
theorem sum_fin_mul {A : Type*} [AddCommMonoid A] (n K : ℕ) (f : Fin (n * K) → A) :
    ∑ i, f i = ∑ k : Fin n, ∑ j : Fin K, f ⟨(k : ℕ) * K + (j : ℕ), tile_index_lt k j⟩ := by
  rw [← Fintype.sum_prod_type', ← (finProdFinEquiv (m := n) (n := K)).sum_comp f]
  refine Fintype.sum_congr _ _ fun x => ?_
  congr 1
  ext
  simp [finProdFinEquiv, mul_comm, add_comm]

/-- The same for a summand that depends on the flat index only through its value, the tiles counted by
    `Finset.range n`. -/
theorem sum_fin_mul_nat {A : Type*} [AddCommMonoid A] (n K : ℕ) (g : ℕ → A) :
    ∑ i : Fin (n * K), g (i : ℕ) = ∑ k ∈ Finset.range n, ∑ j : Fin K, g (k * K + (j : ℕ)) := by
  rw [sum_fin_mul, Finset.sum_range (fun k => ∑ j : Fin K, g (k * K + (j : ℕ)))]

/-- A function of the flat index `Fin (n * K)` read tile by tile: position `j` of tile `k` is the flat
    index `k * K + j`; tiles beyond the `n`-th (never used) read `0`. -/
def tiled {A : Type*} [Zero A] (n K : ℕ) (f : Fin (n * K) → A) (k : ℕ) (j : Fin K) : A :=
  if hk : k < n then f ⟨k * K + (j : ℕ), tile_index_lt ⟨k, hk⟩ j⟩ else 0

/-- A tile within range reads the flat function at `k * K + j`. -/
theorem tiled_of_lt {A : Type*} [Zero A] {n K : ℕ} (f : Fin (n * K) → A) {k : ℕ} (hk : k < n) (j : Fin K) :
    tiled n K f k j = f ⟨k * K + (j : ℕ), tile_index_lt ⟨k, hk⟩ j⟩ := dif_pos hk

/-- A sum over the flat index is the sum, over the tiles counted by `Finset.range n` and the positions of
    a tile, of any `g` applied to the tiled reading (and the tile's coordinates). -/
theorem sum_fin_mul_tiled {A B : Type*} [Zero A] [AddCommMonoid B] (n K : ℕ) (f : Fin (n * K) → A)
    (g : A → B) :
    ∑ i, g (f i) = ∑ k ∈ Finset.range n, ∑ j : Fin K, g (tiled n K f k j) := by
  rw [sum_fin_mul, Finset.sum_range (fun k => ∑ j : Fin K, g (tiled n K f k j))]
  refine Fintype.sum_congr _ _ fun k => Fintype.sum_congr _ _ fun j => ?_
  rw [tiled_of_lt f k.2]

/-- (B) for a flat index: scores `S` and values `H` given on `Fin (n * K)` and read by the online
    recurrence as `n` tiles of `K` positions.  The online quotient equals the one-pass sum over the flat
    index, for any real shift `M`. -/
theorem online_eq_reference_flat (neg : ℝ) {n K : ℕ} (hn : 0 < n) (hK : 0 < K) (S H : Fin (n * K) → ℝ)
    (M : ℝ) :
    Ideal.div
        (state (neg : EReal) (fun k j => ((tiled n K S k j : ℝ) : EReal))
          (fun k j => ((tiled n K H k j : ℝ) : EReal)) n).2.2
        (state (neg : EReal) (fun k j => ((tiled n K S k j : ℝ) : EReal))
          (fun k j => ((tiled n K H k j : ℝ) : EReal)) n).2.1
      = ∑ i, Ideal.div (Ideal.exp (((S i : ℝ) : EReal) - ((M : ℝ) : EReal)))
              (∑ i', Ideal.exp (((S i' : ℝ) : EReal) - ((M : ℝ) : EReal)))
            * ((H i : ℝ) : EReal) := by
  haveI : Nonempty (Fin K) := ⟨⟨0, hK⟩⟩
  rw [online_eq_reference neg (tiled n K S) (tiled n K H) hn M,
    sum_fin_mul_tiled n K S (fun x : ℝ => Ideal.exp ((x : EReal) - ((M : ℝ) : EReal))), sum_fin_mul,
    Finset.sum_range (fun k => ∑ j : Fin K,
      Ideal.div (Ideal.exp (((tiled n K S k j : ℝ) : EReal) - ((M : ℝ) : EReal)))
          (∑ k' ∈ Finset.range n, ∑ j', Ideal.exp (((tiled n K S k' j' : ℝ) : EReal) - ((M : ℝ) : EReal)))
        * ((tiled n K H k j : ℝ) : EReal))]
  refine Fintype.sum_congr _ _ fun k => Fintype.sum_congr _ _ fun j => ?_
  rw [tiled_of_lt S k.2, tiled_of_lt H k.2]

end OnlineSoftmax
-- ==== Proof.LibTiles.lean ====
import Mathlib
import proofs.«132837_j19086834663562_2_alg».proof.Proof.LibOnlineSoftmax

/-!
# Sequences that follow the online recurrence, and the arithmetic of tiles

Two general facts.  First: three sequences that start from one step of the online softmax recurrence out of
the reset values and then follow the recurrence step by step ARE the recurrence's states.  Second: the
arithmetic of cutting an index range of length `A * B` into `A` blocks of length `B` — every index is
`q * B + p` for exactly one block `q < A` and one offset `p < B`, namely `q = r / B` and `p = r % B` — with the
instances for a 16 × 8 grid of 512 × 1024 tiles over 8192 × 8192 and for 8 row blocks of 1024.
-/

open scoped BigOperators
open Idealize.ShloMosaic

namespace OnlineSoftmax

variable {J : Type*} [Fintype J]

/-! ### Sequences that follow the recurrence are its states -/

/-- If `Mk 0, Lk 0, Ak 0` are one step of the online recurrence out of the reset values `(neg, 0, 0)` on tile 0
    and `Mk (k+1), Lk (k+1), Ak (k+1)` are one step out of `Mk k, Lk k, Ak k` on tile `k+1`, then
    `(Mk k, Lk k, Ak k)` is the state after `k+1` tiles; the steps are only needed below `n`. -/
theorem state_eq_of_steps_lt (neg : EReal) (s h : ℕ → J → EReal) (Mk Lk Ak : ℕ → EReal) (n : ℕ)
    (h0M : Mk 0 = max neg ((Finset.univ : Finset J).fold max ⊥ (s 0)))
    (h0L : Lk 0 = Ideal.exp (neg - Mk 0) * 0 + ∑ j, Ideal.exp (s 0 j - Mk 0))
    (h0A : Ak 0 = Ideal.exp (neg - Mk 0) * 0 + ∑ j, Ideal.exp (s 0 j - Mk 0) * h 0 j)
    (hSM : ∀ k, k + 1 < n → Mk (k + 1) = max (Mk k) ((Finset.univ : Finset J).fold max ⊥ (s (k + 1))))
    (hSL : ∀ k, k + 1 < n →
      Lk (k + 1) = Ideal.exp (Mk k - Mk (k + 1)) * Lk k + ∑ j, Ideal.exp (s (k + 1) j - Mk (k + 1)))
    (hSA : ∀ k, k + 1 < n →
      Ak (k + 1) = Ideal.exp (Mk k - Mk (k + 1)) * Ak k + ∑ j, Ideal.exp (s (k + 1) j - Mk (k + 1)) * h (k + 1) j) :
    ∀ k, k < n → state neg s h (k + 1) = (Mk k, Lk k, Ak k) := by
  intro k
  induction k with
  | zero =>
    intro _
    rw [state_succ, state_zero]
    dsimp only
    rw [h0L, h0A, h0M]
  | succ k ih =>
    intro hk
    rw [state_succ, ih (by omega)]
    dsimp only
    rw [hSL k hk, hSA k hk, hSM k hk]

/-- The same with the steps assumed for every `k`: `(Mk k, Lk k, Ak k)` is the state after `k+1` tiles, for
    every `k`. -/
theorem state_eq_of_steps (neg : EReal) (s h : ℕ → J → EReal) (Mk Lk Ak : ℕ → EReal)
    (h0M : Mk 0 = max neg ((Finset.univ : Finset J).fold max ⊥ (s 0)))
    (h0L : Lk 0 = Ideal.exp (neg - Mk 0) * 0 + ∑ j, Ideal.exp (s 0 j - Mk 0))
    (h0A : Ak 0 = Ideal.exp (neg - Mk 0) * 0 + ∑ j, Ideal.exp (s 0 j - Mk 0) * h 0 j)
    (hSM : ∀ k, Mk (k + 1) = max (Mk k) ((Finset.univ : Finset J).fold max ⊥ (s (k + 1))))
    (hSL : ∀ k, Lk (k + 1) = Ideal.exp (Mk k - Mk (k + 1)) * Lk k + ∑ j, Ideal.exp (s (k + 1) j - Mk (k + 1)))
    (hSA : ∀ k,
      Ak (k + 1) = Ideal.exp (Mk k - Mk (k + 1)) * Ak k + ∑ j, Ideal.exp (s (k + 1) j - Mk (k + 1)) * h (k + 1) j) :
    ∀ k, state neg s h (k + 1) = (Mk k, Lk k, Ak k) := fun k =>
  state_eq_of_steps_lt neg s h Mk Lk Ak (k + 1) h0M h0L h0A (fun k _ => hSM k) (fun k _ => hSL k)
    (fun k _ => hSA k) k (Nat.lt_succ_self k)

end OnlineSoftmax

namespace Tiles

/-! ### Blocks and offsets, in general -/

/-- The block of an index of a range cut into `A` blocks of length `B`. -/
def blockOf {A B : ℕ} (r : Fin (A * B)) : Fin A :=
  ⟨(r : ℕ) / B, Nat.div_lt_of_lt_mul (lt_of_lt_of_eq r.2 (Nat.mul_comm A B))⟩

/-- The offset of an index inside its block. -/
def offOf {A B : ℕ} (r : Fin (A * B)) : Fin B :=
  ⟨(r : ℕ) % B, Nat.mod_lt _ (Nat.pos_of_ne_zero (by rintro rfl; exact absurd r.2 (by simp)))⟩

/-- The index at offset `p` of block `q`: `q * B + p`. -/
def joinIdx {A B : ℕ} (q : Fin A) (p : Fin B) : Fin (A * B) :=
  ⟨(q : ℕ) * B + (p : ℕ), OnlineSoftmax.tile_index_lt q p⟩

/-- Every index is the offset of its block: `(r / B) * B + r % B = r`. -/
theorem joinIdx_blockOf_offOf {A B : ℕ} (r : Fin (A * B)) : joinIdx (blockOf r) (offOf r) = r :=
  Fin.ext (Nat.div_add_mod' (r : ℕ) B)

/-- The block of `q * B + p` is `q`. -/
theorem blockOf_joinIdx {A B : ℕ} (q : Fin A) (p : Fin B) : blockOf (joinIdx q p) = q := by
  apply Fin.ext
  show ((q : ℕ) * B + (p : ℕ)) / B = (q : ℕ)
  rw [Nat.add_comm, Nat.add_mul_div_right _ _ (lt_of_le_of_lt (Nat.zero_le _) p.2), Nat.div_eq_of_lt p.2,
    Nat.zero_add]

/-- The offset of `q * B + p` is `p`. -/
theorem offOf_joinIdx {A B : ℕ} (q : Fin A) (p : Fin B) : offOf (joinIdx q p) = p := by
  apply Fin.ext
  show ((q : ℕ) * B + (p : ℕ)) % B = (p : ℕ)
  rw [Nat.add_comm, Nat.add_mul_mod_self_right, Nat.mod_eq_of_lt p.2]

/-- Block and offset determine the index: `q * B + p = q' * B + p'` with both offsets below `B` forces
    `q = q'` and `p = p'`. -/
theorem joinIdx_inj {A B : ℕ} {q q' : Fin A} {p p' : Fin B} (h : joinIdx q p = joinIdx q' p') :
    q = q' ∧ p = p' :=
  ⟨by rw [← blockOf_joinIdx q p, h, blockOf_joinIdx], by rw [← offOf_joinIdx q p, h, offOf_joinIdx]⟩

/-- A function on the cut range read tile by tile (`OnlineSoftmax.tiled`) is the function at `joinIdx`. -/
theorem tiled_eq_joinIdx {α : Type*} [Zero α] {A B : ℕ} (f : Fin (A * B) → α) (q : Fin A) (p : Fin B) :
    OnlineSoftmax.tiled A B f (q : ℕ) p = f (joinIdx q p) :=
  OnlineSoftmax.tiled_of_lt f q.2 p

/-! ### The instances: a 16 × 8 grid of 512 × 1024 tiles over 8192 × 8192, and 8 row blocks of 1024 -/

/-- A grid point `n < 128` is row block `n / 8 < 16` and column tile `n % 8 < 8`, and `n = 8 * (n / 8) + n % 8`. -/
theorem grid_split (n : Fin 128) :
    (n : ℕ) / 8 < 16 ∧ (n : ℕ) % 8 < 8 ∧ (n : ℕ) = 8 * ((n : ℕ) / 8) + (n : ℕ) % 8 := by
  have := n.2; omega

/-- Row block `q < 16` and column tile `k < 8` give the grid point `8 * q + k < 128`, whose quotient and
    remainder by 8 are `q` and `k`. -/
theorem grid_join {q k : ℕ} (hq : q < 16) (hk : k < 8) :
    8 * q + k < 128 ∧ (8 * q + k) / 8 = q ∧ (8 * q + k) % 8 = k := by omega

/-- A grid point has one row block and one column tile. -/
theorem grid_unique {q k q' k' : ℕ} (hk : k < 8) (hk' : k' < 8) (h : 8 * q + k = 8 * q' + k') :
    q = q' ∧ k = k' := by omega

/-- A row `r < 8192` lies in row block `r / 512 < 16` at offset `r % 512 < 512`, and `r = 512 * (r / 512) + r % 512`. -/
theorem row_split (r : Fin 8192) :
    (r : ℕ) / 512 < 16 ∧ (r : ℕ) % 512 < 512 ∧ (r : ℕ) = 512 * ((r : ℕ) / 512) + (r : ℕ) % 512 := by
  have := r.2; omega

/-- Offset `p < 512` of row block `q < 16` is the row `512 * q + p < 8192`, whose quotient and remainder by 512
    are `q` and `p`. -/
theorem row_join {q p : ℕ} (hq : q < 16) (hp : p < 512) :
    512 * q + p < 8192 ∧ (512 * q + p) / 512 = q ∧ (512 * q + p) % 512 = p := by omega

/-- A row has one row block and one offset. -/
theorem row_unique {q p q' p' : ℕ} (hp : p < 512) (hp' : p' < 512) (h : 512 * q + p = 512 * q' + p') :
    q = q' ∧ p = p' := by omega

/-- A column (or a row of the first region) `c < 8192` lies in tile `c / 1024 < 8` at offset `c % 1024 < 1024`,
    and `c = 1024 * (c / 1024) + c % 1024`. -/
theorem col_split (c : Fin 8192) :
    (c : ℕ) / 1024 < 8 ∧ (c : ℕ) % 1024 < 1024 ∧ (c : ℕ) = 1024 * ((c : ℕ) / 1024) + (c : ℕ) % 1024 := by
  have := c.2; omega

/-- Offset `j < 1024` of tile `k < 8` is the column `1024 * k + j < 8192`, whose quotient and remainder by 1024
    are `k` and `j`; the same number written `k * 1024 + j`. -/
theorem col_join {k j : ℕ} (hk : k < 8) (hj : j < 1024) :
    1024 * k + j < 8192 ∧ (1024 * k + j) / 1024 = k ∧ (1024 * k + j) % 1024 = j
      ∧ k * 1024 + j = 1024 * k + j := by omega

/-- A column has one tile and one offset. -/
theorem col_unique {k j k' j' : ℕ} (hj : j < 1024) (hj' : j' < 1024) (h : 1024 * k + j = 1024 * k' + j') :
    k = k' ∧ j = j' := by omega

/-- Tile `k`, entry `j` of a function on `Fin 8192` read as 8 tiles of 1024 is its value at `k * 1024 + j`. -/
theorem tiled_8_1024 {α : Type*} [Zero α] (f : Fin 8192 → α) {k : ℕ} (hk : k < 8) (j : Fin 1024) :
    OnlineSoftmax.tiled 8 1024 f k j = f ⟨k * 1024 + (j : ℕ), by have := j.2; omega⟩ :=
  OnlineSoftmax.tiled_of_lt (n := 8) (K := 1024) f hk j

end Tiles
-- ==== Proof.KernelIdealVS.lean ====
/-
  The attention kernel's scratch, followed over the steps of one row block, is the online softmax recurrence.
  At one row p and one column c of the block, the running maximum, the running normaliser and the running
  weighted sum after step k are the three components of the recurrence's state after k+1 tiles, the tile
  data being the step's 1024 logits of row p and the 1024 entries of column c of the rows of h the step
  multiplies by. The first step starts from the reset values (the mask constant, 0, 0), which are the
  recurrence's initial state; every later step is one step of the recurrence read at the index.
-/
import proofs.«132837_j19086834663562_2_alg».proof.Proof.KernelIdealV1
import proofs.«132837_j19086834663562_2_alg».proof.Proof.LibTiles

noncomputable section

open scoped BigOperators

namespace Cert.KernelIdeal.Val

open Cert.KernelIdeal Cert.KernelIdeal.Gen Cert.KernelIdeal.Frm Idealize.ShloMosaic Idealize.ShloMosaic.ValueIdx

section Steps

variable (b0 : ℕ → Vec Ideal S512x1 .f32) (b1 : ℕ → Vec Ideal S1x1024 .f32) (b2 b3 : ℕ → Vec Ideal S512x1024 .f32)
  (b4 : ℕ → Vec Ideal S8192x256 .bf16) (io : ℕ → grid1.Coords)
  (st : ℕ → Vec Ideal S512x1 .f32 × Vec Ideal S512x1 .f32 × Vec Ideal S512x256 .f32)

/-- The logits of row p at step k: tile k of the recurrence's scores. -/
def sT (p : Fin 512) (k : ℕ) (j : Fin 1024) : EReal := sc (b0 k) (b1 k) (b2 k) (b3 k) p j

/-- Column c of the rows of h that step k multiplies by: tile k of the recurrence's values. -/
def hT (c : Fin 256) (k : ℕ) (j : Fin 1024) : EReal :=
  (b4 k) (ix2 (⟨k1_off1 (io k) 0 + j.val, off1_row_lt (io k) j⟩ : Fin 8192) c)

/-- The scratch after step k, at row p and column c, is the online recurrence's state after k+1 tiles, as long as
    the scratch follows the steps below n: the first step from the reset values, each later one from the step
    before. -/
theorem steps_state_lt (n : ℕ)
    (h0 : st 0 = (stepM (b0 0) (b1 0) (b2 0) (b3 0) resetM, stepL (b0 0) (b1 0) (b2 0) (b3 0) resetM resetL,
      stepA (io 0) (b0 0) (b1 0) (b2 0) (b3 0) (b4 0) resetM resetA))
    (hS : ∀ k, k + 1 < n → st (k + 1) = (stepM (b0 (k + 1)) (b1 (k + 1)) (b2 (k + 1)) (b3 (k + 1)) (st k).1,
      stepL (b0 (k + 1)) (b1 (k + 1)) (b2 (k + 1)) (b3 (k + 1)) (st k).1 (st k).2.1,
      stepA (io (k + 1)) (b0 (k + 1)) (b1 (k + 1)) (b2 (k + 1)) (b3 (k + 1)) (b4 (k + 1)) (st k).1 (st k).2.2))
    (p : Fin 512) (c : Fin 256) (k : ℕ) (hk : k < n) :
    OnlineSoftmax.state (Ideal.ofBits .f32 0xD9FFCB9E#32) (sT b0 b1 b2 b3 p) (hT b4 io c) (k + 1)
      = ((st k).1 (ix2 p (0 : Fin 1)), (st k).2.1 (ix2 p (0 : Fin 1)), (st k).2.2 (ix2 p c)) := by
  have e0M : (st 0).1 (ix2 p (0 : Fin 1)) = mNew (b0 0) (b1 0) (b2 0) (b3 0) resetM p := by
    rw [h0]; exact stepM_apply (b0 0) (b1 0) (b2 0) (b3 0) resetM p 0
  have e0L : (st 0).2.1 = stepL (b0 0) (b1 0) (b2 0) (b3 0) resetM resetL := by rw [h0]
  have e0A : (st 0).2.2 = stepA (io 0) (b0 0) (b1 0) (b2 0) (b3 0) (b4 0) resetM resetA := by rw [h0]
  have eSM : ∀ k, k + 1 < n → (st (k + 1)).1 (ix2 p (0 : Fin 1))
      = mNew (b0 (k + 1)) (b1 (k + 1)) (b2 (k + 1)) (b3 (k + 1)) (st k).1 p := by
    intro k hk; rw [hS k hk]; exact stepM_apply (b0 (k + 1)) (b1 (k + 1)) (b2 (k + 1)) (b3 (k + 1)) (st k).1 p 0
  have eSL : ∀ k, k + 1 < n → (st (k + 1)).2.1
      = stepL (b0 (k + 1)) (b1 (k + 1)) (b2 (k + 1)) (b3 (k + 1)) (st k).1 (st k).2.1 := by
    intro k hk; rw [hS k hk]
  have eSA : ∀ k, k + 1 < n → (st (k + 1)).2.2
      = stepA (io (k + 1)) (b0 (k + 1)) (b1 (k + 1)) (b2 (k + 1)) (b3 (k + 1)) (b4 (k + 1)) (st k).1 (st k).2.2 := by
    intro k hk; rw [hS k hk]
  refine OnlineSoftmax.state_eq_of_steps_lt (Ideal.ofBits .f32 0xD9FFCB9E#32) (sT b0 b1 b2 b3 p) (hT b4 io c)
    (fun k => (st k).1 (ix2 p (0 : Fin 1))) (fun k => (st k).2.1 (ix2 p (0 : Fin 1)))
    (fun k => (st k).2.2 (ix2 p c)) n ?_ ?_ ?_ ?_ ?_ ?_ k hk
  · beta_reduce
    rw [e0M]
    show max (resetM (F := Ideal) (ix2 p (0 : Fin 1)))
        ((Finset.univ : Finset (Fin 1024)).fold max ⊥ (fun j => sc (b0 0) (b1 0) (b2 0) (b3 0) p j)) = _
    rw [resetM_apply p 0]
    rfl
  · beta_reduce
    rw [e0M, e0L, stepL_apply (b0 0) (b1 0) (b2 0) (b3 0) resetM resetL p 0, resetM_apply p 0, resetL_apply p 0]
    rfl
  · beta_reduce
    rw [e0M, e0A, stepA_apply (b0 0) (b1 0) (b2 0) (b3 0) (b4 0) resetM resetA (io 0) p c, resetM_apply p 0,
      resetA_apply p c]
    rfl
  · intro k hk
    beta_reduce
    rw [eSM k hk]
    rfl
  · intro k hk
    beta_reduce
    rw [eSM k hk, eSL k hk,
      stepL_apply (b0 (k + 1)) (b1 (k + 1)) (b2 (k + 1)) (b3 (k + 1)) (st k).1 (st k).2.1 p 0]
    rfl
  · intro k hk
    beta_reduce
    rw [eSM k hk, eSA k hk,
      stepA_apply (b0 (k + 1)) (b1 (k + 1)) (b2 (k + 1)) (b3 (k + 1)) (b4 (k + 1)) (st k).1 (st k).2.2 (io (k + 1)) p c]
    rfl

/-- The same when the scratch follows the steps for every k. -/
theorem steps_state
    (h0 : st 0 = (stepM (b0 0) (b1 0) (b2 0) (b3 0) resetM, stepL (b0 0) (b1 0) (b2 0) (b3 0) resetM resetL,
      stepA (io 0) (b0 0) (b1 0) (b2 0) (b3 0) (b4 0) resetM resetA))
    (hS : ∀ k, st (k + 1) = (stepM (b0 (k + 1)) (b1 (k + 1)) (b2 (k + 1)) (b3 (k + 1)) (st k).1,
      stepL (b0 (k + 1)) (b1 (k + 1)) (b2 (k + 1)) (b3 (k + 1)) (st k).1 (st k).2.1,
      stepA (io (k + 1)) (b0 (k + 1)) (b1 (k + 1)) (b2 (k + 1)) (b3 (k + 1)) (b4 (k + 1)) (st k).1 (st k).2.2))
    (p : Fin 512) (c : Fin 256) (k : ℕ) :
    OnlineSoftmax.state (Ideal.ofBits .f32 0xD9FFCB9E#32) (sT b0 b1 b2 b3 p) (hT b4 io c) (k + 1)
      = ((st k).1 (ix2 p (0 : Fin 1)), (st k).2.1 (ix2 p (0 : Fin 1)), (st k).2.2 (ix2 p c)) :=
  steps_state_lt b0 b1 b2 b3 b4 io st (k + 1) h0 (fun k _ => hS k) p c k (Nat.lt_succ_self k)

end Steps

end Cert.KernelIdeal.Val

end
-- ==== Proof.LibOnlineCongr.lean ====
import Mathlib
import proofs.«132837_j19086834663562_2_alg».proof.Proof.LibOnlineSoftmax

/-!
# The online recurrence only reads the tiles it has visited

The state after `n` tiles depends on the scores and values of tiles `0, …, n-1` only.
-/

open scoped BigOperators
open Idealize.ShloMosaic

namespace OnlineSoftmax

variable {J : Type*} [Fintype J]

/-- Two families of scores and of values that agree on the first `n` tiles give the same state after `n` tiles. -/
theorem state_congr (neg : EReal) {s s' h h' : ℕ → J → EReal} (n : ℕ) (hs : ∀ k, k < n → s k = s' k)
    (hh : ∀ k, k < n → h k = h' k) : state neg s h n = state neg s' h' n := by
  induction n with
  | zero => rfl
  | succ n ih =>
    rw [state_succ, state_succ, ih (fun k hk => hs k (Nat.lt_succ_of_lt hk)) (fun k hk => hh k (Nat.lt_succ_of_lt hk)),
      hs n (Nat.lt_succ_self n), hh n (Nat.lt_succ_self n)]

end OnlineSoftmax
-- ==== Proof.SpecReal.lean ====
/-
  Finite inputs give finite intermediate values. If every entry of the six argument arrays of the
  graph-attention layer is a real, then so is every entry of h = x · W, of h · a_self and h · a_neighs, and every
  masked logit: sums and products of reals are reals, a choice between two reals is a real, and the three
  literal constants are reals. With the logits and the rows of h named as real families, the softmax-weighted
  row of the specification is the quotient of the online recurrence's accumulator by its normaliser, run over
  8 tiles of 1024 keys.
-/
import proofs.«132837_j19086834663562_2_alg».proof.Proof.RefSpec
import proofs.«132837_j19086834663562_2_alg».proof.Proof.LibOnlineSoftmax

noncomputable section

open scoped BigOperators

namespace GatSpec

open Idealize.ShloMosaic Idealize.ShloMosaic.ValueIdx OnlineSoftmax

/-- A choice between two reals is a real, whatever the condition bit. -/
theorem select_real (b : BitVec 1) {u v : EReal} (hu : ∃ r : ℝ, u = (r : EReal)) (hv : ∃ r : ℝ, v = (r : EReal)) :
    ∃ r : ℝ, Scalar.select b u v = (r : EReal) := by
  unfold Scalar.select
  split
  · exact hu
  · exact hv

/-- A 32-bit float word whose exponent field is not all ones denotes a real. -/
theorem ofBits_f32_real (w : BitVec 32) (hw : (w.extractLsb' 23 8).toNat ≠ 2 ^ 8 - 1) :
    ∃ r : ℝ, Ideal.ofBits .f32 w = (r : EReal) := by
  unfold Ideal.ofBits Ideal.ieee
  simp only []
  rw [if_neg hw]
  split
  · exact ⟨_, rfl⟩
  · exact ⟨_, rfl⟩

/-- The zero word denotes a real. -/
theorem lit_zero_real : ∃ r : ℝ, Ideal.ofBits .f32 0x00000000#32 = (r : EReal) :=
  ofBits_f32_real _ (by decide)

/-- The slope word (0.2 in single precision) denotes a real. -/
theorem lit_slope_real : ∃ r : ℝ, Ideal.ofBits .f32 0x3E4CCCCD#32 = (r : EReal) :=
  ofBits_f32_real _ (by decide)

/-- The mask word (−9·10¹⁵ in single precision) denotes a real. -/
theorem lit_mask_real : ∃ r : ℝ, Ideal.ofBits .f32 0xD9FFCB9E#32 = (r : EReal) :=
  ofBits_f32_real _ (by decide)

/-- The real the mask word denotes. -/
def maskReal : ℝ := Classical.choose lit_mask_real

/-- The mask word denotes `maskReal`. -/
theorem ofBits_mask : Ideal.ofBits .f32 0xD9FFCB9E#32 = (maskReal : EReal) := Classical.choose_spec lit_mask_real

variable {x : (⟨2, ![8192, 512]⟩ : Shape).Idx → EReal} {adj Mm : (⟨2, ![8192, 8192]⟩ : Shape).Idx → EReal}
  {W : (⟨2, ![512, 256]⟩ : Shape).Idx → EReal} {as an : (⟨2, ![256, 1]⟩ : Shape).Idx → EReal}

/-- Every entry of h = x · W is a real when every entry of x and of W is. -/
theorem hmat_real (hx : ∀ i, ∃ r : ℝ, x i = (r : EReal)) (hW : ∀ i, ∃ r : ℝ, W i = (r : EReal)) :
    ∃ H : Fin 8192 → Fin 256 → ℝ, ∀ r c, hmat x W r c = ((H r c : ℝ) : EReal) := by
  choose X hX using hx
  choose Wr hWr using hW
  refine ⟨fun r c => ∑ k : Fin 512, X (ix2 r k) * Wr (ix2 k c), fun r c => ?_⟩
  unfold hmat
  simp only [hX, hWr, coe_mul, coe_finset_sum]

/-- Every entry of h · a_self is a real when every entry of x, W and a_self is. -/
theorem aself_real (hx : ∀ i, ∃ r : ℝ, x i = (r : EReal)) (hW : ∀ i, ∃ r : ℝ, W i = (r : EReal))
    (has : ∀ i, ∃ r : ℝ, as i = (r : EReal)) :
    ∃ A : Fin 8192 → ℝ, ∀ r, aself x W as r = ((A r : ℝ) : EReal) := by
  obtain ⟨H, hH⟩ := hmat_real hx hW
  choose Ar hAr using has
  refine ⟨fun r => ∑ c : Fin 256, H r c * Ar (ix2 c (0 : Fin 1)), fun r => ?_⟩
  unfold aself
  simp only [hH, hAr, coe_mul, coe_finset_sum]

/-- Every entry of h · a_neighs is a real when every entry of x, W and a_neighs is. -/
theorem aneigh_real (hx : ∀ i, ∃ r : ℝ, x i = (r : EReal)) (hW : ∀ i, ∃ r : ℝ, W i = (r : EReal))
    (han : ∀ i, ∃ r : ℝ, an i = (r : EReal)) :
    ∃ A : Fin 8192 → ℝ, ∀ j, aneigh x W an j = ((A j : ℝ) : EReal) := by
  obtain ⟨H, hH⟩ := hmat_real hx hW
  choose Ar hAr using han
  refine ⟨fun j => ∑ c : Fin 256, H j c * Ar (ix2 c (0 : Fin 1)), fun j => ?_⟩
  unfold aneigh
  simp only [hH, hAr, coe_mul, coe_finset_sum]

/-- Every masked logit is a real when every entry of the six arrays is (of adj nothing is needed: it only
    decides a condition bit). -/
theorem score_real (hx : ∀ i, ∃ r : ℝ, x i = (r : EReal)) (hW : ∀ i, ∃ r : ℝ, W i = (r : EReal))
    (has : ∀ i, ∃ r : ℝ, as i = (r : EReal)) (han : ∀ i, ∃ r : ℝ, an i = (r : EReal))
    (hM : ∀ i, ∃ r : ℝ, Mm i = (r : EReal)) :
    ∃ S : Fin 8192 → Fin 8192 → ℝ, ∀ r j, score x adj Mm W as an r j = ((S r j : ℝ) : EReal) := by
  obtain ⟨A, hA⟩ := aself_real hx hW has
  obtain ⟨B, hB⟩ := aneigh_real hx hW han
  choose Mr hMr using hM
  have key : ∀ r j, ∃ s : ℝ, score x adj Mm W as an r j = (s : EReal) := by
    intro r j
    unfold score
    have ht : (aself x W as r + aneigh x W an j) * Mm (ix2 r j) = (((A r + B j) * Mr (ix2 r j) : ℝ) : EReal) := by
      rw [hA, hB, hMr, coe_add, coe_mul]
    rw [ht]
    obtain ⟨sl, hsl⟩ := lit_slope_real
    refine select_real _ (select_real _ ⟨_, rfl⟩ ⟨sl * ((A r + B j) * Mr (ix2 r j)), ?_⟩) lit_mask_real
    rw [hsl, coe_mul]
  choose S hS using key
  exact ⟨S, hS⟩

/-- The softmax-weighted row of the specification as the online recurrence's quotient. With the logits of row r
    and the column c of h given as real families, (softmax · h) at (r, c) is the accumulator divided by the
    normaliser of the online recurrence run over 8 tiles of 1024 keys, from any real initial maximum. -/
theorem hp_eq_online (S : Fin 8192 → Fin 8192 → ℝ) (H : Fin 8192 → Fin 256 → ℝ)
    (hS : ∀ r j, score x adj Mm W as an r j = ((S r j : ℝ) : EReal))
    (hH : ∀ r c, hmat x W r c = ((H r c : ℝ) : EReal)) (neg : ℝ) (r : Fin 8192) (c : Fin 256) :
    hp x adj Mm W as an r c
      = Ideal.div
          (state (neg : EReal) (fun k j => ((tiled 8 1024 (S r) k j : ℝ) : EReal))
            (fun k j => ((tiled 8 1024 (fun i => H i c) k j : ℝ) : EReal)) 8).2.2
          (state (neg : EReal) (fun k j => ((tiled 8 1024 (S r) k j : ℝ) : EReal))
            (fun k j => ((tiled 8 1024 (fun i => H i c) k j : ℝ) : EReal)) 8).2.1 := by
  unfold hp den rowmax
  simp only [hS, hH, zero_add]
  obtain ⟨M, hM⟩ := exists_max_bot_fold_max_coe (J := Fin 8192) (S r)
  rw [hM]
  exact (online_eq_reference_flat neg (n := 8) (K := 1024) (by norm_num) (by norm_num) (S r) (fun i => H i c) M).symm

end GatSpec

end
-- ==== Proof.KernelIdealE1.lean ====
/-
  One entry of the attention kernel's output is the specification's. Fix a row block q, a row p of it (the global
  row r = 512·q + p) and a column c. The 8 steps of the row block are the grid points 8·q + k. The scratch after
  step k, read at (p, c), is the online softmax recurrence's state after k+1 tiles over the step's logits and
  the step's rows of h; the logits of step k are row r's logits at the columns 1024·k + j and the rows of h are the
  rows 1024·k + j, so the tiles are the 8 tiles of 1024 of row r's logits and of column c of h; and the
  recurrence's final quotient is the softmax-weighted sum of the specification. The output entry is the
  exponential linear unit of that quotient.
-/
import proofs.«132837_j19086834663562_2_alg».proof.Proof.KernelIdealR1S
import proofs.«132837_j19086834663562_2_alg».proof.Proof.KernelIdealVS
import proofs.«132837_j19086834663562_2_alg».proof.Proof.LibOnlineCongr
import proofs.«132837_j19086834663562_2_alg».proof.Proof.LibTiles
import proofs.«132837_j19086834663562_2_alg».proof.Proof.SpecReal
import proofs.«132837_j19086834663562_2_alg».proof.Proof.KernelIdealV1

set_option maxRecDepth 16384

noncomputable section

open scoped BigOperators

namespace Cert.KernelIdeal.Val

open Cert.KernelIdeal Cert.KernelIdeal.Gen Cert.KernelIdeal.Frm Idealize.ShloMosaic Idealize.ShloMosaic.TcCoe
  Idealize.ShloMosaic.ValueIdx

variable (V : (c : Dev nD) → (b : Ref sig .tc) → Buf (Elt Ideal) ((c : Thread nD τ).loc b))

/-- The grid has 128 points. -/
theorem cfg1_N : cfg1.N = 128 := N_1

/-- The running state at a position does not depend on how the position is written. -/
theorem stAt_congr (c : Dev nD) {n n' : ℕ} (h : n = n') (hn : n < cfg1.N) (hn' : n' < cfg1.N) :
    stAt V c n hn = stAt V c n' hn' := by
  subst h; rfl

/-- Step k (taken modulo 8) of row block q as a grid point: 8·q + k. -/
def pt (q : ℕ) (hq : q < 16) (k : ℕ) : Fin cfg1.N :=
  ⟨8 * q + k % 8, by rw [cfg1_N]; have := Nat.mod_lt k (show 0 < 8 by norm_num); omega⟩

theorem pt_val (q : ℕ) (hq : q < 16) (k : ℕ) : (pt q hq k).val = 8 * q + k % 8 := rfl

section Entry

variable {x : (⟨2, ![8192, 512]⟩ : Shape).Idx → EReal} {adj Mm : (⟨2, ![8192, 8192]⟩ : Shape).Idx → EReal}
  {W : (⟨2, ![512, 256]⟩ : Shape).Idx → EReal} {aS aN : (⟨2, ![256, 1]⟩ : Shape).Idx → EReal}

/-- The scratch after the last step of row block q, read at row p and column c, is the online recurrence's state
    after 8 tiles over the steps' logits and rows of h. -/
theorem block_state (c : Dev nD) (q : ℕ) (hq : q < 16) (p : Fin 512) (cc : Fin 256) :
    OnlineSoftmax.state (Ideal.ofBits .f32 0xD9FFCB9E#32)
        (sT (fun k => (iblk1 V c 0 (pt q hq k) : Vec Ideal S512x1 .f32))
          (fun k => (iblk1 V c 1 (pt q hq k) : Vec Ideal S1x1024 .f32))
          (fun k => (iblk1 V c 2 (pt q hq k) : Vec Ideal S512x1024 .f32))
          (fun k => (iblk1 V c 3 (pt q hq k) : Vec Ideal S512x1024 .f32)) p)
        (hT (fun k => (iblk1 V c 4 (pt q hq k) : Vec Ideal S8192x256 .bf16)) (fun k => grid1.coords (pt q hq k)) cc) 8
      = ((stAt V c (pt q hq 7).val (pt q hq 7).isLt).1 (ix2 p (0 : Fin 1)),
         (stAt V c (pt q hq 7).val (pt q hq 7).isLt).2.1 (ix2 p (0 : Fin 1)),
         (stAt V c (pt q hq 7).val (pt q hq 7).isLt).2.2 (ix2 p cc)) := by
  refine steps_state_lt (fun k => (iblk1 V c 0 (pt q hq k) : Vec Ideal S512x1 .f32))
    (fun k => (iblk1 V c 1 (pt q hq k) : Vec Ideal S1x1024 .f32))
    (fun k => (iblk1 V c 2 (pt q hq k) : Vec Ideal S512x1024 .f32))
    (fun k => (iblk1 V c 3 (pt q hq k) : Vec Ideal S512x1024 .f32))
    (fun k => (iblk1 V c 4 (pt q hq k) : Vec Ideal S8192x256 .bf16)) (fun k => grid1.coords (pt q hq k))
    (fun k => stAt V c (pt q hq k).val (pt q hq k).isLt) 8 ?_ ?_ p cc 7 (by norm_num)
  · exact stAt_first V c (pt q hq 0) (by rw [pt_val]; omega)
  · intro k hk
    have hne : ¬(pt q hq (k + 1)).val % 8 = 0 := by rw [pt_val]; omega
    have e := stAt_next V c (pt q hq (k + 1)) hne
    rw [stAt_congr V c (show (pt q hq (k + 1)).val - 1 = (pt q hq k).val by rw [pt_val, pt_val]; omega) _
      (pt q hq k).isLt] at e
    exact e

/-- One entry of the softmax-weighted sum. If the blocks' logits are the specification's logits of the block's rows
    and columns, and the rows of h a step multiplies by are the specification's rows of h, then after the last step
    of row block q the weighted sum over the normaliser, at row p and column c, is the specification's
    (softmax · h) at (512·q + p, c). -/
theorem entry_hp (c : Dev nD) (S : Fin 8192 → Fin 8192 → ℝ) (H : Fin 8192 → Fin 256 → ℝ)
    (hS : ∀ r j, GatSpec.score x adj Mm W aS aN r j = ((S r j : ℝ) : EReal))
    (hH : ∀ r c, GatSpec.hmat x W r c = ((H r c : ℝ) : EReal))
    (hts : ∀ (t : Fin cfg1.N) (p : Fin 512) (j : Fin 1024) (hr : 512 * (t.val / 8) + p.val < 8192)
        (hc : 1024 * (t.val % 8) + j.val < 8192),
      sc (iblk1 V c 0 t : Vec Ideal S512x1 .f32) (iblk1 V c 1 t : Vec Ideal S1x1024 .f32)
          (iblk1 V c 2 t : Vec Ideal S512x1024 .f32) (iblk1 V c 3 t : Vec Ideal S512x1024 .f32) p j
        = GatSpec.score x adj Mm W aS aN ⟨512 * (t.val / 8) + p.val, hr⟩ ⟨1024 * (t.val % 8) + j.val, hc⟩)
    (hth : ∀ (t : Fin cfg1.N) (j : Fin 1024) (cc : Fin 256) (hc : 1024 * (t.val % 8) + j.val < 8192),
      (iblk1 V c 4 t : Vec Ideal S8192x256 .bf16)
          (ix2 (⟨k1_off1 (grid1.coords t) 0 + j.val, off1_row_lt (grid1.coords t) j⟩ : Fin 8192) cc)
        = GatSpec.hmat x W ⟨1024 * (t.val % 8) + j.val, hc⟩ cc)
    (q : ℕ) (hq : q < 16) (p : Fin 512) (cc : Fin 256) (h7 : 8 * q + 7 < cfg1.N) (hr : 512 * q + p.val < 8192) :
    Ideal.div ((stAt V c (8 * q + 7) h7).2.2 (ix2 p cc)) ((stAt V c (8 * q + 7) h7).2.1 (ix2 p (0 : Fin 1)))
      = GatSpec.hp x adj Mm W aS aN ⟨512 * q + p.val, hr⟩ cc := by
  have hst := block_state V c q hq p cc
  have hp' := p.isLt
  have hs : ∀ k, k < 8 →
      sT (fun k => (iblk1 V c 0 (pt q hq k) : Vec Ideal S512x1 .f32))
          (fun k => (iblk1 V c 1 (pt q hq k) : Vec Ideal S1x1024 .f32))
          (fun k => (iblk1 V c 2 (pt q hq k) : Vec Ideal S512x1024 .f32))
          (fun k => (iblk1 V c 3 (pt q hq k) : Vec Ideal S512x1024 .f32)) p k
        = fun j => ((OnlineSoftmax.tiled 8 1024 (S ⟨512 * q + p.val, hr⟩) k j : ℝ) : EReal) := by
    intro k hk
    funext j
    have hj := j.isLt
    show sc (iblk1 V c 0 (pt q hq k) : Vec Ideal S512x1 .f32) (iblk1 V c 1 (pt q hq k) : Vec Ideal S1x1024 .f32)
        (iblk1 V c 2 (pt q hq k) : Vec Ideal S512x1024 .f32) (iblk1 V c 3 (pt q hq k) : Vec Ideal S512x1024 .f32) p j = _
    rw [hts (pt q hq k) p j (by rw [pt_val]; omega) (by rw [pt_val]; omega),
      Tiles.tiled_8_1024 (S ⟨512 * q + p.val, hr⟩) hk j, ← hS]
    exact congrArg₂ (GatSpec.score x adj Mm W aS aN)
      (Fin.ext (by show 512 * ((8 * q + k % 8) / 8) + p.val = 512 * q + p.val; omega))
      (Fin.ext (by show 1024 * ((8 * q + k % 8) % 8) + j.val = k * 1024 + j.val; omega))
  have hh : ∀ k, k < 8 →
      hT (fun k => (iblk1 V c 4 (pt q hq k) : Vec Ideal S8192x256 .bf16)) (fun k => grid1.coords (pt q hq k)) cc k
        = fun j => ((OnlineSoftmax.tiled 8 1024 (fun i => H i cc) k j : ℝ) : EReal) := by
    intro k hk
    funext j
    have hj := j.isLt
    show (iblk1 V c 4 (pt q hq k) : Vec Ideal S8192x256 .bf16)
        (ix2 (⟨k1_off1 (grid1.coords (pt q hq k)) 0 + j.val, off1_row_lt (grid1.coords (pt q hq k)) j⟩ : Fin 8192) cc) = _
    rw [hth (pt q hq k) j cc (by rw [pt_val]; omega), Tiles.tiled_8_1024 (fun i => H i cc) hk j, ← hH]
    exact congrArg (fun r => GatSpec.hmat x W r cc)
      (Fin.ext (by show 1024 * ((8 * q + k % 8) % 8) + j.val = k * 1024 + j.val; omega))
  rw [GatSpec.hp_eq_online S H hS hH GatSpec.maskReal ⟨512 * q + p.val, hr⟩ cc, ← GatSpec.ofBits_mask,
    ← OnlineSoftmax.state_congr (Ideal.ofBits .f32 0xD9FFCB9E#32) 8 hs hh, hst,
    stAt_congr V c (show 8 * q + 7 = (pt q hq 7).val from rfl) h7 (pt q hq 7).isLt]

/-- One entry of the output block stored at the last step of row block q: the exponential linear unit of the
    weighted sum over the normaliser, which is the specification's output at (512·q + p, c). -/
theorem entry_out (c : Dev nD) (S : Fin 8192 → Fin 8192 → ℝ) (H : Fin 8192 → Fin 256 → ℝ)
    (hS : ∀ r j, GatSpec.score x adj Mm W aS aN r j = ((S r j : ℝ) : EReal))
    (hH : ∀ r c, GatSpec.hmat x W r c = ((H r c : ℝ) : EReal))
    (hts : ∀ (t : Fin cfg1.N) (p : Fin 512) (j : Fin 1024) (hr : 512 * (t.val / 8) + p.val < 8192)
        (hc : 1024 * (t.val % 8) + j.val < 8192),
      sc (iblk1 V c 0 t : Vec Ideal S512x1 .f32) (iblk1 V c 1 t : Vec Ideal S1x1024 .f32)
          (iblk1 V c 2 t : Vec Ideal S512x1024 .f32) (iblk1 V c 3 t : Vec Ideal S512x1024 .f32) p j
        = GatSpec.score x adj Mm W aS aN ⟨512 * (t.val / 8) + p.val, hr⟩ ⟨1024 * (t.val % 8) + j.val, hc⟩)
    (hth : ∀ (t : Fin cfg1.N) (j : Fin 1024) (cc : Fin 256) (hc : 1024 * (t.val % 8) + j.val < 8192),
      (iblk1 V c 4 t : Vec Ideal S8192x256 .bf16)
          (ix2 (⟨k1_off1 (grid1.coords t) 0 + j.val, off1_row_lt (grid1.coords t) j⟩ : Fin 8192) cc)
        = GatSpec.hmat x W ⟨1024 * (t.val % 8) + j.val, hc⟩ cc)
    (q : ℕ) (hq : q < 16) (p : Fin 512) (cc : Fin 256) (h7 : 8 * q + 7 < cfg1.N) (hr : 512 * q + p.val < 8192) :
    stepO (stAt V c (8 * q + 7) h7).2.2 (stAt V c (8 * q + 7) h7).2.1 (ix2 p cc)
      = GatSpec.out x adj Mm W aS aN (ix2 (⟨512 * q + p.val, hr⟩ : Fin 8192) cc) := by
  rw [stepO_apply, eluK_eq, entry_hp V c S H hS hH hts hth q hq p cc h7 hr]
  rfl

end Entry

end Cert.KernelIdeal.Val

end
-- ==== Proof.FiniteInputs.lean ====
/-
  From the printed precondition to "every entry is a real". The precondition is the conjunction, over the six
  argument arrays, of "every entry has absolute value below +∞". An extended real whose absolute value
  max x (−x) is below +∞ is neither −∞ nor +∞, so it is a real; a conjunction of bits is 1 only when each
  is; and an and-reduction over all axes is 1 only when every reduced bit is.
-/
import proofs.«132837_j19086834663562_2_alg».proof.Pre_finite_inputs
import Idealize.ShloMosaic.Lib.ReduceAll
import Idealize.ShloMosaic.Lib.IdealHost
import Idealize.ShloMosaic.Lib.ValueIdx
import Idealize.ShloMosaic.PureOps.Ideal.Laws

noncomputable section

namespace Cert.FiniteInputs

open Idealize.ShloMosaic Idealize.ShloMosaic.ValueIdx Cert.Pre_finite_inputs

/-- The rank-0 shape has one index. -/
instance subsingleton_scalar_idx : Subsingleton S_.Idx := ⟨fun a b => funext fun d => d.elim0⟩

/-- The single-precision word of +∞ denotes the top element. -/
theorem ofBits_pos_inf_f32 : Ideal.ofBits .f32 0x7F800000#32 = (⊤ : EReal) := by
  simp [Ideal.ofBits, Ideal.ieee]

/-- An extended real whose absolute value max x (−x) compares below +∞ is a real. -/
theorem real_of_abs_lt_inf (x : EReal)
    (h : Ideal.cmp .olt (max x (-x)) (Ideal.ofBits .f32 0x7F800000#32) = 1#1) : ∃ r : ℝ, x = (r : EReal) := by
  rw [ofBits_pos_inf_f32] at h
  induction x using EReal.rec with
  | bot => simp [Ideal.cmp] at h
  | coe r => exact ⟨r, rfl⟩
  | top => simp [Ideal.cmp] at h

/-- One array: if the and-reduction over all axes of "absolute value below +∞" is 1, every entry is a real. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (h : Host.reduce IntOp.andi
          (cmpf .olt (Host.absf a) (broadcastInDim s ![] hb (constant (F := Ideal) S_ .f32 0x7F800000#32)))
          init hr hu ix0 = 1#1) :
    ∀ i, ∃ r : ℝ, a i = (r : EReal) := by
  intro i
  have e := Host.reduce_andi_all _ _ hr hu ix0 h i
  rw [cmpf_apply, broadcastInDim_scalar_apply] at e
  exact real_of_abs_lt_inf (a i) e

variable [Cert.Pre_finite_inputs.Facts]

/-- The printed precondition holds only if every entry of each of the six arrays is a real. -/
theorem finite_of_pre (a0 : FVec Ideal S8192x512 .f32) (a1 a2 : FVec Ideal S8192x8192 .f32)
    (a3 : FVec Ideal S512x256 .f32) (a4 a5 : FVec Ideal S256x1 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, ∃ r : ℝ, a5 i = (r : EReal)) := by
  have h0 := congrFun h ix0
  dsimp only [Cert.Pre_finite_inputs.fn, Cert.Pre_finite_inputs.fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨all_real a0 _ _ _ _ h0', all_real a1 _ _ _ _ h1, all_real a2 _ _ _ _ h2, all_real a3 _ _ _ _ h3,
    all_real a4 _ _ _ _ h4, all_real a5 _ _ _ _ h5⟩

end Cert.FiniteInputs

end
-- ==== Proof.KernelIdealValue.lean ====
/-
  The result array. After the run the attention kernel's output array is what its write-backs leave: for each
  block of 512 rows, the block stored at the last of its eight steps. That block is the exponential linear unit
  of the running weighted sum over the running normaliser; the running state after the eighth tile is the
  softmax's numerator and denominator for the row, shifted by the running maximum; and a softmax over finite reals
  does not depend on the shift. So the array is the specification's function of the six argument arrays, provided
  they hold finite numbers.
-/
import proofs.«132837_j19086834663562_2_alg».proof.Defs
import proofs.«132837_j19086834663562_2_alg».proof.Proof.KernelIdealEntry
import proofs.«132837_j19086834663562_2_alg».proof.Proof.KernelIdealA1
import proofs.«132837_j19086834663562_2_alg».proof.Proof.KernelIdealT1
import proofs.«132837_j19086834663562_2_alg».proof.Proof.KernelIdealE1
import proofs.«132837_j19086834663562_2_alg».proof.Proof.FiniteInputs
import proofs.«132837_j19086834663562_2_alg».proof.Proof.SpecReal
import proofs.«132837_j19086834663562_2_alg».proof.Proof.Gen.Pre_finite_inputs
import proofs.«132837_j19086834663562_2_alg».proof.Proof.Gen.KernelIdeal.Points

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Frm

variable (m : (ℓ : Loc nD τ sig) → Buf (Elt Ideal) ℓ) (ρ : Dev nD → PrngReg)

/-- What the pipeline writes back at the last step of a row block is that block of the specification's result. -/
theorem flushed1_5_eq (c : Dev nD)
    (S : Fin 8192 → Fin 8192 → ℝ) (H : Fin 8192 → Fin 256 → ℝ)
    (hS : ∀ r j, GatSpec.score (m ((c : Thread nD τ).loc main_arg0) : S8192x512.Idx → EReal) (m ((c : Thread nD τ).loc main_arg1) : S8192x8192.Idx → EReal) (m ((c : Thread nD τ).loc main_arg2) : S8192x8192.Idx → EReal) (m ((c : Thread nD τ).loc main_arg3) : S512x256.Idx → EReal) (m ((c : Thread nD τ).loc main_arg4) : S256x1.Idx → EReal) (m ((c : Thread nD τ).loc main_arg5) : S256x1.Idx → EReal) r j = ((S r j : ℝ) : EReal))
    (hH : ∀ r cc, GatSpec.hmat (m ((c : Thread nD τ).loc main_arg0) : S8192x512.Idx → EReal) (m ((c : Thread nD τ).loc main_arg3) : S512x256.Idx → EReal) r cc = ((H r cc : ℝ) : EReal))
    (t : Fin cfg1.N) (hf : (cfg1.win 5).flush t = true) :
    (dat1 (V2 m ρ) c).flushed 5 t
      = ((cfg1.win 5).blk t).view.read (Elt Ideal) (GatSpec.out (m ((c : Thread nD τ).loc main_arg0) : S8192x512.Idx → EReal) (m ((c : Thread nD τ).loc main_arg1) : S8192x8192.Idx → EReal) (m ((c : Thread nD τ).loc main_arg2) : S8192x8192.Idx → EReal) (m ((c : Thread nD τ).loc main_arg3) : S512x256.Idx → EReal) (m ((c : Thread nD τ).loc main_arg4) : S256x1.Idx → EReal) (m ((c : Thread nD τ).loc main_arg5) : S256x1.Idx → EReal) : S8192x256.Idx → EReal) := by
  have h7 : t.val % 8 = 7 := (flush1_5 t).mp hf
  have hN : t.val < 128 := lt_of_lt_of_eq t.isLt (show cfg1.N = 128 from N_1)
  have e : (dat1 (V2 m ρ) c).flushed 5 t
      = (stepO (stAt (V2 m ρ) c t.val t.isLt).2.2 (stAt (V2 m ρ) c t.val t.isLt).2.1 : Vec Ideal S512x256 .f32) := by
    show (cfg1.win 5).cut (grid1.coords t) ((dat1 (V2 m ρ) c).after 5 t) = _
    rw [after1_5]; rfl
  rw [e]
  refine funext fun (y : S512x256.Idx) => ?_
  obtain ⟨p, cc, rfl⟩ : ∃ (p : Fin 512) (cc : Fin 256), y = ix2 p cc := ⟨y 0, y 1, eq_ix2 y⟩
  rw [blk1_5_read_apply c t _ (ix2 p cc) (ix2 (⟨512 * (t.val / 8) + p.val, row_lt t p⟩ : Fin 8192) cc) rfl rfl]
  have hq : t.val / 8 < 16 := by omega
  have ht : t.val = 8 * (t.val / 8) + 7 := by omega
  have h7' : 8 * (t.val / 8) + 7 < cfg1.N := ht ▸ t.isLt
  rw [stAt_congr (V2 m ρ) c ht t.isLt h7']
  exact entry_out (V2 m ρ) c S H hS hH (fun t p j _ _ => tile_score m ρ c t p j) (fun t j cc _ => tile_h m ρ c t j cc)
    (t.val / 8) hq p cc h7' (row_lt t p)

/-- THE RESULT ARRAY. When the six argument arrays hold finite numbers, the last boundary's contents of the result
    array are the specification's function of them. -/
theorem kernel_value (hpre : Cert.Pre_KernelIdeal (hPre_finite_inputs := Cert.Pre_finite_inputs.Gen.facts) m) (c : Dev nD) :
    W3 m ρ c (Proc.devRef .tc main_v2) = (GatSpec.out (m ((c : Thread nD τ).loc main_arg0) : S8192x512.Idx → EReal) (m ((c : Thread nD τ).loc main_arg1) : S8192x8192.Idx → EReal) (m ((c : Thread nD τ).loc main_arg2) : S8192x8192.Idx → EReal) (m ((c : Thread nD τ).loc main_arg3) : S512x256.Idx → EReal) (m ((c : Thread nD τ).loc main_arg4) : S256x1.Idx → EReal) (m ((c : Thread nD τ).loc main_arg5) : S256x1.Idx → EReal) : S8192x256.Idx → EReal) := by
  obtain ⟨hx, hadj, hM, hW, has, han⟩ := Cert.FiniteInputs.finite_of_pre _ _ _ _ _ _ (hpre c)
  obtain ⟨S, hS⟩ := GatSpec.score_real (adj := (m ((c : Thread nD τ).loc main_arg1) : S8192x8192.Idx → EReal)) hx hW has han hM
  obtain ⟨H, hH⟩ := GatSpec.hmat_real hx hW
  show W3 m ρ c (Proc.devRef .tc (Pipeline.arrRef spec1 5)) = _
  exact (W3_arr m ρ c 5).trans ((dat1 (V2 m ρ) c).arrAt_eq_of_cover 5 _ (flushed1_5_eq m ρ c S H hS hH) (cover1_5 c))

/-- THE RUN, read at the result: every weakly fair execution terminates with the result array at the
    specification's function of the launch contents of the six arguments, and those unchanged. -/
theorem run_value (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v2) = (GatSpec.out (m ((c : Thread nD τ).loc main_arg0) : S8192x512.Idx → EReal) (m ((c : Thread nD τ).loc main_arg1) : S8192x8192.Idx → EReal) (m ((c : Thread nD τ).loc main_arg2) : S8192x8192.Idx → EReal) (m ((c : Thread nD τ).loc main_arg3) : S512x256.Idx → EReal) (m ((c : Thread nD τ).loc main_arg4) : S256x1.Idx → EReal) (m ((c : Thread nD τ).loc main_arg5) : S256x1.Idx → EReal) : S8192x256.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_v2 (by decide))).trans (kernel_value m ρ hpre c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c)⟩) (Cert.KernelIdeal.Frm.run (F := Ideal) m ρ)

end Cert.KernelIdeal.Val

end
-- ==== Proof.lean ====
/-
  A graph-attention layer over 8192 nodes, computed two ways. With h = x · W, the logit of the pair (r, j) is
  ((h · a_self) r + (h · a_neighs) j) · M r j, passed through a leaky rectifier of slope 0.2 and replaced by −9·10¹⁵
  where adj r j is not positive; each row is normalised by a softmax, the weights are applied to h, and the
  exponential linear unit is taken of every entry. The reference does this in one pass over whole arrays. The
  kernel does it in two regions: a projection kernel that leaves h and the two columns h · a_self, h · a_neighs
  block by block, and an attention kernel over a 16 × 8 grid that, for each block of 512 rows, sweeps the 8192
  columns in eight tiles keeping a running row maximum, a running normaliser and a running weighted sum, and
  divides at the last tile.
  The three frames: each program terminates on every weakly fair execution, faults nowhere and leaves its
  arguments as launched — for the kernel's program (read at the word level and at the extended reals) through
  the launch of its two regions, the attention kernel's invariant carrying its three scratch buffers at the
  running state; for the reference through its run as a sequence of host operations.
  The equality of the results over the extended reals: the running state after the eighth tile is the softmax's
  numerator and denominator shifted by the running maximum instead of the row maximum, and a softmax over finite
  reals does not depend on the shift — which is where the finiteness of the inputs is used; the two spellings of
  the exponential linear unit agree entry by entry.
-/
import proofs.«132837_j19086834663562_2_alg».proof.Defs
import proofs.«132837_j19086834663562_2_alg».proof.Proof.Gen.Kernel
import proofs.«132837_j19086834663562_2_alg».proof.Proof.Gen.KernelIdeal
import proofs.«132837_j19086834663562_2_alg».proof.Proof.Gen.ReferenceIdeal
import proofs.«132837_j19086834663562_2_alg».proof.Proof.Gen.Pre_finite_inputs
import proofs.«132837_j19086834663562_2_alg».proof.Proof.KernelRun
import proofs.«132837_j19086834663562_2_alg».proof.Proof.KernelIdealRun
import proofs.«132837_j19086834663562_2_alg».proof.Proof.RefValue
import proofs.«132837_j19086834663562_2_alg».proof.Proof.KernelIdealValue

noncomputable section

namespace Cert.Proof

open Idealize.ShloMosaic Idealize.SL.Sem

/-- The word-level program's frame. -/
theorem frame_k : Cert.frame_Kernel (hKernel := Cert.Kernel.Gen.facts) (hPre_finite_inputs := Cert.Pre_finite_inputs.Gen.facts) :=
  fun m ρ _ => Cert.Kernel.Frm.frame (F := Bits) m ρ

/-- The same program's frame read at the extended reals. -/
theorem frame_ki : Cert.frame_KernelIdeal (hKernelIdeal := Cert.KernelIdeal.Gen.facts) (hPre_finite_inputs := Cert.Pre_finite_inputs.Gen.facts) :=
  fun m ρ _ => Cert.KernelIdeal.Frm.frame (F := Ideal) m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m g _ => (θ_run _ _ _).mono (fun _ h c => (h c).2) (Cert.ReferenceIdeal.RefRun.run (F := Ideal) m g)

/-- The idealization rewrote no operation: there is nothing to preserve. -/
theorem preserves : Cert.preserves_Kernel_KernelIdeal := trivial

/-- The two results agree over the extended reals: both runs end with the result array at the specification's
    function of the argument arrays — the kernel's by the running softmax's invariance under the shift (which uses
    that the inputs are finite), the reference's by reading its operations index by index — and the two memories
    agree on the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m g m' g' hpre hagree
  refine ⟨fun c => GatSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Val.run_value m g hpre, ?_⟩
  refine (θ_run _ _ _).mono (fun _ h c => ⟨(h c).1.trans ?_, (h c).2⟩) (Cert.ReferenceIdeal.RefRun.run (F := Ideal) m' g')
  rw [Cert.ReferenceIdeal.RefValue.resultTerm_eq]
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
